-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩
abbrev S16384x1 : Shape := ⟨2, ![16384, 1]⟩
abbrev S2048x1024 : Shape := ⟨2, ![2048, 1024]⟩
abbrev S2048x1 : Shape := ⟨2, ![2048, 1]⟩
abbrev S2048x2048 : Shape := ⟨2, ![2048, 2048]⟩
abbrev S2048 : Shape := ⟨1, ![2048]⟩
abbrev S16384 : Shape := ⟨1, ![16384]⟩
abbrev S_ : Shape := ⟨0, ![]⟩

abbrev nBuf : Space → Nat
  | .hbm => 20
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384, .f32⟩
  | .hbm, ⟨14, _⟩ => ⟨S16384, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def k1_cond4 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_6 : BitVec 32 := 0#32
  let v16 : BitVec 1 := Scalar.cmpi .ne v15 c0_i32_6
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  iota_S2048x2048_d0_w32 : S2048x2048.Iotas .tc 32 [0]
  iota_S2048x2048_d1_w32 : S2048x2048.Iotas .tc 32 [1]
  reduces_S2048x2048_S2048 : S2048x2048.Reduces [1] S2048
  shapeCasts_S2048_S2048x1 : S2048.ShapeCasts S2048x1
  shapeCasts_S16384x1_S16384 : S16384x1.ShapeCasts S16384
  bcast_S_S16384 : S_.BroadcastsInDim S16384 (![] : Fin 0 → Fin S16384.rank)
  reducesTo_S16384_S_d0 : S16384.ReducesTo [0] S_
  h_S_ : 0 < S_.numel
  dot_S2048x1024_S2048x1024_S2048x2048_1_1_0_0_n_n_wf : DotDims.WF S2048x1024 S2048x1024 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .bf16 = 32 ∨ (Rect.block (s := S16384x1024) S512x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x1024.size a
  hwx1_0 : ∀ i : grid1.Coords, EltTy.bits .bf16 = 32 ∨ (Rect.block (s := S16384x1024) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S16384x1024.size a
  hwx1_1 : ∀ i : grid1.Coords, EltTy.bits .bf16 = 32 ∨ (Rect.block (s := S16384x1024) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S16384x1.size a
  hwx1_2 : ∀ i : grid1.Coords, EltTy.bits .f32 = 32 ∨ (Rect.block (s := S16384x1) S2048x1.size (cc1_transform_2 i) (hinb1_2 i)).WholeWords (EltTy.packing .f32)

variable [Facts₀]

def dot_S2048x1024_S2048x1024_S2048x2048_1_1_0_0_n_n : DotDims S2048x1024 S2048x1024 S2048x2048 where
  lhsContracting := [1]
  rhsContracting := [1]
  lhsNonContracting := [0]
  rhsNonContracting := [0]
  lhsBatch := []
  rhsBatch := []
  wf := dot_S2048x1024_S2048x1024_S2048x2048_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond4 i == 1#1) | ⟨_ + 3, h⟩ => absurd h (Nat.not_lt.2 (Nat.le_add_left _ _))

class Facts : Prop extends Facts₀ where

variable [Facts]
-- ==== ReferenceIdeal.lean ====
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1024x16384 : Shape := ⟨2, ![1024, 16384]⟩
abbrev S16384x16384 : Shape := ⟨2, ![16384, 16384]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S16384, .f32⟩
  | .hbm, ⟨4, _⟩ => ⟨S16384x1, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x1024, .f32⟩
  | .hbm, ⟨10, _⟩ => ⟨S16384x1024, .f32⟩
  | .hbm, ⟨11, _⟩ => ⟨S1024x16384, .f32⟩
  | .hbm, ⟨12, _⟩ => ⟨S16384x16384, .f32⟩
  | .hbm, ⟨13, _⟩ => ⟨S16384x16384, .i32⟩
  | .hbm, ⟨14, _⟩ => ⟨S16384x16384, .i32⟩
  | .hbm, ⟨15, _⟩ => ⟨S_, .i32⟩
  | .hbm, ⟨16, _⟩ => ⟨S16384x16384, .i32⟩
  | .hbm, ⟨17, _⟩ => ⟨S16384x16384, .i32⟩
  | .hbm, ⟨18, _⟩ => ⟨S16384x16384, .i1⟩
  | .hbm, ⟨19, _⟩ => ⟨S_, .f32⟩
  | .hbm, ⟨20, _⟩ => ⟨S_, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call1_v0 : Ref sig .tc := ⟨.hbm, 20, rfl⟩
abbrev main_call1_v1 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  transposes_S16384x1024_S1024x16384_1_0 : S16384x1024.Transposes [1, 0] S1024x16384
  bcast_S_S16384x16384 : S_.BroadcastsInDim S16384x16384 (![] : Fin 0 → Fin S16384x16384.rank)
  reducesTo_S16384x16384_S16384_d1 : S16384x16384.ReducesTo [1] S16384
  bcast_S_S16384 : S_.BroadcastsInDim S16384 (![] : Fin 0 → Fin S16384.rank)
  reducesTo_S16384_S_d0 : S16384.ReducesTo [0] S_
  dot_S16384x1024_S1024x16384_S16384x16384_1_0_0_1_n_n_wf : DotDims.WF S16384x1024 S1024x16384 S16384x16384 [1] [0] [0] [1] [] []

variable [Facts₀]

def dot_S16384x1024_S1024x16384_S16384x16384_1_0_0_1_n_n : DotDims S16384x1024 S1024x16384 S16384x16384 where
  lhsContracting := [1]
  rhsContracting := [0]
  lhsNonContracting := [0]
  rhsNonContracting := [1]
  lhsBatch := []
  rhsBatch := []
  wf := dot_S16384x1024_S1024x16384_S16384x16384_1_0_0_1_n_n_wf

class Facts : Prop extends Facts₀ where

variable [Facts]
-- ==== Proof.Bits.Region0.lean ====
/-
  Region 0 of the kernel program: the row-normalising pipeline (32 points, one block of 512 rows per point).
  Per point the body reads its input block from the first window's staging buffer and stores, into the second
  window's staging buffer, the block with every row divided by its clamped norm.  This file gives the pipeline's
  proof data at arbitrary region-entry contents `V` and proves the body obligation at every point, at any float
  instance.
-/
import proofs.«121834_j13924283973723_2_alg».proof.Proof.Gen.Kernel.Launch
import proofs.«121834_j13924283973723_2_alg».proof.Proof.Gen.Kernel.Skeleton
import proofs.«121834_j13924283973723_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x1024 := Rect.unit (s := S512x1024) ![0, 0] S512x1024.size inb_S512x1024_S512x1024_0_0

/-! ## What the body leaves in the output window's buffer -/

/-- The output staging buffer after the body, from the input block: its one store as a piece. -/
def out0_1 (x0 : Vec F S512x1024 .f32) : Vec F S512x1024 .bf16 :=
  View.canon [⟨r0_0, k0_pay1 (View.ld x0 r0_0)⟩]

/-- The store's rectangle is the whole buffer, so it covers it. -/
theorem cover0_1 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg1 : Memref sig .tc .vmem S512x1024 .f32) (harg1 : arg1.IsWhole)
    (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the pipeline on core `c`: the arrays as the region finds them (`V`); after the body at point
    `t` the input's buffer at its block and the output's at `out0_1` of the input block; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Region1Base.lean ====
/-
  The second region's kernel, at any float instance: what its body's branches test, in closed form over the 8 × 8
  grid, and what the pipeline hands the body.

  At grid point t the row-block number is i = t / 8 and the column-block number is j = t % 8.  The body resets the
  running maximum (a scratch column of 2048 entries) when j = 0, folds the current 2048 × 2048 tile's row maxima
  into it — with the tile's diagonal at -∞ when i = j, as it stands when i ≠ j — and copies it to the output block
  when j = 7.  The output block is therefore idle, and not written back, at every point with j ≠ 7.
-/
import proofs.«121834_j13924283973723_2_alg».proof.Proof.Gen.Kernel.Launch
import proofs.«121834_j13924283973723_2_alg».proof.Proof.Gen.Kernel.Skeleton
import proofs.«121834_j13924283973723_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`): rows `2048·i …` of the unit
    rows for window 0, rows `2048·j …` for window 1. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (between two
    fetches the block's index does not move), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1, fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- `j = 0`: the running maximum is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- `i = j`: the tile meets the diagonal. -/
abbrev cond1_1 (i : grid1.Coords) : Prop := (Scalar.cmpi .ne (Scalar.extui (Scalar.cmpi .eq (BitVec.ofNat 32 (i 0).val) (BitVec.ofNat 32 (i 1).val))) 0#32) = 1#1
theorem hcond1_1 : ∀ t : Fin cfg1.N, cond1_1 (grid1.coords t) ↔ t.val / 8 = t.val % 8 :=
  (by decide +kernel : ∀ t : Fin grid1.N, cond1_1 (grid1.coords t) ↔ t.val / 8 = t.val % 8)

/-- `i ≠ j`: the tile is off the diagonal. -/
abbrev cond1_2 (i : grid1.Coords) : Prop := (Scalar.cmpi .ne (Scalar.extui (Scalar.cmpi .ne (BitVec.ofNat 32 (i 0).val) (BitVec.ofNat 32 (i 1).val))) 0#32) = 1#1
theorem hcond1_2 : ∀ t : Fin cfg1.N, cond1_2 (grid1.coords t) ↔ t.val / 8 ≠ t.val % 8 :=
  (by decide +kernel : ∀ t : Fin grid1.N, cond1_2 (grid1.coords t) ↔ t.val / 8 ≠ t.val % 8)

/-- `j = 7`: the running maximum is copied out. -/
abbrev cond1_3 (i : grid1.Coords) : Prop := k1_cond4 i = 1#1
theorem hcond1_3 : ∀ t : Fin cfg1.N, cond1_3 (grid1.coords t) ↔ t.val % 8 = 7 :=
  (by decide +kernel : ∀ t : Fin grid1.N, cond1_3 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where `j ≠ 7` the output block is idle and is not written back. -/
theorem idleAt1_2 : ∀ t : Fin cfg1.N, ¬cond1_3 (grid1.coords t) → cfg1.idle 2 (grid1.coords t) = true := by decide +kernel
theorem noFlush1_2 : ∀ t : Fin cfg1.N, ¬cond1_3 (grid1.coords t) → (cfg1.win 2).flush t = false := by decide +kernel
/-- Where `j = 7` it is stored. -/
theorem liveAt1_2 : ∀ t : Fin cfg1.N, cond1_3 (grid1.coords t) → cfg1.idle 2 (grid1.coords t) = false := by decide +kernel

/-! ## The memrefs the body is called with -/

abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
/-- The scratch column holding the running maximum, and a view through which its contents are stated. -/
abbrev scM1_0 : Memref sig .tc .vmem S2048x1 .f32 := Memref.whole cc1_scratch0
abbrev VS1_0 : View sig .tc .vmem S2048x1 .f32 := scM1_0.view
/-- One staging buffer of the output window, through which its contents are stated. -/
abbrev VO1_2 : View sig .tc .vmem S2048x1 .f32 := (Memref.whole cc1_stg2_0 : Memref sig .tc .vmem S2048x1 .f32).view

/-- The scoped buffers of the first region's pipeline, which this region leaves alone, each at some contents. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The invariant the region is entered with, the scoped buffers spelt one by one: those of the first region's
    pipeline and the scratch column each at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.Bits.Region1RunD.lean ====
/-
  The second region's kernel body run whole in one of its six cases: 0 < j < 7 and i ≠ j: the tile's row maxima folded in.
  The pieces each buffer ends with are found by running the body; the statement says that on whole staging buffers —
  the two input blocks at their contents, the output block idle (handed back untouched), the running maximum at what the point before left —
  the body runs to the end with the inputs as they were and each buffer it stored into with its pieces written.
-/
import proofs.«121834_j13924283973723_2_alg».proof.Proof.Bits.Region1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_D (c : Dev nD) (i : grid1.Coords) (arg2 : Memref sig .tc .vmem S2048x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : ¬cond1_1 i) (hc2 : cond1_2 i) (hc3 : ¬cond1_3 i)
    (x0 : Vec F S2048x1024 .bf16) (x1 : Vec F S2048x1024 .bf16) (xs0 : Vec F S2048x1 .f32) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__koleo_max_sim_kernel i arg2 harg2 arg3 harg3 arg4 harg4 arg5 harg5) K } := by
  refine ⟨[], ?_, fun xi2 E K => ?run⟩
  case run =>
    simp only [cc1__koleo_max_sim_kernel_eq_skeleton]; unfold cc1__koleo_max_sim_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.Bits.Region1RunA.lean ====
/-
  The second region's kernel body run whole in one of its six cases: j = 0 and i = j (the very first tile): reset, then the masked tile's row maxima.
  The pieces each buffer ends with are found by running the body; the statement says that on whole staging buffers —
  the two input blocks at their contents, the output block idle (handed back untouched), the running maximum at anything —
  the body runs to the end with the inputs as they were and each buffer it stored into with its pieces written.
-/
import proofs.«121834_j13924283973723_2_alg».proof.Proof.Bits.Region1RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S2048x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (hc0 : cond1_0 i) (hc1 : cond1_1 i) (hc2 : ¬cond1_2 i) (hc3 : ¬cond1_3 i)
    (x0 : Vec F S2048x1024 .bf16) (x1 : Vec F S2048x1024 .bf16) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__koleo_max_sim_kernel i arg2 harg2 arg3 harg3 arg4 harg4 arg5 harg5) K } := by
  refine ⟨[], ?_, fun xi2 E K => ?run⟩
  case run =>
    simp only [cc1__koleo_max_sim_kernel_eq_skeleton]; unfold cc1__koleo_max_sim_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.Bits.Region1RunB.lean ====
/-
  The second region's kernel body run whole in one of its six cases: j = 0 and i ≠ j: reset, then the tile's row maxima.
  The pieces each buffer ends with are found by running the body; the statement says that on whole staging buffers —
  the two input blocks at their contents, the output block idle (handed back untouched), the running maximum at anything —
  the body runs to the end with the inputs as they were and each buffer it stored into with its pieces written.
-/
import proofs.«121834_j13924283973723_2_alg».proof.Proof.Bits.Region1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S2048x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (hc0 : cond1_0 i) (hc1 : ¬cond1_1 i) (hc2 : cond1_2 i) (hc3 : ¬cond1_3 i)
    (x0 : Vec F S2048x1024 .bf16) (x1 : Vec F S2048x1024 .bf16) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__koleo_max_sim_kernel i arg2 harg2 arg3 harg3 arg4 harg4 arg5 harg5) K } := by
  refine ⟨[], ?_, fun xi2 E K => ?run⟩
  case run =>
    simp only [cc1__koleo_max_sim_kernel_eq_skeleton]; unfold cc1__koleo_max_sim_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.Bits.Region1RunC.lean ====
/-
  The second region's kernel body run whole in one of its six cases: 0 < j < 7 and i = j: the masked tile's row maxima folded in.
  The pieces each buffer ends with are found by running the body; the statement says that on whole staging buffers —
  the two input blocks at their contents, the output block idle (handed back untouched), the running maximum at what the point before left —
  the body runs to the end with the inputs as they were and each buffer it stored into with its pieces written.
-/
import proofs.«121834_j13924283973723_2_alg».proof.Proof.Bits.Region1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S2048x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : cond1_1 i) (hc2 : ¬cond1_2 i) (hc3 : ¬cond1_3 i)
    (x0 : Vec F S2048x1024 .bf16) (x1 : Vec F S2048x1024 .bf16) (xs0 : Vec F S2048x1 .f32) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__koleo_max_sim_kernel i arg2 harg2 arg3 harg3 arg4 harg4 arg5 harg5) K } := by
  refine ⟨[], ?_, fun xi2 E K => ?run⟩
  case run =>
    simp only [cc1__koleo_max_sim_kernel_eq_skeleton]; unfold cc1__koleo_max_sim_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.Bits.Region1RunE.lean ====
/-
  The second region's kernel body run whole in one of its six cases: j = 7 and i = j (the last tile of the last row block): the masked tile's row maxima folded in, and the running maximum copied out.
  The pieces each buffer ends with are found by running the body; the statement says that on whole staging buffers —
  the two input blocks at their contents, the output block at anything, the running maximum at what the point before left —
  the body runs to the end with the inputs as they were and each buffer it stored into with its pieces written.
-/
import proofs.«121834_j13924283973723_2_alg».proof.Proof.Bits.Region1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_E (c : Dev nD) (i : grid1.Coords) (arg2 : Memref sig .tc .vmem S2048x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : cond1_1 i) (hc2 : ¬cond1_2 i) (hc3 : cond1_3 i)
    (x0 : Vec F S2048x1024 .bf16) (x1 : Vec F S2048x1024 .bf16) (xs0 : Vec F S2048x1 .f32) :
    Σ' (L2 : List (View.Piece (Elt F) S2048x1 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__koleo_max_sim_kernel i arg2 harg2 arg3 harg3 arg4 harg4 arg5 harg5) K } := by
  refine ⟨?_, ?_, fun E K => ?run⟩
  case run =>
    simp only [cc1__koleo_max_sim_kernel_eq_skeleton]; unfold cc1__koleo_max_sim_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.Kernel.Hand

end
-- ==== Proof.Bits.Region1RunG.lean ====
/-
  The second region's kernel body run whole in one of its six cases: j = 7 and i ≠ j: the tile's row maxima folded in, and the running maximum copied out.
  The pieces each buffer ends with are found by running the body; the statement says that on whole staging buffers —
  the two input blocks at their contents, the output block at anything, the running maximum at what the point before left —
  the body runs to the end with the inputs as they were and each buffer it stored into with its pieces written.
-/
import proofs.«121834_j13924283973723_2_alg».proof.Proof.Bits.Region1RunE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_G (c : Dev nD) (i : grid1.Coords) (arg2 : Memref sig .tc .vmem S2048x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : ¬cond1_1 i) (hc2 : cond1_2 i) (hc3 : cond1_3 i)
    (x0 : Vec F S2048x1024 .bf16) (x1 : Vec F S2048x1024 .bf16) (xs0 : Vec F S2048x1 .f32) :
    Σ' (L2 : List (View.Piece (Elt F) S2048x1 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__koleo_max_sim_kernel i arg2 harg2 arg3 harg3 arg4 harg4 arg5 harg5) K } := by
  refine ⟨?_, ?_, fun E K => ?run⟩
  case run =>
    simp only [cc1__koleo_max_sim_kernel_eq_skeleton]; unfold cc1__koleo_max_sim_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.Kernel.Hand

end
-- ==== Proof.Bits.Region1.lean ====
/-
  The second region at any float instance: what the running maximum (the scratch column) and the output block
  hold after each grid point, the proof data of its pipeline, and the body obligation at every point.

  The running maximum after point t is the case's result at t over what point t - 1 left (over nothing at j = 0,
  where the body resets it first); the output block is stored at the points with j = 7 only.  The two input
  windows read ONE array, the unit rows: each holds it at one half of the full share.
-/
import proofs.«121834_j13924283973723_2_alg».proof.Proof.Bits.Region1RunG

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The six cases at a point's memrefs -/

/-- The case `j = 0`, `i = j` run at point `t`'s memrefs. -/
abbrev run1_A (c : Dev nD) (t : Fin cfg1.N) (h0 : t.val % 8 = 0) (h1 : t.val / 8 = t.val % 8) (x0 x1 : Vec F S2048x1024 .bf16) :=
  (kernelRun1_A c (grid1.coords t) (ms1_0 t) (hs1_0 t) (ms1_1 t) (hs1_1 t) (ms1_2 t) (hs1_2 t) scM1_0 (Memref.isWhole_whole _) ((hcond1_0 t).mpr h0) ((hcond1_1 t).mpr h1) (fun h => (hcond1_2 t).mp h h1) (fun h => by have := (hcond1_3 t).mp h; omega) x0 x1)

/-- Its pieces for the scratch column cover it. -/
theorem scover1_A (c : Dev nD) (t : Fin cfg1.N) (h0 : t.val % 8 = 0) (h1 : t.val / 8 = t.val % 8) (x0 x1 : Vec F S2048x1024 .bf16) (y : S2048x1.Idx) :
    ∃ pc ∈ (run1_A (F := F) c t h0 h1 x0 x1).2.1, y ∈ pc.1.set :=
  View.cover_of_tiledL (run1_A (F := F) c t h0 h1 x0 x1).2.1 S2048x1.size (by sl_kernel_rfl) y

/-- What it leaves in the scratch column: its pieces read back. -/
def sout1_A (c : Dev nD) (t : Fin cfg1.N) (h0 : t.val % 8 = 0) (h1 : t.val / 8 = t.val % 8) (x0 x1 : Vec F S2048x1024 .bf16) : Vec F S2048x1 .f32 :=
  VS1_0.read (Elt F) (VS1_0.writes (Elt F) VS1_0.junk (run1_A (F := F) c t h0 h1 x0 x1).2.1)

/-- What it leaves in the output block (nothing is stored there in this case: a placeholder nothing consults). -/
def out1_A (c : Dev nD) (t : Fin cfg1.N) (h0 : t.val % 8 = 0) (h1 : t.val / 8 = t.val % 8) (x0 x1 : Vec F S2048x1024 .bf16) : Vec F S2048x1 .f32 :=
  VO1_2.read (Elt F) (VO1_2.writes (Elt F) VO1_2.junk (run1_A (F := F) c t h0 h1 x0 x1).1)

/-- The case `j = 0`, `i ≠ j` run at point `t`'s memrefs. -/
abbrev run1_B (c : Dev nD) (t : Fin cfg1.N) (h0 : t.val % 8 = 0) (h1 : ¬t.val / 8 = t.val % 8) (x0 x1 : Vec F S2048x1024 .bf16) :=
  (kernelRun1_B c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) ((hcond1_2 t).mpr h1) (fun h => by have := (hcond1_3 t).mp h; omega) x0 x1)

/-- Its pieces for the scratch column cover it. -/
theorem scover1_B (c : Dev nD) (t : Fin cfg1.N) (h0 : t.val % 8 = 0) (h1 : ¬t.val / 8 = t.val % 8) (x0 x1 : Vec F S2048x1024 .bf16) (y : S2048x1.Idx) :
    ∃ pc ∈ (run1_B (F := F) c t h0 h1 x0 x1).2.1, y ∈ pc.1.set :=
  View.cover_of_tiledL (run1_B (F := F) c t h0 h1 x0 x1).2.1 S2048x1.size (by sl_kernel_rfl) y

/-- What it leaves in the scratch column: its pieces read back. -/
def sout1_B (c : Dev nD) (t : Fin cfg1.N) (h0 : t.val % 8 = 0) (h1 : ¬t.val / 8 = t.val % 8) (x0 x1 : Vec F S2048x1024 .bf16) : Vec F S2048x1 .f32 :=
  VS1_0.read (Elt F) (VS1_0.writes (Elt F) VS1_0.junk (run1_B (F := F) c t h0 h1 x0 x1).2.1)

/-- What it leaves in the output block (nothing is stored there in this case: a placeholder nothing consults). -/
def out1_B (c : Dev nD) (t : Fin cfg1.N) (h0 : t.val % 8 = 0) (h1 : ¬t.val / 8 = t.val % 8) (x0 x1 : Vec F S2048x1024 .bf16) : Vec F S2048x1 .f32 :=
  VO1_2.read (Elt F) (VO1_2.writes (Elt F) VO1_2.junk (run1_B (F := F) c t h0 h1 x0 x1).1)

/-- The case `0 < j < 7`, `i = j` run at point `t`'s memrefs. -/
abbrev run1_C (c : Dev nD) (t : Fin cfg1.N) (h0 : ¬t.val % 8 = 0) (h1 : t.val / 8 = t.val % 8) (h3 : ¬t.val % 8 = 7) (x0 x1 : Vec F S2048x1024 .bf16) (xs : Vec F S2048x1 .f32) :=
  (kernelRun1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (fun h => (hcond1_2 t).mp h h1) (fun h => h3 ((hcond1_3 t).mp h)) x0 x1 xs)

/-- Its pieces for the scratch column cover it. -/
theorem scover1_C (c : Dev nD) (t : Fin cfg1.N) (h0 : ¬t.val % 8 = 0) (h1 : t.val / 8 = t.val % 8) (h3 : ¬t.val % 8 = 7) (x0 x1 : Vec F S2048x1024 .bf16) (xs : Vec F S2048x1 .f32) (y : S2048x1.Idx) :
    ∃ pc ∈ (run1_C (F := F) c t h0 h1 h3 x0 x1 xs).2.1, y ∈ pc.1.set :=
  View.cover_of_tiledL (run1_C (F := F) c t h0 h1 h3 x0 x1 xs).2.1 S2048x1.size (by sl_kernel_rfl) y

/-- What it leaves in the scratch column: its pieces read back. -/
def sout1_C (c : Dev nD) (t : Fin cfg1.N) (h0 : ¬t.val % 8 = 0) (h1 : t.val / 8 = t.val % 8) (h3 : ¬t.val % 8 = 7) (x0 x1 : Vec F S2048x1024 .bf16) (xs : Vec F S2048x1 .f32) : Vec F S2048x1 .f32 :=
  VS1_0.read (Elt F) (VS1_0.writes (Elt F) VS1_0.junk (run1_C (F := F) c t h0 h1 h3 x0 x1 xs).2.1)

/-- What it leaves in the output block (nothing is stored there in this case: a placeholder nothing consults). -/
def out1_C (c : Dev nD) (t : Fin cfg1.N) (h0 : ¬t.val % 8 = 0) (h1 : t.val / 8 = t.val % 8) (h3 : ¬t.val % 8 = 7) (x0 x1 : Vec F S2048x1024 .bf16) (xs : Vec F S2048x1 .f32) : Vec F S2048x1 .f32 :=
  VO1_2.read (Elt F) (VO1_2.writes (Elt F) VO1_2.junk (run1_C (F := F) c t h0 h1 h3 x0 x1 xs).1)

/-- The case `0 < j < 7`, `i ≠ j` run at point `t`'s memrefs. -/
abbrev run1_D (c : Dev nD) (t : Fin cfg1.N) (h0 : ¬t.val % 8 = 0) (h1 : ¬t.val / 8 = t.val % 8) (h3 : ¬t.val % 8 = 7) (x0 x1 : Vec F S2048x1024 .bf16) (xs : Vec F S2048x1 .f32) :=
  (kernelRun1_D c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) ((hcond1_2 t).mpr h1) (fun h => h3 ((hcond1_3 t).mp h)) x0 x1 xs)

/-- Its pieces for the scratch column cover it. -/
theorem scover1_D (c : Dev nD) (t : Fin cfg1.N) (h0 : ¬t.val % 8 = 0) (h1 : ¬t.val / 8 = t.val % 8) (h3 : ¬t.val % 8 = 7) (x0 x1 : Vec F S2048x1024 .bf16) (xs : Vec F S2048x1 .f32) (y : S2048x1.Idx) :
    ∃ pc ∈ (run1_D (F := F) c t h0 h1 h3 x0 x1 xs).2.1, y ∈ pc.1.set :=
  View.cover_of_tiledL (run1_D (F := F) c t h0 h1 h3 x0 x1 xs).2.1 S2048x1.size (by sl_kernel_rfl) y

/-- What it leaves in the scratch column: its pieces read back. -/
def sout1_D (c : Dev nD) (t : Fin cfg1.N) (h0 : ¬t.val % 8 = 0) (h1 : ¬t.val / 8 = t.val % 8) (h3 : ¬t.val % 8 = 7) (x0 x1 : Vec F S2048x1024 .bf16) (xs : Vec F S2048x1 .f32) : Vec F S2048x1 .f32 :=
  VS1_0.read (Elt F) (VS1_0.writes (Elt F) VS1_0.junk (run1_D (F := F) c t h0 h1 h3 x0 x1 xs).2.1)

/-- What it leaves in the output block (nothing is stored there in this case: a placeholder nothing consults). -/
def out1_D (c : Dev nD) (t : Fin cfg1.N) (h0 : ¬t.val % 8 = 0) (h1 : ¬t.val / 8 = t.val % 8) (h3 : ¬t.val % 8 = 7) (x0 x1 : Vec F S2048x1024 .bf16) (xs : Vec F S2048x1 .f32) : Vec F S2048x1 .f32 :=
  VO1_2.read (Elt F) (VO1_2.writes (Elt F) VO1_2.junk (run1_D (F := F) c t h0 h1 h3 x0 x1 xs).1)

/-- The case `j = 7`, `i = j` run at point `t`'s memrefs. -/
abbrev run1_E (c : Dev nD) (t : Fin cfg1.N) (h0 : ¬t.val % 8 = 0) (h1 : t.val / 8 = t.val % 8) (h3 : t.val % 8 = 7) (x0 x1 : Vec F S2048x1024 .bf16) (xs : Vec F S2048x1 .f32) :=
  (kernelRun1_E c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (fun h => (hcond1_2 t).mp h h1) ((hcond1_3 t).mpr h3) x0 x1 xs)

/-- Its pieces for the scratch column cover it. -/
theorem scover1_E (c : Dev nD) (t : Fin cfg1.N) (h0 : ¬t.val % 8 = 0) (h1 : t.val / 8 = t.val % 8) (h3 : t.val % 8 = 7) (x0 x1 : Vec F S2048x1024 .bf16) (xs : Vec F S2048x1 .f32) (y : S2048x1.Idx) :
    ∃ pc ∈ (run1_E (F := F) c t h0 h1 h3 x0 x1 xs).2.1, y ∈ pc.1.set :=
  View.cover_of_tiledL (run1_E (F := F) c t h0 h1 h3 x0 x1 xs).2.1 S2048x1.size (by sl_kernel_rfl) y

/-- What it leaves in the scratch column: its pieces read back. -/
def sout1_E (c : Dev nD) (t : Fin cfg1.N) (h0 : ¬t.val % 8 = 0) (h1 : t.val / 8 = t.val % 8) (h3 : t.val % 8 = 7) (x0 x1 : Vec F S2048x1024 .bf16) (xs : Vec F S2048x1 .f32) : Vec F S2048x1 .f32 :=
  VS1_0.read (Elt F) (VS1_0.writes (Elt F) VS1_0.junk (run1_E (F := F) c t h0 h1 h3 x0 x1 xs).2.1)

/-- Its pieces for the output block cover it. -/
theorem cover1_E (c : Dev nD) (t : Fin cfg1.N) (h0 : ¬t.val % 8 = 0) (h1 : t.val / 8 = t.val % 8) (h3 : t.val % 8 = 7) (x0 x1 : Vec F S2048x1024 .bf16) (xs : Vec F S2048x1 .f32) (y : S2048x1.Idx) :
    ∃ pc ∈ (run1_E (F := F) c t h0 h1 h3 x0 x1 xs).1, y ∈ pc.1.set :=
  View.cover_of_tiledL (run1_E (F := F) c t h0 h1 h3 x0 x1 xs).1 S2048x1.size (by sl_kernel_rfl) y

/-- What it leaves in the output block. -/
def out1_E (c : Dev nD) (t : Fin cfg1.N) (h0 : ¬t.val % 8 = 0) (h1 : t.val / 8 = t.val % 8) (h3 : t.val % 8 = 7) (x0 x1 : Vec F S2048x1024 .bf16) (xs : Vec F S2048x1 .f32) : Vec F S2048x1 .f32 :=
  VO1_2.read (Elt F) (VO1_2.writes (Elt F) VO1_2.junk (run1_E (F := F) c t h0 h1 h3 x0 x1 xs).1)

/-- The case `j = 7`, `i ≠ j` run at point `t`'s memrefs. -/
abbrev run1_G (c : Dev nD) (t : Fin cfg1.N) (h0 : ¬t.val % 8 = 0) (h1 : ¬t.val / 8 = t.val % 8) (h3 : t.val % 8 = 7) (x0 x1 : Vec F S2048x1024 .bf16) (xs : Vec F S2048x1 .f32) :=
  (kernelRun1_G c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) ((hcond1_2 t).mpr h1) ((hcond1_3 t).mpr h3) x0 x1 xs)

/-- Its pieces for the scratch column cover it. -/
theorem scover1_G (c : Dev nD) (t : Fin cfg1.N) (h0 : ¬t.val % 8 = 0) (h1 : ¬t.val / 8 = t.val % 8) (h3 : t.val % 8 = 7) (x0 x1 : Vec F S2048x1024 .bf16) (xs : Vec F S2048x1 .f32) (y : S2048x1.Idx) :
    ∃ pc ∈ (run1_G (F := F) c t h0 h1 h3 x0 x1 xs).2.1, y ∈ pc.1.set :=
  View.cover_of_tiledL (run1_G (F := F) c t h0 h1 h3 x0 x1 xs).2.1 S2048x1.size (by sl_kernel_rfl) y

/-- What it leaves in the scratch column: its pieces read back. -/
def sout1_G (c : Dev nD) (t : Fin cfg1.N) (h0 : ¬t.val % 8 = 0) (h1 : ¬t.val / 8 = t.val % 8) (h3 : t.val % 8 = 7) (x0 x1 : Vec F S2048x1024 .bf16) (xs : Vec F S2048x1 .f32) : Vec F S2048x1 .f32 :=
  VS1_0.read (Elt F) (VS1_0.writes (Elt F) VS1_0.junk (run1_G (F := F) c t h0 h1 h3 x0 x1 xs).2.1)

/-- Its pieces for the output block cover it. -/
theorem cover1_G (c : Dev nD) (t : Fin cfg1.N) (h0 : ¬t.val % 8 = 0) (h1 : ¬t.val / 8 = t.val % 8) (h3 : t.val % 8 = 7) (x0 x1 : Vec F S2048x1024 .bf16) (xs : Vec F S2048x1 .f32) (y : S2048x1.Idx) :
    ∃ pc ∈ (run1_G (F := F) c t h0 h1 h3 x0 x1 xs).1, y ∈ pc.1.set :=
  View.cover_of_tiledL (run1_G (F := F) c t h0 h1 h3 x0 x1 xs).1 S2048x1.size (by sl_kernel_rfl) y

/-- What it leaves in the output block. -/
def out1_G (c : Dev nD) (t : Fin cfg1.N) (h0 : ¬t.val % 8 = 0) (h1 : ¬t.val / 8 = t.val % 8) (h3 : t.val % 8 = 7) (x0 x1 : Vec F S2048x1024 .bf16) (xs : Vec F S2048x1 .f32) : Vec F S2048x1 .f32 :=
  VO1_2.read (Elt F) (VO1_2.writes (Elt F) VO1_2.junk (run1_G (F := F) c t h0 h1 h3 x0 x1 xs).1)

/-! ## What the buffers hold after each point -/

/-- One point's step: the case the closed forms select at `t`, run on the blocks `x0`, `x1` over the running maximum
    `xs` the point before left (unused where `j = 0`). The pair is (output block, running maximum). -/
def stepAt (c : Dev nD) (t : Fin cfg1.N) (x0 x1 : Vec F S2048x1024 .bf16) (xs : Vec F S2048x1 .f32) : Vec F S2048x1 .f32 × Vec F S2048x1 .f32 :=
  if h0 : t.val % 8 = 0 then
    if h1 : t.val / 8 = t.val % 8 then (out1_A c t h0 h1 x0 x1, sout1_A c t h0 h1 x0 x1)
    else (out1_B c t h0 h1 x0 x1, sout1_B c t h0 h1 x0 x1)
  else if h1 : t.val / 8 = t.val % 8 then
    if h3 : t.val % 8 = 7 then (out1_E c t h0 h1 h3 x0 x1 xs, sout1_E c t h0 h1 h3 x0 x1 xs)
    else (out1_C c t h0 h1 h3 x0 x1 xs, sout1_C c t h0 h1 h3 x0 x1 xs)
  else
    if h3 : t.val % 8 = 7 then (out1_G c t h0 h1 h3 x0 x1 xs, sout1_G c t h0 h1 h3 x0 x1 xs)
    else (out1_D c t h0 h1 h3 x0 x1 xs, sout1_D c t h0 h1 h3 x0 x1 xs)

theorem stepAt_A (c : Dev nD) (t : Fin cfg1.N) (x0 x1 : Vec F S2048x1024 .bf16) (xs : Vec F S2048x1 .f32) (h0 : t.val % 8 = 0) (h1 : t.val / 8 = t.val % 8) :
    stepAt (F := F) c t x0 x1 xs = (out1_A c t h0 h1 x0 x1, sout1_A c t h0 h1 x0 x1) := by unfold stepAt; rw [dif_pos h0, dif_pos h1]
theorem stepAt_B (c : Dev nD) (t : Fin cfg1.N) (x0 x1 : Vec F S2048x1024 .bf16) (xs : Vec F S2048x1 .f32) (h0 : t.val % 8 = 0) (h1 : ¬t.val / 8 = t.val % 8) :
    stepAt (F := F) c t x0 x1 xs = (out1_B c t h0 h1 x0 x1, sout1_B c t h0 h1 x0 x1) := by unfold stepAt; rw [dif_pos h0, dif_neg h1]
theorem stepAt_C (c : Dev nD) (t : Fin cfg1.N) (x0 x1 : Vec F S2048x1024 .bf16) (xs : Vec F S2048x1 .f32) (h0 : ¬t.val % 8 = 0) (h1 : t.val / 8 = t.val % 8) (h3 : ¬t.val % 8 = 7) :
    stepAt (F := F) c t x0 x1 xs = (out1_C c t h0 h1 h3 x0 x1 xs, sout1_C c t h0 h1 h3 x0 x1 xs) := by unfold stepAt; rw [dif_neg h0, dif_pos h1, dif_neg h3]
theorem stepAt_D (c : Dev nD) (t : Fin cfg1.N) (x0 x1 : Vec F S2048x1024 .bf16) (xs : Vec F S2048x1 .f32) (h0 : ¬t.val % 8 = 0) (h1 : ¬t.val / 8 = t.val % 8) (h3 : ¬t.val % 8 = 7) :
    stepAt (F := F) c t x0 x1 xs = (out1_D c t h0 h1 h3 x0 x1 xs, sout1_D c t h0 h1 h3 x0 x1 xs) := by unfold stepAt; rw [dif_neg h0, dif_neg h1, dif_neg h3]
theorem stepAt_E (c : Dev nD) (t : Fin cfg1.N) (x0 x1 : Vec F S2048x1024 .bf16) (xs : Vec F S2048x1 .f32) (h0 : ¬t.val % 8 = 0) (h1 : t.val / 8 = t.val % 8) (h3 : t.val % 8 = 7) :
    stepAt (F := F) c t x0 x1 xs = (out1_E c t h0 h1 h3 x0 x1 xs, sout1_E c t h0 h1 h3 x0 x1 xs) := by unfold stepAt; rw [dif_neg h0, dif_pos h1, dif_pos h3]
theorem stepAt_G (c : Dev nD) (t : Fin cfg1.N) (x0 x1 : Vec F S2048x1024 .bf16) (xs : Vec F S2048x1 .f32) (h0 : ¬t.val % 8 = 0) (h1 : ¬t.val / 8 = t.val % 8) (h3 : t.val % 8 = 7) :
    stepAt (F := F) c t x0 x1 xs = (out1_G c t h0 h1 h3 x0 x1 xs, sout1_G c t h0 h1 h3 x0 x1 xs) := by unfold stepAt; rw [dif_neg h0, dif_neg h1, dif_pos h3]

/-- THE ACCUMULATION: (output block, running maximum) after the body at position `n`: the step at `n` on that
    point's two blocks over the running maximum after position `n - 1`. -/
def outsAt1 (c : Dev nD) : (n : ℕ) → n < cfg1.N → Vec F S2048x1 .f32 × Vec F S2048x1 .f32
  | 0, hn => stepAt c ⟨0, hn⟩ (iblk1 V c 0 ⟨0, hn⟩) (iblk1 V c 1 ⟨0, hn⟩) (VS1_0.read (Elt F) VS1_0.junk)
  | n + 1, hn => stepAt c ⟨n + 1, hn⟩ (iblk1 V c 0 ⟨n + 1, hn⟩) (iblk1 V c 1 ⟨n + 1, hn⟩) (outsAt1 c n (Nat.lt_of_succ_lt hn)).2

/-- The running maximum the body finds at point `t`: what the point before left (anything at the first point). -/
def prev1 (c : Dev nD) (t : Fin cfg1.N) : Vec F S2048x1 .f32 :=
  if hz : t.val = 0 then VS1_0.read (Elt F) VS1_0.junk else (outsAt1 V c (t.val - 1) (Nat.lt_of_le_of_lt (Nat.sub_le _ _) t.isLt)).2

theorem outsAt1_eq (c : Dev nD) (t : Fin cfg1.N) :
    outsAt1 V c t.val t.isLt = stepAt c t (iblk1 V c 0 t) (iblk1 V c 1 t) (prev1 V c t) := by
  obtain ⟨n, hn⟩ := t
  cases n with
  | zero => rfl
  | succ n => rfl

theorem prev1_pos (c : Dev nD) (t : Fin cfg1.N) (hz : t.val ≠ 0) :
    prev1 V c t = (outsAt1 V c (t.val - 1) (Nat.lt_of_le_of_lt (Nat.sub_le _ _) t.isLt)).2 := by
  unfold prev1; rw [dif_neg hz]

/-! ## The region's invariant -/

/-- Before position `n`: at the first point what the region is entered with; afterwards the first region's scoped
    buffers at anything, the scratch column at the running maximum after position `n - 1`, the generator register at
    some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the second pipeline on core `c`: the arrays as the region finds them (`V`); after the body at
    point `t` each input's buffer at its block and the output's at `outsAt1`; the invariant `PhiS1`; nothing owed;
    the two input windows, which read one array, at one half of the full share each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which of the six cases the
    point is in; the invariant hands the body the scratch column at the running maximum the point before left (at
    anything at the first point) and takes it back at this point's; where `j ≠ 7` the output block is handed back
    untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  have hN : t.val < 64 := lt_of_lt_of_eq t.isLt (show cfg1.N = 64 from N_1)
  by_cases h0 : t.val % 8 = 0
  · by_cases h1 : t.val / 8 = t.val % 8
    · -- `j = 0`, `i = j`
      have hz : t.val = 0 := by omega
      have hk3 : ¬cond1_3 (grid1.coords t) := fun h => by have := (hcond1_3 t).mp h; omega
      rw [Dat.leavesExact_idle (dat1 V c) 2 t (idleAt1_2 t hk3) (noFlush1_2 t hk3)]
      rw [outsAt1_eq V c t]
      rw [stepAt_A c t _ _ _ h0 h1]
      unfold sout1_A; (try dsimp only)
      rw [PhiS1_castSucc V c t, PhiS1_zero V c _ _ hz, PhiA1_eq]
      iintro ⟨⟨⟨HA, HB, HC, HD, HS0⟩, Hg⟩, Ho, ⟨%d0, H0⟩, ⟨%d1, H1⟩, ⟨%d2, H2⟩⟩
      iapply ((run1_A (F := F) c t h0 h1 (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HA HB HC HD HS0 Hg]
      · isplitl [HA HB HC HD HS0]
        · isplitl [HA]; · iexact HA
          isplitl [HB]; · iexact HB
          isplitl [HC]; · iexact HC
          isplitl [HD]; · iexact HD
          unfold owns; iexists _; isplitr
          swap; · iexact HS0
          ipureintro; exact View.read_writes_of_cover _ _ _ _ _ (scover1_A c t h0 h1 _ _)
        iexact Hg
      isplitl [Ho]; · iexact Ho
      isplitl [H0]; · iexact H0
      isplitl [H1]; · iexact H1
      iexists _; iexact H2
    · -- `j = 0`, `i ≠ j`
      have hz : t.val ≠ 0 := by omega
      have hk3 : ¬cond1_3 (grid1.coords t) := fun h => by have := (hcond1_3 t).mp h; omega
      rw [Dat.leavesExact_idle (dat1 V c) 2 t (idleAt1_2 t hk3) (noFlush1_2 t hk3)]
      rw [outsAt1_eq V c t]
      rw [prev1_pos V c t hz]
      rw [stepAt_B c t _ _ _ h0 h1]
      unfold sout1_B; (try dsimp only)
      rw [PhiS1_castSucc V c t, PhiS1_pos V c _ _ hz]
      iintro ⟨⟨⟨HA, HB, HC, HD, HS0⟩, Hg⟩, Ho, ⟨%d0, H0⟩, ⟨%d1, H1⟩, ⟨%d2, H2⟩⟩
      iapply ((run1_B (F := F) c t h0 h1 (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HA HB HC HD HS0 Hg]
      · isplitl [HA HB HC HD HS0]
        · isplitl [HA]; · iexact HA
          isplitl [HB]; · iexact HB
          isplitl [HC]; · iexact HC
          isplitl [HD]; · iexact HD
          unfold owns; iexists _; isplitr
          swap; · iexact HS0
          ipureintro; exact View.read_writes_of_cover _ _ _ _ _ (scover1_B c t h0 h1 _ _)
        iexact Hg
      isplitl [Ho]; · iexact Ho
      isplitl [H0]; · iexact H0
      isplitl [H1]; · iexact H1
      iexists _; iexact H2
  · by_cases h1 : t.val / 8 = t.val % 8
    · by_cases h3 : t.val % 8 = 7
      · -- `j = 7`, `i = j`
        have hz : t.val ≠ 0 := by omega
        have hk3 : cond1_3 (grid1.coords t) := (hcond1_3 t).mpr h3
        rw [show (dat1 V c).leavesExact 2 t = owns (c : Thread nD τ) (ms1_2 t) fullShare ((dat1 V c).after 2 t) from by
          unfold Dat.leavesExact; rw [liveAt1_2 t hk3], after1_2]
        rw [outsAt1_eq V c t]
        rw [prev1_pos V c t hz]
        rw [stepAt_E c t _ _ _ h0 h1 h3]
        unfold out1_E sout1_E; (try dsimp only)
        rw [PhiS1_castSucc V c t, PhiS1_pos V c _ _ hz]
        iintro ⟨⟨⟨HA, HB, HC, HD, HS0⟩, Hg⟩, Ho, ⟨%d0, H0⟩, ⟨%d1, H1⟩, ⟨%d2, H2⟩⟩
        iapply ((run1_E (F := F) c t h0 h1 h3 (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_E c t h0 h1 h3 _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_E c t h0 h1 h3 _ _ _)
      · -- `0 < j < 7`, `i = j`
        have hz : t.val ≠ 0 := by omega
        have hk3 : ¬cond1_3 (grid1.coords t) := fun h => h3 ((hcond1_3 t).mp h)
        rw [Dat.leavesExact_idle (dat1 V c) 2 t (idleAt1_2 t hk3) (noFlush1_2 t hk3)]
        rw [outsAt1_eq V c t]
        rw [prev1_pos V c t hz]
        rw [stepAt_C c t _ _ _ h0 h1 h3]
        unfold sout1_C; (try dsimp only)
        rw [PhiS1_castSucc V c t, PhiS1_pos V c _ _ hz]
        iintro ⟨⟨⟨HA, HB, HC, HD, HS0⟩, Hg⟩, Ho, ⟨%d0, H0⟩, ⟨%d1, H1⟩, ⟨%d2, H2⟩⟩
        iapply ((run1_C (F := F) c t h0 h1 h3 (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_C c t h0 h1 h3 _ _ _)
          iexact Hg
        isplitl [Ho]; · iexact Ho
        isplitl [H0]; · iexact H0
        isplitl [H1]; · iexact H1
        iexists _; iexact H2
    · by_cases h3 : t.val % 8 = 7
      · -- `j = 7`, `i ≠ j`
        have hz : t.val ≠ 0 := by omega
        have hk3 : cond1_3 (grid1.coords t) := (hcond1_3 t).mpr h3
        rw [show (dat1 V c).leavesExact 2 t = owns (c : Thread nD τ) (ms1_2 t) fullShare ((dat1 V c).after 2 t) from by
          unfold Dat.leavesExact; rw [liveAt1_2 t hk3], after1_2]
        rw [outsAt1_eq V c t]
        rw [prev1_pos V c t hz]
        rw [stepAt_G c t _ _ _ h0 h1 h3]
        unfold out1_G sout1_G; (try dsimp only)
        rw [PhiS1_castSucc V c t, PhiS1_pos V c _ _ hz]
        iintro ⟨⟨⟨HA, HB, HC, HD, HS0⟩, Hg⟩, Ho, ⟨%d0, H0⟩, ⟨%d1, H1⟩, ⟨%d2, H2⟩⟩
        iapply ((run1_G (F := F) c t h0 h1 h3 (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_G c t h0 h1 h3 _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_G c t h0 h1 h3 _ _ _)
      · -- `0 < j < 7`, `i ≠ j`
        have hz : t.val ≠ 0 := by omega
        have hk3 : ¬cond1_3 (grid1.coords t) := fun h => h3 ((hcond1_3 t).mp h)
        rw [Dat.leavesExact_idle (dat1 V c) 2 t (idleAt1_2 t hk3) (noFlush1_2 t hk3)]
        rw [outsAt1_eq V c t]
        rw [prev1_pos V c t hz]
        rw [stepAt_D c t _ _ _ h0 h1 h3]
        unfold sout1_D; (try dsimp only)
        rw [PhiS1_castSucc V c t, PhiS1_pos V c _ _ hz]
        iintro ⟨⟨⟨HA, HB, HC, HD, HS0⟩, Hg⟩, Ho, ⟨%d0, H0⟩, ⟨%d1, H1⟩, ⟨%d2, H2⟩⟩
        iapply ((run1_D (F := F) c t h0 h1 h3 (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_D c t h0 h1 h3 _ _ _)
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the running maximum is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HA, HB, HC, HD, HS0⟩, Hg⟩
  isplitl [HA HB HC HD HS0]
  · isplitl [HA]; · iexact HA
    isplitl [HB]; · iexact HB
    isplitl [HC]; · iexact HC
    isplitl [HD]; · iexact HD
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.Bits.Run.lean ====
/-
  The whole program's run at any float instance: the two kernel regions and the host lines after them as the
  segments of @main, from the launch to the return.

  Between segments a TensorCore holds every unscoped buffer whole: at launch the memory's contents; after the first
  region the unit rows in its output array; after the second the column of row maxima in its output array; after
  the host lines what those compute.  The second region reads the unit rows through TWO input windows: entering
  it, the buffer's full share is cut into its two halves, one per window, and at the exit the halves — still at the
  same contents, an input array never changes — are put together again.
-/
import proofs.«121834_j13924283973723_2_alg».proof.Proof.Bits.Region0
import proofs.«121834_j13924283973723_2_alg».proof.Proof.Bits.Region1
import proofs.«121834_j13924283973723_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch, -/
abbrev B0 : Dev nD → Valuation τ sig (Elt F) := fun c b => (s₀ m ρ).mem ((c : Dev nD), b)
/-- read at the TensorCore's references. -/
abbrev U0 : (c : Dev nD) → (b : Ref sig .tc) → Buf (Elt F) ((c : Thread nD τ).loc b) := fun c b => B0 m ρ c b

/-- After the first region: its output array at what its write-backs leave, every other buffer as launched. -/
def B1 (c : Dev nD) : Valuation τ sig (Elt F) :=
  Pipeline.withArrays spec0 c (B0 m ρ c) fun w => (dat0 (U0 m ρ) c).arrAt w cfg0.N
theorem B1_arr (c : Dev nD) (w : Fin cfg0.W) :
    B1 m ρ c (Proc.devRef .tc (Pipeline.arrRef spec0 w)) = (dat0 (U0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev U1 : (c : Dev nD) → (b : Ref sig .tc) → Buf (Elt F) ((c : Thread nD τ).loc b) := fun c b => B1 m ρ c b
theorem hF0 (c : Dev nD) (w : Fin cfg0.W) : (dat0 (U0 m ρ) c).arrAt w cfg0.N = U1 m ρ c (Pipeline.arrRef spec0 w) :=
  (B1_arr m ρ c w).symm
theorem hrest0 (c : Dev nD) : ∀ b, b ∉ Finset.univ.image (Pipeline.arrRef spec0) → U1 m ρ c b = U0 m ρ c b :=
  fun b hb => B1_of_ne m ρ c b fun w e => hb (Finset.mem_image.mpr ⟨w, Finset.mem_univ _, e⟩)

/-- The column of row maxima the second region leaves in its output array. -/
def col1 (c : Dev nD) : Buf (Elt F) ((c : Thread nD τ).loc main_v1) := (dat1 (U1 m ρ) c).arrAt 2 cfg1.N

/-- After the second region: its output array at that column, every other buffer as the first region left it. -/
def B2 (c : Dev nD) : Valuation τ sig (Elt F) := Function.update (B1 m ρ c) (Proc.devRef .tc main_v1) (col1 m ρ c)
abbrev U2 : (c : Dev nD) → (b : Ref sig .tc) → Buf (Elt F) ((c : Thread nD τ).loc b) := fun c b => B2 m ρ c b
theorem B2_main_v1 (c : Dev nD) : B2 m ρ c (Proc.devRef .tc main_v1) = col1 m ρ c := by
  unfold B2; exact Function.update_self _ _ _
theorem B2_of_ne (c : Dev nD) (b : Ref sig .tc) (hb : b ≠ main_v1) : B2 m ρ c (Proc.devRef .tc b) = B1 m ρ c (Proc.devRef .tc b) := by
  unfold B2; exact Function.update_of_ne (StableHlo.devRef_ne_of_ne hb) _ _

/-- After the host lines. -/
abbrev B3 : Dev nD → Valuation τ sig (Elt F) := fun c => StableHlo.after hostOps2 (B2 m ρ c)

/-- The argument array reaches the end as launched: no host line writes it, the second region does not stage it, the
    first reads it through an input window. -/
theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := StableHlo.after_of_writes_sub hostOps2 _ hostOps2_writes (by decide)
    _ = B1 m ρ c (Proc.devRef .tc main_arg0) := B2_of_ne m ρ c main_arg0 (by decide)
    _ = B0 m ρ c (Proc.devRef .tc main_arg0) := (B1_arr m ρ c 0).trans (((dat0 (U0 m ρ) c).arrAt_in 0 rfl _).trans (A_eq0 (U0 m ρ) c 0))
    _ = m ((c : Thread nD τ).loc main_arg0) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the core's dues. -/
abbrev Tₙ (c : Dev nD) : sProp 𝕄 := iprop(StableHlo.held (c : Thread nD τ) (Pipeline.ucRefs τ sig) (B3 m ρ c) ∗ ∃ r, prngReg c r)

/-! ## A core's unscoped buffers around the second region -/

/-- A core's unscoped buffers at contents `W`: the unit rows' buffer, the row maxima's buffer, and the buffers the
    second region does not stage. -/
theorem unscopedBufs_split1 (c : Dev nD) (W : (b : Ref sig .tc) → Buf (Elt F) ((c : Thread nD τ).loc b)) :
    (unscopedBufs (Ix := Unit) (Name := ℕ) (U := UR sig nD τ) (Lvl := ℕ) c W : sProp 𝕄)
      = iprop((((c : Thread nD τ).loc main_v0) ↦{fullShare} W main_v0) ∗ (((c : Thread nD τ).loc main_v1) ↦{fullShare} W main_v1)
          ∗ Pipeline.unscopedRest (Ix := Unit) (Name := ℕ) (U := UR sig nD τ) (Lvl := ℕ) spec1 c W) := by
  rw [Pipeline.unscopedRest_eq_of_list spec1 c W [main_arg0, main_v2, main_cst, main_v3, main_v4, main_cst_0, main_v5, main_v6, main_cst_1, main_v7, main_v8, main_v9, main_v10, main_cst_2, main_v11, main_cst_3, main_v12, main_v13] (by decide) (by decide)]
  unfold unscopedBufs
  exact Idealize.SL.BI.bigSep_eq_bigSepL_of_eq (main_v0 :: main_v1 :: [main_arg0, main_v2, main_cst, main_v3, main_v4, main_cst_0, main_v5, main_v6, main_cst_1, main_v7, main_v8, main_v9, main_v10, main_cst_2, main_v11, main_cst_3, main_v12, main_v13]) (by decide) (by decide) _

/-! ## The regions as segments -/

set_option backward.isDefEq.respectTransparency.types false in
/-- THE FIRST REGION over the thread state: entered from every unscoped buffer as launched, left with the unit rows
    in its output array. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second pipeline's arrays, window by window: the unit rows' buffer at the left half of the full share
    (window 0) and at the right half (window 1), the row maxima's buffer at the full share. -/
theorem arrays1_eq (V : (c : Dev nD) → (b : Ref sig .tc) → Buf (Elt F) ((c : Thread nD τ).loc b)) (c : Dev nD)
    (Fs : (w : Fin cfg1.W) → Buf (Elt F) ((cfg1.win w).arr.view.loc (c : Thread nD τ))) :
    ((dat1 V c).arrays Fs : sProp 𝕄)
      = iprop((((c : Thread nD τ).loc main_v0) ↦{fullShare.left} Fs 0) ∗ (((c : Thread nD τ).loc main_v0) ↦{fullShare.right} Fs 1)
          ∗ (((c : Thread nD τ).loc main_v1) ↦{fullShare} Fs 2)) := by
  unfold Pipeline.Dat.arrays
  rw [bigSep_W1, (arr_whole1 0).set_eq_univ, (arr_whole1 2).set_eq_univ]
  rfl

set_option backward.isDefEq.respectTransparency.types false in
/-- THE SECOND REGION over the thread state: entered with the unit rows in their buffer, which its two input
    windows share half and half; left with the column of row maxima in its output array. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (U1 m ρ) c).loose
  hwaits := Pipeline.hwaits_of_owed_zero _ _ _ _ L lv 1 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec1 c (U1 m ρ c)
  hentry c := by
    rw [Pipeline.ownSems0_none]
    have hsplit : (StableHlo.held (c : Thread nD τ) (Pipeline.ucRefs τ sig) (B1 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (U1 m ρ c)) := by
      rw [show pdats m ρ 1 c = dat1 (U1 m ρ) c from rfl]
      rw [← Pipeline.unscopedBufs_held (Ix := Unit) (Name := ℕ) (U := UR sig nD τ) (Lvl := ℕ) c (B1 m ρ c), unscopedBufs_split1 c (U1 m ρ c), arrays1_eq]
      iintro ⟨H0, H1, Hrest⟩
      ihave Hh := (pointsTo_share (PosShare.mem_left_op_right fullShare)).1 $$ H0
      icases Hh with ⟨Hl, Hr⟩
      isplitl [Hl Hr H1]
      · isplitl [Hl]; · iexact Hl
        isplitl [Hr]; · iexact Hr
        iexact H1
      iexact Hrest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (U1 m ρ) c
    unfold Pipeline.ΦA at h
    rw [show (pdats m ρ 1 c).Φ 0 = (dat1 (U1 m ρ) c).Φ 0 from rfl]
    iintro ⟨Hp, -, Hr⟩
    iapply h
    isplitl [Hr]; · iexact Hr
    iexact Hp
  hout c := by
    rw [Pipeline.ownSems0_none]
    have h := hout1 (U1 m ρ) c
    unfold Pipeline.ΦA at h
    rw [show (pdats m ρ 1 c).Φ (Fin.last _) = (dat1 (U1 m ρ) c).Φ (Fin.last cfg1.N) from rfl]
    iintro H
    ihave H' := h $$ H
    icases H' with ⟨Hr, Hp⟩
    isplitl [Hp]; · iexact Hp
    isplitr; · iempintro
    iexact Hr
  hexit c := by
    have hrest : (Pipeline.unscopedRest (Ix := Unit) (Name := ℕ) (U := UR sig nD τ) (Lvl := ℕ) spec1 c (U2 m ρ c) : sProp 𝕄)
        = Pipeline.unscopedRest (Ix := Unit) (Name := ℕ) (U := UR sig nD τ) (Lvl := ℕ) spec1 c (U1 m ρ c) := by
      unfold Pipeline.unscopedRest
      exact bigSep_congr fun b hb => by
        rw [show U2 m ρ c b = U1 m ρ c b from B2_of_ne m ρ c b fun e =>
          (Finset.mem_sdiff.mp hb).2 (e ▸ Finset.mem_image.mpr ⟨(2 : Fin 3), Finset.mem_univ _, rfl⟩)]
    have hjoin : iprop((pdats m ρ 1 c).arrays ((pdats m ρ 1 c).arrAt · cfg1.N) ∗ Pipeline.unscopedRest (Ix := Unit) (Name := ℕ) (U := UR sig nD τ) (Lvl := ℕ) spec1 c (U1 m ρ c))
        ⊢ (StableHlo.held (c : Thread nD τ) (Pipeline.ucRefs τ sig) (B2 m ρ c) : sProp 𝕄) := by
      rw [show pdats m ρ 1 c = dat1 (U1 m ρ) c from rfl]
      rw [← Pipeline.unscopedBufs_held (Ix := Unit) (Name := ℕ) (U := UR sig nD τ) (Lvl := ℕ) c (B2 m ρ c), unscopedBufs_split1 c (U2 m ρ c), arrays1_eq, hrest]
      rw [show U2 m ρ c main_v0 = U1 m ρ c main_v0 from B2_of_ne m ρ c main_v0 (by decide),
        show U2 m ρ c main_v1 = col1 m ρ c from B2_main_v1 m ρ c]
      rw [(dat1 (U1 m ρ) c).arrAt_in 0 rfl cfg1.N, (dat1 (U1 m ρ) c).arrAt_in 1 rfl cfg1.N, A_eq1, A_eq1]
      unfold col1
      iintro ⟨⟨Hl, Hr, H1⟩, Hrest⟩
      isplitl [Hl Hr]
      · iapply (pointsTo_share (PosShare.mem_left_op_right fullShare)).2
        isplitl [Hl]; · iexact Hl
        iexact Hr
      isplitl [H1]; · iexact H1
      iexact Hrest
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The host lines after the regions as a segment, from the contents the second region leaves. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (B2 m ρ) R

/-- @main's three segments in order. -/
abbrev segs : List (Pipeline.Seg (pcfgs (F := F)) adm (pdats m ρ) () defs₀ 𝒱₀ L lv) :=
  [ .region (reg0 m ρ), .region (reg1 m ρ), .host (hseg2 m ρ) ]

theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, with the result buffer at what the host lines compute from the column of row maxima, and the
    argument array as launched. -/
theorem run_both : θ_run defs (onTc (τ := τ) (main (F := F))) ⟨m, fun _ => 0, ρ⟩ (fun r => ∀ c : Dev nD,
      r.2.mem ((c.tc : Thread nD τ).loc main_v13) = B3 m ρ c (Proc.devRef .tc main_v13)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun c =>
        show iprop(StableHlo.held (c : Thread nD τ) (Pipeline.ucRefs τ sig) (B3 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c =>
      ⟨h c _ (mem_uc main_v13 (by decide)), (h c _ (mem_uc main_arg0 (by decide))).trans (B3_main_arg0 m ρ c)⟩)

/-- THE FRAME: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_both m ρ)

end Cert.Kernel.Hand

end
-- ==== Proof.Region0.lean ====
/-
  Region 0 of the kernel program: the row-normalising pipeline (32 points, one block of 512 rows per point).
  Per point the body reads its input block from the first window's staging buffer and stores, into the second
  window's staging buffer, the block with every row divided by its clamped norm.  This file gives the pipeline's
  proof data at arbitrary region-entry contents `V` and proves the body obligation at every point, at any float
  instance.
-/
import proofs.«121834_j13924283973723_2_alg».proof.Proof.Gen.KernelIdeal.Launch
import proofs.«121834_j13924283973723_2_alg».proof.Proof.Gen.KernelIdeal.Skeleton
import proofs.«121834_j13924283973723_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x1024 := Rect.unit (s := S512x1024) ![0, 0] S512x1024.size inb_S512x1024_S512x1024_0_0

/-! ## What the body leaves in the output window's buffer -/

/-- The output staging buffer after the body, from the input block: its one store as a piece. -/
def out0_1 (x0 : Vec F S512x1024 .f32) : Vec F S512x1024 .bf16 :=
  View.canon [⟨r0_0, k0_pay1 (View.ld x0 r0_0)⟩]

/-- The store's rectangle is the whole buffer, so it covers it. -/
theorem cover0_1 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg1 : Memref sig .tc .vmem S512x1024 .f32) (harg1 : arg1.IsWhole)
    (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the pipeline on core `c`: the arrays as the region finds them (`V`); after the body at point
    `t` the input's buffer at its block and the output's at `out0_1` of the input block; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Base.lean ====
/-
  The second region's kernel, at any float instance: what its body's branches test, in closed form over the 8 × 8
  grid, and what the pipeline hands the body.

  At grid point t the row-block number is i = t / 8 and the column-block number is j = t % 8.  The body resets the
  running maximum (a scratch column of 2048 entries) when j = 0, folds the current 2048 × 2048 tile's row maxima
  into it — with the tile's diagonal at -∞ when i = j, as it stands when i ≠ j — and copies it to the output block
  when j = 7.  The output block is therefore idle, and not written back, at every point with j ≠ 7.
-/
import proofs.«121834_j13924283973723_2_alg».proof.Proof.Gen.KernelIdeal.Launch
import proofs.«121834_j13924283973723_2_alg».proof.Proof.Gen.KernelIdeal.Skeleton
import proofs.«121834_j13924283973723_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`): rows `2048·i …` of the unit
    rows for window 0, rows `2048·j …` for window 1. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (between two
    fetches the block's index does not move), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1, fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- `j = 0`: the running maximum is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- `i = j`: the tile meets the diagonal. -/
abbrev cond1_1 (i : grid1.Coords) : Prop := (Scalar.cmpi .ne (Scalar.extui (Scalar.cmpi .eq (BitVec.ofNat 32 (i 0).val) (BitVec.ofNat 32 (i 1).val))) 0#32) = 1#1
theorem hcond1_1 : ∀ t : Fin cfg1.N, cond1_1 (grid1.coords t) ↔ t.val / 8 = t.val % 8 :=
  (by decide +kernel : ∀ t : Fin grid1.N, cond1_1 (grid1.coords t) ↔ t.val / 8 = t.val % 8)

/-- `i ≠ j`: the tile is off the diagonal. -/
abbrev cond1_2 (i : grid1.Coords) : Prop := (Scalar.cmpi .ne (Scalar.extui (Scalar.cmpi .ne (BitVec.ofNat 32 (i 0).val) (BitVec.ofNat 32 (i 1).val))) 0#32) = 1#1
theorem hcond1_2 : ∀ t : Fin cfg1.N, cond1_2 (grid1.coords t) ↔ t.val / 8 ≠ t.val % 8 :=
  (by decide +kernel : ∀ t : Fin grid1.N, cond1_2 (grid1.coords t) ↔ t.val / 8 ≠ t.val % 8)

/-- `j = 7`: the running maximum is copied out. -/
abbrev cond1_3 (i : grid1.Coords) : Prop := k1_cond4 i = 1#1
theorem hcond1_3 : ∀ t : Fin cfg1.N, cond1_3 (grid1.coords t) ↔ t.val % 8 = 7 :=
  (by decide +kernel : ∀ t : Fin grid1.N, cond1_3 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where `j ≠ 7` the output block is idle and is not written back. -/
theorem idleAt1_2 : ∀ t : Fin cfg1.N, ¬cond1_3 (grid1.coords t) → cfg1.idle 2 (grid1.coords t) = true := by decide +kernel
theorem noFlush1_2 : ∀ t : Fin cfg1.N, ¬cond1_3 (grid1.coords t) → (cfg1.win 2).flush t = false := by decide +kernel
/-- Where `j = 7` it is stored. -/
theorem liveAt1_2 : ∀ t : Fin cfg1.N, cond1_3 (grid1.coords t) → cfg1.idle 2 (grid1.coords t) = false := by decide +kernel

/-! ## The memrefs the body is called with -/

abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
/-- The scratch column holding the running maximum, and a view through which its contents are stated. -/
abbrev scM1_0 : Memref sig .tc .vmem S2048x1 .f32 := Memref.whole cc1_scratch0
abbrev VS1_0 : View sig .tc .vmem S2048x1 .f32 := scM1_0.view
/-- One staging buffer of the output window, through which its contents are stated. -/
abbrev VO1_2 : View sig .tc .vmem S2048x1 .f32 := (Memref.whole cc1_stg2_0 : Memref sig .tc .vmem S2048x1 .f32).view

/-- The scoped buffers of the first region's pipeline, which this region leaves alone, each at some contents. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The invariant the region is entered with, the scoped buffers spelt one by one: those of the first region's
    pipeline and the scratch column each at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.Region1RunD.lean ====
/-
  The second region's kernel body run whole in one of its six cases: 0 < j < 7 and i ≠ j: the tile's row maxima folded in.
  The pieces each buffer ends with are found by running the body; the statement says that on whole staging buffers —
  the two input blocks at their contents, the output block idle (handed back untouched), the running maximum at what the point before left —
  the body runs to the end with the inputs as they were and each buffer it stored into with its pieces written.
-/
import proofs.«121834_j13924283973723_2_alg».proof.Proof.Region1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_D (c : Dev nD) (i : grid1.Coords) (arg2 : Memref sig .tc .vmem S2048x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : ¬cond1_1 i) (hc2 : cond1_2 i) (hc3 : ¬cond1_3 i)
    (x0 : Vec F S2048x1024 .bf16) (x1 : Vec F S2048x1024 .bf16) (xs0 : Vec F S2048x1 .f32) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__koleo_max_sim_kernel i arg2 harg2 arg3 harg3 arg4 harg4 arg5 harg5) K } := by
  refine ⟨[], ?_, fun xi2 E K => ?run⟩
  case run =>
    simp only [cc1__koleo_max_sim_kernel_eq_skeleton]; unfold cc1__koleo_max_sim_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Region1RunA.lean ====
/-
  The second region's kernel body run whole in one of its six cases: j = 0 and i = j (the very first tile): reset, then the masked tile's row maxima.
  The pieces each buffer ends with are found by running the body; the statement says that on whole staging buffers —
  the two input blocks at their contents, the output block idle (handed back untouched), the running maximum at anything —
  the body runs to the end with the inputs as they were and each buffer it stored into with its pieces written.
-/
import proofs.«121834_j13924283973723_2_alg».proof.Proof.Region1RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S2048x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (hc0 : cond1_0 i) (hc1 : cond1_1 i) (hc2 : ¬cond1_2 i) (hc3 : ¬cond1_3 i)
    (x0 : Vec F S2048x1024 .bf16) (x1 : Vec F S2048x1024 .bf16) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__koleo_max_sim_kernel i arg2 harg2 arg3 harg3 arg4 harg4 arg5 harg5) K } := by
  refine ⟨[], ?_, fun xi2 E K => ?run⟩
  case run =>
    simp only [cc1__koleo_max_sim_kernel_eq_skeleton]; unfold cc1__koleo_max_sim_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Region1RunB.lean ====
/-
  The second region's kernel body run whole in one of its six cases: j = 0 and i ≠ j: reset, then the tile's row maxima.
  The pieces each buffer ends with are found by running the body; the statement says that on whole staging buffers —
  the two input blocks at their contents, the output block idle (handed back untouched), the running maximum at anything —
  the body runs to the end with the inputs as they were and each buffer it stored into with its pieces written.
-/
import proofs.«121834_j13924283973723_2_alg».proof.Proof.Region1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S2048x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (hc0 : cond1_0 i) (hc1 : ¬cond1_1 i) (hc2 : cond1_2 i) (hc3 : ¬cond1_3 i)
    (x0 : Vec F S2048x1024 .bf16) (x1 : Vec F S2048x1024 .bf16) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__koleo_max_sim_kernel i arg2 harg2 arg3 harg3 arg4 harg4 arg5 harg5) K } := by
  refine ⟨[], ?_, fun xi2 E K => ?run⟩
  case run =>
    simp only [cc1__koleo_max_sim_kernel_eq_skeleton]; unfold cc1__koleo_max_sim_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Region1RunC.lean ====
/-
  The second region's kernel body run whole in one of its six cases: 0 < j < 7 and i = j: the masked tile's row maxima folded in.
  The pieces each buffer ends with are found by running the body; the statement says that on whole staging buffers —
  the two input blocks at their contents, the output block idle (handed back untouched), the running maximum at what the point before left —
  the body runs to the end with the inputs as they were and each buffer it stored into with its pieces written.
-/
import proofs.«121834_j13924283973723_2_alg».proof.Proof.Region1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S2048x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : cond1_1 i) (hc2 : ¬cond1_2 i) (hc3 : ¬cond1_3 i)
    (x0 : Vec F S2048x1024 .bf16) (x1 : Vec F S2048x1024 .bf16) (xs0 : Vec F S2048x1 .f32) :
    Σ' (L2 : List (View.Piece (Elt F) S2048x1 .f32)), { LS0 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__koleo_max_sim_kernel i arg2 harg2 arg3 harg3 arg4 harg4 arg5 harg5) K } := by
  refine ⟨[], ?_, fun xi2 E K => ?run⟩
  case run =>
    simp only [cc1__koleo_max_sim_kernel_eq_skeleton]; unfold cc1__koleo_max_sim_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Region1RunE.lean ====
/-
  The second region's kernel body run whole in one of its six cases: j = 7 and i = j (the last tile of the last row block): the masked tile's row maxima folded in, and the running maximum copied out.
  The pieces each buffer ends with are found by running the body; the statement says that on whole staging buffers —
  the two input blocks at their contents, the output block at anything, the running maximum at what the point before left —
  the body runs to the end with the inputs as they were and each buffer it stored into with its pieces written.
-/
import proofs.«121834_j13924283973723_2_alg».proof.Proof.Region1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_E (c : Dev nD) (i : grid1.Coords) (arg2 : Memref sig .tc .vmem S2048x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : cond1_1 i) (hc2 : ¬cond1_2 i) (hc3 : cond1_3 i)
    (x0 : Vec F S2048x1024 .bf16) (x1 : Vec F S2048x1024 .bf16) (xs0 : Vec F S2048x1 .f32) :
    Σ' (L2 : List (View.Piece (Elt F) S2048x1 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__koleo_max_sim_kernel i arg2 harg2 arg3 harg3 arg4 harg4 arg5 harg5) K } := by
  refine ⟨?_, ?_, fun E K => ?run⟩
  case run =>
    simp only [cc1__koleo_max_sim_kernel_eq_skeleton]; unfold cc1__koleo_max_sim_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.KernelIdeal.Hand

end
-- ==== Proof.Region1RunG.lean ====
/-
  The second region's kernel body run whole in one of its six cases: j = 7 and i ≠ j: the tile's row maxima folded in, and the running maximum copied out.
  The pieces each buffer ends with are found by running the body; the statement says that on whole staging buffers —
  the two input blocks at their contents, the output block at anything, the running maximum at what the point before left —
  the body runs to the end with the inputs as they were and each buffer it stored into with its pieces written.
-/
import proofs.«121834_j13924283973723_2_alg».proof.Proof.Region1RunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_G (c : Dev nD) (i : grid1.Coords) (arg2 : Memref sig .tc .vmem S2048x1024 .bf16) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole) (hc0 : ¬cond1_0 i) (hc1 : ¬cond1_1 i) (hc2 : cond1_2 i) (hc3 : cond1_3 i)
    (x0 : Vec F S2048x1024 .bf16) (x1 : Vec F S2048x1024 .bf16) (xs0 : Vec F S2048x1 .f32) :
    Σ' (L2 : List (View.Piece (Elt F) S2048x1 .f32)), { LS0 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__koleo_max_sim_kernel i arg2 harg2 arg3 harg3 arg4 harg4 arg5 harg5) K } := by
  refine ⟨?_, ?_, fun E K => ?run⟩
  case run =>
    simp only [cc1__koleo_max_sim_kernel_eq_skeleton]; unfold cc1__koleo_max_sim_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.KernelIdeal.Hand

end
-- ==== Proof.Region1.lean ====
/-
  The second region at any float instance: what the running maximum (the scratch column) and the output block
  hold after each grid point, the proof data of its pipeline, and the body obligation at every point.

  The running maximum after point t is the case's result at t over what point t - 1 left (over nothing at j = 0,
  where the body resets it first); the output block is stored at the points with j = 7 only.  The two input
  windows read ONE array, the unit rows: each holds it at one half of the full share.
-/
import proofs.«121834_j13924283973723_2_alg».proof.Proof.Region1RunG

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The six cases at a point's memrefs -/

/-- The case `j = 0`, `i = j` run at point `t`'s memrefs. -/
abbrev run1_A (c : Dev nD) (t : Fin cfg1.N) (h0 : t.val % 8 = 0) (h1 : t.val / 8 = t.val % 8) (x0 x1 : Vec F S2048x1024 .bf16) :=
  (kernelRun1_A c (grid1.coords t) (ms1_0 t) (hs1_0 t) (ms1_1 t) (hs1_1 t) (ms1_2 t) (hs1_2 t) scM1_0 (Memref.isWhole_whole _) ((hcond1_0 t).mpr h0) ((hcond1_1 t).mpr h1) (fun h => (hcond1_2 t).mp h h1) (fun h => by have := (hcond1_3 t).mp h; omega) x0 x1)

/-- Its pieces for the scratch column cover it. -/
theorem scover1_A (c : Dev nD) (t : Fin cfg1.N) (h0 : t.val % 8 = 0) (h1 : t.val / 8 = t.val % 8) (x0 x1 : Vec F S2048x1024 .bf16) (y : S2048x1.Idx) :
    ∃ pc ∈ (run1_A (F := F) c t h0 h1 x0 x1).2.1, y ∈ pc.1.set :=
  View.cover_of_tiledL (run1_A (F := F) c t h0 h1 x0 x1).2.1 S2048x1.size (by sl_kernel_rfl) y

/-- What it leaves in the scratch column: its pieces read back. -/
def sout1_A (c : Dev nD) (t : Fin cfg1.N) (h0 : t.val % 8 = 0) (h1 : t.val / 8 = t.val % 8) (x0 x1 : Vec F S2048x1024 .bf16) : Vec F S2048x1 .f32 :=
  VS1_0.read (Elt F) (VS1_0.writes (Elt F) VS1_0.junk (run1_A (F := F) c t h0 h1 x0 x1).2.1)

/-- What it leaves in the output block (nothing is stored there in this case: a placeholder nothing consults). -/
def out1_A (c : Dev nD) (t : Fin cfg1.N) (h0 : t.val % 8 = 0) (h1 : t.val / 8 = t.val % 8) (x0 x1 : Vec F S2048x1024 .bf16) : Vec F S2048x1 .f32 :=
  VO1_2.read (Elt F) (VO1_2.writes (Elt F) VO1_2.junk (run1_A (F := F) c t h0 h1 x0 x1).1)

/-- The case `j = 0`, `i ≠ j` run at point `t`'s memrefs. -/
abbrev run1_B (c : Dev nD) (t : Fin cfg1.N) (h0 : t.val % 8 = 0) (h1 : ¬t.val / 8 = t.val % 8) (x0 x1 : Vec F S2048x1024 .bf16) :=
  (kernelRun1_B c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) ((hcond1_2 t).mpr h1) (fun h => by have := (hcond1_3 t).mp h; omega) x0 x1)

/-- Its pieces for the scratch column cover it. -/
theorem scover1_B (c : Dev nD) (t : Fin cfg1.N) (h0 : t.val % 8 = 0) (h1 : ¬t.val / 8 = t.val % 8) (x0 x1 : Vec F S2048x1024 .bf16) (y : S2048x1.Idx) :
    ∃ pc ∈ (run1_B (F := F) c t h0 h1 x0 x1).2.1, y ∈ pc.1.set :=
  View.cover_of_tiledL (run1_B (F := F) c t h0 h1 x0 x1).2.1 S2048x1.size (by sl_kernel_rfl) y

/-- What it leaves in the scratch column: its pieces read back. -/
def sout1_B (c : Dev nD) (t : Fin cfg1.N) (h0 : t.val % 8 = 0) (h1 : ¬t.val / 8 = t.val % 8) (x0 x1 : Vec F S2048x1024 .bf16) : Vec F S2048x1 .f32 :=
  VS1_0.read (Elt F) (VS1_0.writes (Elt F) VS1_0.junk (run1_B (F := F) c t h0 h1 x0 x1).2.1)

/-- What it leaves in the output block (nothing is stored there in this case: a placeholder nothing consults). -/
def out1_B (c : Dev nD) (t : Fin cfg1.N) (h0 : t.val % 8 = 0) (h1 : ¬t.val / 8 = t.val % 8) (x0 x1 : Vec F S2048x1024 .bf16) : Vec F S2048x1 .f32 :=
  VO1_2.read (Elt F) (VO1_2.writes (Elt F) VO1_2.junk (run1_B (F := F) c t h0 h1 x0 x1).1)

/-- The case `0 < j < 7`, `i = j` run at point `t`'s memrefs. -/
abbrev run1_C (c : Dev nD) (t : Fin cfg1.N) (h0 : ¬t.val % 8 = 0) (h1 : t.val / 8 = t.val % 8) (h3 : ¬t.val % 8 = 7) (x0 x1 : Vec F S2048x1024 .bf16) (xs : Vec F S2048x1 .f32) :=
  (kernelRun1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (fun h => (hcond1_2 t).mp h h1) (fun h => h3 ((hcond1_3 t).mp h)) x0 x1 xs)

/-- Its pieces for the scratch column cover it. -/
theorem scover1_C (c : Dev nD) (t : Fin cfg1.N) (h0 : ¬t.val % 8 = 0) (h1 : t.val / 8 = t.val % 8) (h3 : ¬t.val % 8 = 7) (x0 x1 : Vec F S2048x1024 .bf16) (xs : Vec F S2048x1 .f32) (y : S2048x1.Idx) :
    ∃ pc ∈ (run1_C (F := F) c t h0 h1 h3 x0 x1 xs).2.1, y ∈ pc.1.set :=
  View.cover_of_tiledL (run1_C (F := F) c t h0 h1 h3 x0 x1 xs).2.1 S2048x1.size (by sl_kernel_rfl) y

/-- What it leaves in the scratch column: its pieces read back. -/
def sout1_C (c : Dev nD) (t : Fin cfg1.N) (h0 : ¬t.val % 8 = 0) (h1 : t.val / 8 = t.val % 8) (h3 : ¬t.val % 8 = 7) (x0 x1 : Vec F S2048x1024 .bf16) (xs : Vec F S2048x1 .f32) : Vec F S2048x1 .f32 :=
  VS1_0.read (Elt F) (VS1_0.writes (Elt F) VS1_0.junk (run1_C (F := F) c t h0 h1 h3 x0 x1 xs).2.1)

/-- What it leaves in the output block (nothing is stored there in this case: a placeholder nothing consults). -/
def out1_C (c : Dev nD) (t : Fin cfg1.N) (h0 : ¬t.val % 8 = 0) (h1 : t.val / 8 = t.val % 8) (h3 : ¬t.val % 8 = 7) (x0 x1 : Vec F S2048x1024 .bf16) (xs : Vec F S2048x1 .f32) : Vec F S2048x1 .f32 :=
  VO1_2.read (Elt F) (VO1_2.writes (Elt F) VO1_2.junk (run1_C (F := F) c t h0 h1 h3 x0 x1 xs).1)

/-- The case `0 < j < 7`, `i ≠ j` run at point `t`'s memrefs. -/
abbrev run1_D (c : Dev nD) (t : Fin cfg1.N) (h0 : ¬t.val % 8 = 0) (h1 : ¬t.val / 8 = t.val % 8) (h3 : ¬t.val % 8 = 7) (x0 x1 : Vec F S2048x1024 .bf16) (xs : Vec F S2048x1 .f32) :=
  (kernelRun1_D c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) ((hcond1_2 t).mpr h1) (fun h => h3 ((hcond1_3 t).mp h)) x0 x1 xs)

/-- Its pieces for the scratch column cover it. -/
theorem scover1_D (c : Dev nD) (t : Fin cfg1.N) (h0 : ¬t.val % 8 = 0) (h1 : ¬t.val / 8 = t.val % 8) (h3 : ¬t.val % 8 = 7) (x0 x1 : Vec F S2048x1024 .bf16) (xs : Vec F S2048x1 .f32) (y : S2048x1.Idx) :
    ∃ pc ∈ (run1_D (F := F) c t h0 h1 h3 x0 x1 xs).2.1, y ∈ pc.1.set :=
  View.cover_of_tiledL (run1_D (F := F) c t h0 h1 h3 x0 x1 xs).2.1 S2048x1.size (by sl_kernel_rfl) y

/-- What it leaves in the scratch column: its pieces read back. -/
def sout1_D (c : Dev nD) (t : Fin cfg1.N) (h0 : ¬t.val % 8 = 0) (h1 : ¬t.val / 8 = t.val % 8) (h3 : ¬t.val % 8 = 7) (x0 x1 : Vec F S2048x1024 .bf16) (xs : Vec F S2048x1 .f32) : Vec F S2048x1 .f32 :=
  VS1_0.read (Elt F) (VS1_0.writes (Elt F) VS1_0.junk (run1_D (F := F) c t h0 h1 h3 x0 x1 xs).2.1)

/-- What it leaves in the output block (nothing is stored there in this case: a placeholder nothing consults). -/
def out1_D (c : Dev nD) (t : Fin cfg1.N) (h0 : ¬t.val % 8 = 0) (h1 : ¬t.val / 8 = t.val % 8) (h3 : ¬t.val % 8 = 7) (x0 x1 : Vec F S2048x1024 .bf16) (xs : Vec F S2048x1 .f32) : Vec F S2048x1 .f32 :=
  VO1_2.read (Elt F) (VO1_2.writes (Elt F) VO1_2.junk (run1_D (F := F) c t h0 h1 h3 x0 x1 xs).1)

/-- The case `j = 7`, `i = j` run at point `t`'s memrefs. -/
abbrev run1_E (c : Dev nD) (t : Fin cfg1.N) (h0 : ¬t.val % 8 = 0) (h1 : t.val / 8 = t.val % 8) (h3 : t.val % 8 = 7) (x0 x1 : Vec F S2048x1024 .bf16) (xs : Vec F S2048x1 .f32) :=
  (kernelRun1_E c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (fun h => (hcond1_2 t).mp h h1) ((hcond1_3 t).mpr h3) x0 x1 xs)

/-- Its pieces for the scratch column cover it. -/
theorem scover1_E (c : Dev nD) (t : Fin cfg1.N) (h0 : ¬t.val % 8 = 0) (h1 : t.val / 8 = t.val % 8) (h3 : t.val % 8 = 7) (x0 x1 : Vec F S2048x1024 .bf16) (xs : Vec F S2048x1 .f32) (y : S2048x1.Idx) :
    ∃ pc ∈ (run1_E (F := F) c t h0 h1 h3 x0 x1 xs).2.1, y ∈ pc.1.set :=
  View.cover_of_tiledL (run1_E (F := F) c t h0 h1 h3 x0 x1 xs).2.1 S2048x1.size (by sl_kernel_rfl) y

/-- What it leaves in the scratch column: its pieces read back. -/
def sout1_E (c : Dev nD) (t : Fin cfg1.N) (h0 : ¬t.val % 8 = 0) (h1 : t.val / 8 = t.val % 8) (h3 : t.val % 8 = 7) (x0 x1 : Vec F S2048x1024 .bf16) (xs : Vec F S2048x1 .f32) : Vec F S2048x1 .f32 :=
  VS1_0.read (Elt F) (VS1_0.writes (Elt F) VS1_0.junk (run1_E (F := F) c t h0 h1 h3 x0 x1 xs).2.1)

/-- Its pieces for the output block cover it. -/
theorem cover1_E (c : Dev nD) (t : Fin cfg1.N) (h0 : ¬t.val % 8 = 0) (h1 : t.val / 8 = t.val % 8) (h3 : t.val % 8 = 7) (x0 x1 : Vec F S2048x1024 .bf16) (xs : Vec F S2048x1 .f32) (y : S2048x1.Idx) :
    ∃ pc ∈ (run1_E (F := F) c t h0 h1 h3 x0 x1 xs).1, y ∈ pc.1.set :=
  View.cover_of_tiledL (run1_E (F := F) c t h0 h1 h3 x0 x1 xs).1 S2048x1.size (by sl_kernel_rfl) y

/-- What it leaves in the output block. -/
def out1_E (c : Dev nD) (t : Fin cfg1.N) (h0 : ¬t.val % 8 = 0) (h1 : t.val / 8 = t.val % 8) (h3 : t.val % 8 = 7) (x0 x1 : Vec F S2048x1024 .bf16) (xs : Vec F S2048x1 .f32) : Vec F S2048x1 .f32 :=
  VO1_2.read (Elt F) (VO1_2.writes (Elt F) VO1_2.junk (run1_E (F := F) c t h0 h1 h3 x0 x1 xs).1)

/-- The case `j = 7`, `i ≠ j` run at point `t`'s memrefs. -/
abbrev run1_G (c : Dev nD) (t : Fin cfg1.N) (h0 : ¬t.val % 8 = 0) (h1 : ¬t.val / 8 = t.val % 8) (h3 : t.val % 8 = 7) (x0 x1 : Vec F S2048x1024 .bf16) (xs : Vec F S2048x1 .f32) :=
  (kernelRun1_G c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) ((hcond1_2 t).mpr h1) ((hcond1_3 t).mpr h3) x0 x1 xs)

/-- Its pieces for the scratch column cover it. -/
theorem scover1_G (c : Dev nD) (t : Fin cfg1.N) (h0 : ¬t.val % 8 = 0) (h1 : ¬t.val / 8 = t.val % 8) (h3 : t.val % 8 = 7) (x0 x1 : Vec F S2048x1024 .bf16) (xs : Vec F S2048x1 .f32) (y : S2048x1.Idx) :
    ∃ pc ∈ (run1_G (F := F) c t h0 h1 h3 x0 x1 xs).2.1, y ∈ pc.1.set :=
  View.cover_of_tiledL (run1_G (F := F) c t h0 h1 h3 x0 x1 xs).2.1 S2048x1.size (by sl_kernel_rfl) y

/-- What it leaves in the scratch column: its pieces read back. -/
def sout1_G (c : Dev nD) (t : Fin cfg1.N) (h0 : ¬t.val % 8 = 0) (h1 : ¬t.val / 8 = t.val % 8) (h3 : t.val % 8 = 7) (x0 x1 : Vec F S2048x1024 .bf16) (xs : Vec F S2048x1 .f32) : Vec F S2048x1 .f32 :=
  VS1_0.read (Elt F) (VS1_0.writes (Elt F) VS1_0.junk (run1_G (F := F) c t h0 h1 h3 x0 x1 xs).2.1)

/-- Its pieces for the output block cover it. -/
theorem cover1_G (c : Dev nD) (t : Fin cfg1.N) (h0 : ¬t.val % 8 = 0) (h1 : ¬t.val / 8 = t.val % 8) (h3 : t.val % 8 = 7) (x0 x1 : Vec F S2048x1024 .bf16) (xs : Vec F S2048x1 .f32) (y : S2048x1.Idx) :
    ∃ pc ∈ (run1_G (F := F) c t h0 h1 h3 x0 x1 xs).1, y ∈ pc.1.set :=
  View.cover_of_tiledL (run1_G (F := F) c t h0 h1 h3 x0 x1 xs).1 S2048x1.size (by sl_kernel_rfl) y

/-- What it leaves in the output block. -/
def out1_G (c : Dev nD) (t : Fin cfg1.N) (h0 : ¬t.val % 8 = 0) (h1 : ¬t.val / 8 = t.val % 8) (h3 : t.val % 8 = 7) (x0 x1 : Vec F S2048x1024 .bf16) (xs : Vec F S2048x1 .f32) : Vec F S2048x1 .f32 :=
  VO1_2.read (Elt F) (VO1_2.writes (Elt F) VO1_2.junk (run1_G (F := F) c t h0 h1 h3 x0 x1 xs).1)

/-! ## What the buffers hold after each point -/

/-- One point's step: the case the closed forms select at `t`, run on the blocks `x0`, `x1` over the running maximum
    `xs` the point before left (unused where `j = 0`). The pair is (output block, running maximum). -/
def stepAt (c : Dev nD) (t : Fin cfg1.N) (x0 x1 : Vec F S2048x1024 .bf16) (xs : Vec F S2048x1 .f32) : Vec F S2048x1 .f32 × Vec F S2048x1 .f32 :=
  if h0 : t.val % 8 = 0 then
    if h1 : t.val / 8 = t.val % 8 then (out1_A c t h0 h1 x0 x1, sout1_A c t h0 h1 x0 x1)
    else (out1_B c t h0 h1 x0 x1, sout1_B c t h0 h1 x0 x1)
  else if h1 : t.val / 8 = t.val % 8 then
    if h3 : t.val % 8 = 7 then (out1_E c t h0 h1 h3 x0 x1 xs, sout1_E c t h0 h1 h3 x0 x1 xs)
    else (out1_C c t h0 h1 h3 x0 x1 xs, sout1_C c t h0 h1 h3 x0 x1 xs)
  else
    if h3 : t.val % 8 = 7 then (out1_G c t h0 h1 h3 x0 x1 xs, sout1_G c t h0 h1 h3 x0 x1 xs)
    else (out1_D c t h0 h1 h3 x0 x1 xs, sout1_D c t h0 h1 h3 x0 x1 xs)

theorem stepAt_A (c : Dev nD) (t : Fin cfg1.N) (x0 x1 : Vec F S2048x1024 .bf16) (xs : Vec F S2048x1 .f32) (h0 : t.val % 8 = 0) (h1 : t.val / 8 = t.val % 8) :
    stepAt (F := F) c t x0 x1 xs = (out1_A c t h0 h1 x0 x1, sout1_A c t h0 h1 x0 x1) := by unfold stepAt; rw [dif_pos h0, dif_pos h1]
theorem stepAt_B (c : Dev nD) (t : Fin cfg1.N) (x0 x1 : Vec F S2048x1024 .bf16) (xs : Vec F S2048x1 .f32) (h0 : t.val % 8 = 0) (h1 : ¬t.val / 8 = t.val % 8) :
    stepAt (F := F) c t x0 x1 xs = (out1_B c t h0 h1 x0 x1, sout1_B c t h0 h1 x0 x1) := by unfold stepAt; rw [dif_pos h0, dif_neg h1]
theorem stepAt_C (c : Dev nD) (t : Fin cfg1.N) (x0 x1 : Vec F S2048x1024 .bf16) (xs : Vec F S2048x1 .f32) (h0 : ¬t.val % 8 = 0) (h1 : t.val / 8 = t.val % 8) (h3 : ¬t.val % 8 = 7) :
    stepAt (F := F) c t x0 x1 xs = (out1_C c t h0 h1 h3 x0 x1 xs, sout1_C c t h0 h1 h3 x0 x1 xs) := by unfold stepAt; rw [dif_neg h0, dif_pos h1, dif_neg h3]
theorem stepAt_D (c : Dev nD) (t : Fin cfg1.N) (x0 x1 : Vec F S2048x1024 .bf16) (xs : Vec F S2048x1 .f32) (h0 : ¬t.val % 8 = 0) (h1 : ¬t.val / 8 = t.val % 8) (h3 : ¬t.val % 8 = 7) :
    stepAt (F := F) c t x0 x1 xs = (out1_D c t h0 h1 h3 x0 x1 xs, sout1_D c t h0 h1 h3 x0 x1 xs) := by unfold stepAt; rw [dif_neg h0, dif_neg h1, dif_neg h3]
theorem stepAt_E (c : Dev nD) (t : Fin cfg1.N) (x0 x1 : Vec F S2048x1024 .bf16) (xs : Vec F S2048x1 .f32) (h0 : ¬t.val % 8 = 0) (h1 : t.val / 8 = t.val % 8) (h3 : t.val % 8 = 7) :
    stepAt (F := F) c t x0 x1 xs = (out1_E c t h0 h1 h3 x0 x1 xs, sout1_E c t h0 h1 h3 x0 x1 xs) := by unfold stepAt; rw [dif_neg h0, dif_pos h1, dif_pos h3]
theorem stepAt_G (c : Dev nD) (t : Fin cfg1.N) (x0 x1 : Vec F S2048x1024 .bf16) (xs : Vec F S2048x1 .f32) (h0 : ¬t.val % 8 = 0) (h1 : ¬t.val / 8 = t.val % 8) (h3 : t.val % 8 = 7) :
    stepAt (F := F) c t x0 x1 xs = (out1_G c t h0 h1 h3 x0 x1 xs, sout1_G c t h0 h1 h3 x0 x1 xs) := by unfold stepAt; rw [dif_neg h0, dif_neg h1, dif_pos h3]

/-- THE ACCUMULATION: (output block, running maximum) after the body at position `n`: the step at `n` on that
    point's two blocks over the running maximum after position `n - 1`. -/
def outsAt1 (c : Dev nD) : (n : ℕ) → n < cfg1.N → Vec F S2048x1 .f32 × Vec F S2048x1 .f32
  | 0, hn => stepAt c ⟨0, hn⟩ (iblk1 V c 0 ⟨0, hn⟩) (iblk1 V c 1 ⟨0, hn⟩) (VS1_0.read (Elt F) VS1_0.junk)
  | n + 1, hn => stepAt c ⟨n + 1, hn⟩ (iblk1 V c 0 ⟨n + 1, hn⟩) (iblk1 V c 1 ⟨n + 1, hn⟩) (outsAt1 c n (Nat.lt_of_succ_lt hn)).2

/-- The running maximum the body finds at point `t`: what the point before left (anything at the first point). -/
def prev1 (c : Dev nD) (t : Fin cfg1.N) : Vec F S2048x1 .f32 :=
  if hz : t.val = 0 then VS1_0.read (Elt F) VS1_0.junk else (outsAt1 V c (t.val - 1) (Nat.lt_of_le_of_lt (Nat.sub_le _ _) t.isLt)).2

theorem outsAt1_eq (c : Dev nD) (t : Fin cfg1.N) :
    outsAt1 V c t.val t.isLt = stepAt c t (iblk1 V c 0 t) (iblk1 V c 1 t) (prev1 V c t) := by
  obtain ⟨n, hn⟩ := t
  cases n with
  | zero => rfl
  | succ n => rfl

theorem prev1_pos (c : Dev nD) (t : Fin cfg1.N) (hz : t.val ≠ 0) :
    prev1 V c t = (outsAt1 V c (t.val - 1) (Nat.lt_of_le_of_lt (Nat.sub_le _ _) t.isLt)).2 := by
  unfold prev1; rw [dif_neg hz]

/-! ## The region's invariant -/

/-- Before position `n`: at the first point what the region is entered with; afterwards the first region's scoped
    buffers at anything, the scratch column at the running maximum after position `n - 1`, the generator register at
    some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the second pipeline on core `c`: the arrays as the region finds them (`V`); after the body at
    point `t` each input's buffer at its block and the output's at `outsAt1`; the invariant `PhiS1`; nothing owed;
    the two input windows, which read one array, at one half of the full share each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which of the six cases the
    point is in; the invariant hands the body the scratch column at the running maximum the point before left (at
    anything at the first point) and takes it back at this point's; where `j ≠ 7` the output block is handed back
    untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  have hN : t.val < 64 := lt_of_lt_of_eq t.isLt (show cfg1.N = 64 from N_1)
  by_cases h0 : t.val % 8 = 0
  · by_cases h1 : t.val / 8 = t.val % 8
    · -- `j = 0`, `i = j`
      have hz : t.val = 0 := by omega
      have hk3 : ¬cond1_3 (grid1.coords t) := fun h => by have := (hcond1_3 t).mp h; omega
      rw [Dat.leavesExact_idle (dat1 V c) 2 t (idleAt1_2 t hk3) (noFlush1_2 t hk3)]
      rw [outsAt1_eq V c t]
      rw [stepAt_A c t _ _ _ h0 h1]
      unfold sout1_A; (try dsimp only)
      rw [PhiS1_castSucc V c t, PhiS1_zero V c _ _ hz, PhiA1_eq]
      iintro ⟨⟨⟨HA, HB, HC, HD, HS0⟩, Hg⟩, Ho, ⟨%d0, H0⟩, ⟨%d1, H1⟩, ⟨%d2, H2⟩⟩
      iapply ((run1_A (F := F) c t h0 h1 (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HA HB HC HD HS0 Hg]
      · isplitl [HA HB HC HD HS0]
        · isplitl [HA]; · iexact HA
          isplitl [HB]; · iexact HB
          isplitl [HC]; · iexact HC
          isplitl [HD]; · iexact HD
          unfold owns; iexists _; isplitr
          swap; · iexact HS0
          ipureintro; exact View.read_writes_of_cover _ _ _ _ _ (scover1_A c t h0 h1 _ _)
        iexact Hg
      isplitl [Ho]; · iexact Ho
      isplitl [H0]; · iexact H0
      isplitl [H1]; · iexact H1
      iexists _; iexact H2
    · -- `j = 0`, `i ≠ j`
      have hz : t.val ≠ 0 := by omega
      have hk3 : ¬cond1_3 (grid1.coords t) := fun h => by have := (hcond1_3 t).mp h; omega
      rw [Dat.leavesExact_idle (dat1 V c) 2 t (idleAt1_2 t hk3) (noFlush1_2 t hk3)]
      rw [outsAt1_eq V c t]
      rw [prev1_pos V c t hz]
      rw [stepAt_B c t _ _ _ h0 h1]
      unfold sout1_B; (try dsimp only)
      rw [PhiS1_castSucc V c t, PhiS1_pos V c _ _ hz]
      iintro ⟨⟨⟨HA, HB, HC, HD, HS0⟩, Hg⟩, Ho, ⟨%d0, H0⟩, ⟨%d1, H1⟩, ⟨%d2, H2⟩⟩
      iapply ((run1_B (F := F) c t h0 h1 (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HA HB HC HD HS0 Hg]
      · isplitl [HA HB HC HD HS0]
        · isplitl [HA]; · iexact HA
          isplitl [HB]; · iexact HB
          isplitl [HC]; · iexact HC
          isplitl [HD]; · iexact HD
          unfold owns; iexists _; isplitr
          swap; · iexact HS0
          ipureintro; exact View.read_writes_of_cover _ _ _ _ _ (scover1_B c t h0 h1 _ _)
        iexact Hg
      isplitl [Ho]; · iexact Ho
      isplitl [H0]; · iexact H0
      isplitl [H1]; · iexact H1
      iexists _; iexact H2
  · by_cases h1 : t.val / 8 = t.val % 8
    · by_cases h3 : t.val % 8 = 7
      · -- `j = 7`, `i = j`
        have hz : t.val ≠ 0 := by omega
        have hk3 : cond1_3 (grid1.coords t) := (hcond1_3 t).mpr h3
        rw [show (dat1 V c).leavesExact 2 t = owns (c : Thread nD τ) (ms1_2 t) fullShare ((dat1 V c).after 2 t) from by
          unfold Dat.leavesExact; rw [liveAt1_2 t hk3], after1_2]
        rw [outsAt1_eq V c t]
        rw [prev1_pos V c t hz]
        rw [stepAt_E c t _ _ _ h0 h1 h3]
        unfold out1_E sout1_E; (try dsimp only)
        rw [PhiS1_castSucc V c t, PhiS1_pos V c _ _ hz]
        iintro ⟨⟨⟨HA, HB, HC, HD, HS0⟩, Hg⟩, Ho, ⟨%d0, H0⟩, ⟨%d1, H1⟩, ⟨%d2, H2⟩⟩
        iapply ((run1_E (F := F) c t h0 h1 h3 (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_E c t h0 h1 h3 _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_E c t h0 h1 h3 _ _ _)
      · -- `0 < j < 7`, `i = j`
        have hz : t.val ≠ 0 := by omega
        have hk3 : ¬cond1_3 (grid1.coords t) := fun h => h3 ((hcond1_3 t).mp h)
        rw [Dat.leavesExact_idle (dat1 V c) 2 t (idleAt1_2 t hk3) (noFlush1_2 t hk3)]
        rw [outsAt1_eq V c t]
        rw [prev1_pos V c t hz]
        rw [stepAt_C c t _ _ _ h0 h1 h3]
        unfold sout1_C; (try dsimp only)
        rw [PhiS1_castSucc V c t, PhiS1_pos V c _ _ hz]
        iintro ⟨⟨⟨HA, HB, HC, HD, HS0⟩, Hg⟩, Ho, ⟨%d0, H0⟩, ⟨%d1, H1⟩, ⟨%d2, H2⟩⟩
        iapply ((run1_C (F := F) c t h0 h1 h3 (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_C c t h0 h1 h3 _ _ _)
          iexact Hg
        isplitl [Ho]; · iexact Ho
        isplitl [H0]; · iexact H0
        isplitl [H1]; · iexact H1
        iexists _; iexact H2
    · by_cases h3 : t.val % 8 = 7
      · -- `j = 7`, `i ≠ j`
        have hz : t.val ≠ 0 := by omega
        have hk3 : cond1_3 (grid1.coords t) := (hcond1_3 t).mpr h3
        rw [show (dat1 V c).leavesExact 2 t = owns (c : Thread nD τ) (ms1_2 t) fullShare ((dat1 V c).after 2 t) from by
          unfold Dat.leavesExact; rw [liveAt1_2 t hk3], after1_2]
        rw [outsAt1_eq V c t]
        rw [prev1_pos V c t hz]
        rw [stepAt_G c t _ _ _ h0 h1 h3]
        unfold out1_G sout1_G; (try dsimp only)
        rw [PhiS1_castSucc V c t, PhiS1_pos V c _ _ hz]
        iintro ⟨⟨⟨HA, HB, HC, HD, HS0⟩, Hg⟩, Ho, ⟨%d0, H0⟩, ⟨%d1, H1⟩, ⟨%d2, H2⟩⟩
        iapply ((run1_G (F := F) c t h0 h1 h3 (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_G c t h0 h1 h3 _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_G c t h0 h1 h3 _ _ _)
      · -- `0 < j < 7`, `i ≠ j`
        have hz : t.val ≠ 0 := by omega
        have hk3 : ¬cond1_3 (grid1.coords t) := fun h => h3 ((hcond1_3 t).mp h)
        rw [Dat.leavesExact_idle (dat1 V c) 2 t (idleAt1_2 t hk3) (noFlush1_2 t hk3)]
        rw [outsAt1_eq V c t]
        rw [prev1_pos V c t hz]
        rw [stepAt_D c t _ _ _ h0 h1 h3]
        unfold sout1_D; (try dsimp only)
        rw [PhiS1_castSucc V c t, PhiS1_pos V c _ _ hz]
        iintro ⟨⟨⟨HA, HB, HC, HD, HS0⟩, Hg⟩, Ho, ⟨%d0, H0⟩, ⟨%d1, H1⟩, ⟨%d2, H2⟩⟩
        iapply ((run1_D (F := F) c t h0 h1 h3 (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_D c t h0 h1 h3 _ _ _)
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the running maximum is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HA, HB, HC, HD, HS0⟩, Hg⟩
  isplitl [HA HB HC HD HS0]
  · isplitl [HA]; · iexact HA
    isplitl [HB]; · iexact HB
    isplitl [HC]; · iexact HC
    isplitl [HD]; · iexact HD
    iexists _; iexact HS0
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.Run.lean ====
/-
  The whole program's run at any float instance: the two kernel regions and the host lines after them as the
  segments of @main, from the launch to the return.

  Between segments a TensorCore holds every unscoped buffer whole: at launch the memory's contents; after the first
  region the unit rows in its output array; after the second the column of row maxima in its output array; after
  the host lines what those compute.  The second region reads the unit rows through TWO input windows: entering
  it, the buffer's full share is cut into its two halves, one per window, and at the exit the halves — still at the
  same contents, an input array never changes — are put together again.
-/
import proofs.«121834_j13924283973723_2_alg».proof.Proof.Region0
import proofs.«121834_j13924283973723_2_alg».proof.Proof.Region1
import proofs.«121834_j13924283973723_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch, -/
abbrev B0 : Dev nD → Valuation τ sig (Elt F) := fun c b => (s₀ m ρ).mem ((c : Dev nD), b)
/-- read at the TensorCore's references. -/
abbrev U0 : (c : Dev nD) → (b : Ref sig .tc) → Buf (Elt F) ((c : Thread nD τ).loc b) := fun c b => B0 m ρ c b

/-- After the first region: its output array at what its write-backs leave, every other buffer as launched. -/
def B1 (c : Dev nD) : Valuation τ sig (Elt F) :=
  Pipeline.withArrays spec0 c (B0 m ρ c) fun w => (dat0 (U0 m ρ) c).arrAt w cfg0.N
theorem B1_arr (c : Dev nD) (w : Fin cfg0.W) :
    B1 m ρ c (Proc.devRef .tc (Pipeline.arrRef spec0 w)) = (dat0 (U0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev U1 : (c : Dev nD) → (b : Ref sig .tc) → Buf (Elt F) ((c : Thread nD τ).loc b) := fun c b => B1 m ρ c b
theorem hF0 (c : Dev nD) (w : Fin cfg0.W) : (dat0 (U0 m ρ) c).arrAt w cfg0.N = U1 m ρ c (Pipeline.arrRef spec0 w) :=
  (B1_arr m ρ c w).symm
theorem hrest0 (c : Dev nD) : ∀ b, b ∉ Finset.univ.image (Pipeline.arrRef spec0) → U1 m ρ c b = U0 m ρ c b :=
  fun b hb => B1_of_ne m ρ c b fun w e => hb (Finset.mem_image.mpr ⟨w, Finset.mem_univ _, e⟩)

/-- The column of row maxima the second region leaves in its output array. -/
def col1 (c : Dev nD) : Buf (Elt F) ((c : Thread nD τ).loc main_v1) := (dat1 (U1 m ρ) c).arrAt 2 cfg1.N

/-- After the second region: its output array at that column, every other buffer as the first region left it. -/
def B2 (c : Dev nD) : Valuation τ sig (Elt F) := Function.update (B1 m ρ c) (Proc.devRef .tc main_v1) (col1 m ρ c)
abbrev U2 : (c : Dev nD) → (b : Ref sig .tc) → Buf (Elt F) ((c : Thread nD τ).loc b) := fun c b => B2 m ρ c b
theorem B2_main_v1 (c : Dev nD) : B2 m ρ c (Proc.devRef .tc main_v1) = col1 m ρ c := by
  unfold B2; exact Function.update_self _ _ _
theorem B2_of_ne (c : Dev nD) (b : Ref sig .tc) (hb : b ≠ main_v1) : B2 m ρ c (Proc.devRef .tc b) = B1 m ρ c (Proc.devRef .tc b) := by
  unfold B2; exact Function.update_of_ne (StableHlo.devRef_ne_of_ne hb) _ _

/-- After the host lines. -/
abbrev B3 : Dev nD → Valuation τ sig (Elt F) := fun c => StableHlo.after hostOps2 (B2 m ρ c)

/-- The argument array reaches the end as launched: no host line writes it, the second region does not stage it, the
    first reads it through an input window. -/
theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := StableHlo.after_of_writes_sub hostOps2 _ hostOps2_writes (by decide)
    _ = B1 m ρ c (Proc.devRef .tc main_arg0) := B2_of_ne m ρ c main_arg0 (by decide)
    _ = B0 m ρ c (Proc.devRef .tc main_arg0) := (B1_arr m ρ c 0).trans (((dat0 (U0 m ρ) c).arrAt_in 0 rfl _).trans (A_eq0 (U0 m ρ) c 0))
    _ = m ((c : Thread nD τ).loc main_arg0) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the core's dues. -/
abbrev Tₙ (c : Dev nD) : sProp 𝕄 := iprop(StableHlo.held (c : Thread nD τ) (Pipeline.ucRefs τ sig) (B3 m ρ c) ∗ ∃ r, prngReg c r)

/-! ## A core's unscoped buffers around the second region -/

/-- A core's unscoped buffers at contents `W`: the unit rows' buffer, the row maxima's buffer, and the buffers the
    second region does not stage. -/
theorem unscopedBufs_split1 (c : Dev nD) (W : (b : Ref sig .tc) → Buf (Elt F) ((c : Thread nD τ).loc b)) :
    (unscopedBufs (Ix := Unit) (Name := ℕ) (U := UR sig nD τ) (Lvl := ℕ) c W : sProp 𝕄)
      = iprop((((c : Thread nD τ).loc main_v0) ↦{fullShare} W main_v0) ∗ (((c : Thread nD τ).loc main_v1) ↦{fullShare} W main_v1)
          ∗ Pipeline.unscopedRest (Ix := Unit) (Name := ℕ) (U := UR sig nD τ) (Lvl := ℕ) spec1 c W) := by
  rw [Pipeline.unscopedRest_eq_of_list spec1 c W [main_arg0, main_v2, main_cst, main_v3, main_v4, main_cst_0, main_v5, main_v6, main_cst_1, main_v7, main_v8, main_v9, main_v10, main_cst_2, main_v11, main_cst_3, main_v12, main_v13] (by decide) (by decide)]
  unfold unscopedBufs
  exact Idealize.SL.BI.bigSep_eq_bigSepL_of_eq (main_v0 :: main_v1 :: [main_arg0, main_v2, main_cst, main_v3, main_v4, main_cst_0, main_v5, main_v6, main_cst_1, main_v7, main_v8, main_v9, main_v10, main_cst_2, main_v11, main_cst_3, main_v12, main_v13]) (by decide) (by decide) _

/-! ## The regions as segments -/

set_option backward.isDefEq.respectTransparency.types false in
/-- THE FIRST REGION over the thread state: entered from every unscoped buffer as launched, left with the unit rows
    in its output array. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second pipeline's arrays, window by window: the unit rows' buffer at the left half of the full share
    (window 0) and at the right half (window 1), the row maxima's buffer at the full share. -/
theorem arrays1_eq (V : (c : Dev nD) → (b : Ref sig .tc) → Buf (Elt F) ((c : Thread nD τ).loc b)) (c : Dev nD)
    (Fs : (w : Fin cfg1.W) → Buf (Elt F) ((cfg1.win w).arr.view.loc (c : Thread nD τ))) :
    ((dat1 V c).arrays Fs : sProp 𝕄)
      = iprop((((c : Thread nD τ).loc main_v0) ↦{fullShare.left} Fs 0) ∗ (((c : Thread nD τ).loc main_v0) ↦{fullShare.right} Fs 1)
          ∗ (((c : Thread nD τ).loc main_v1) ↦{fullShare} Fs 2)) := by
  unfold Pipeline.Dat.arrays
  rw [bigSep_W1, (arr_whole1 0).set_eq_univ, (arr_whole1 2).set_eq_univ]
  rfl

set_option backward.isDefEq.respectTransparency.types false in
/-- THE SECOND REGION over the thread state: entered with the unit rows in their buffer, which its two input
    windows share half and half; left with the column of row maxima in its output array. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (U1 m ρ) c).loose
  hwaits := Pipeline.hwaits_of_owed_zero _ _ _ _ L lv 1 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec1 c (U1 m ρ c)
  hentry c := by
    rw [Pipeline.ownSems0_none]
    have hsplit : (StableHlo.held (c : Thread nD τ) (Pipeline.ucRefs τ sig) (B1 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (U1 m ρ c)) := by
      rw [show pdats m ρ 1 c = dat1 (U1 m ρ) c from rfl]
      rw [← Pipeline.unscopedBufs_held (Ix := Unit) (Name := ℕ) (U := UR sig nD τ) (Lvl := ℕ) c (B1 m ρ c), unscopedBufs_split1 c (U1 m ρ c), arrays1_eq]
      iintro ⟨H0, H1, Hrest⟩
      ihave Hh := (pointsTo_share (PosShare.mem_left_op_right fullShare)).1 $$ H0
      icases Hh with ⟨Hl, Hr⟩
      isplitl [Hl Hr H1]
      · isplitl [Hl]; · iexact Hl
        isplitl [Hr]; · iexact Hr
        iexact H1
      iexact Hrest
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (U1 m ρ) c
    unfold Pipeline.ΦA at h
    rw [show (pdats m ρ 1 c).Φ 0 = (dat1 (U1 m ρ) c).Φ 0 from rfl]
    iintro ⟨Hp, -, Hr⟩
    iapply h
    isplitl [Hr]; · iexact Hr
    iexact Hp
  hout c := by
    rw [Pipeline.ownSems0_none]
    have h := hout1 (U1 m ρ) c
    unfold Pipeline.ΦA at h
    rw [show (pdats m ρ 1 c).Φ (Fin.last _) = (dat1 (U1 m ρ) c).Φ (Fin.last cfg1.N) from rfl]
    iintro H
    ihave H' := h $$ H
    icases H' with ⟨Hr, Hp⟩
    isplitl [Hp]; · iexact Hp
    isplitr; · iempintro
    iexact Hr
  hexit c := by
    have hrest : (Pipeline.unscopedRest (Ix := Unit) (Name := ℕ) (U := UR sig nD τ) (Lvl := ℕ) spec1 c (U2 m ρ c) : sProp 𝕄)
        = Pipeline.unscopedRest (Ix := Unit) (Name := ℕ) (U := UR sig nD τ) (Lvl := ℕ) spec1 c (U1 m ρ c) := by
      unfold Pipeline.unscopedRest
      exact bigSep_congr fun b hb => by
        rw [show U2 m ρ c b = U1 m ρ c b from B2_of_ne m ρ c b fun e =>
          (Finset.mem_sdiff.mp hb).2 (e ▸ Finset.mem_image.mpr ⟨(2 : Fin 3), Finset.mem_univ _, rfl⟩)]
    have hjoin : iprop((pdats m ρ 1 c).arrays ((pdats m ρ 1 c).arrAt · cfg1.N) ∗ Pipeline.unscopedRest (Ix := Unit) (Name := ℕ) (U := UR sig nD τ) (Lvl := ℕ) spec1 c (U1 m ρ c))
        ⊢ (StableHlo.held (c : Thread nD τ) (Pipeline.ucRefs τ sig) (B2 m ρ c) : sProp 𝕄) := by
      rw [show pdats m ρ 1 c = dat1 (U1 m ρ) c from rfl]
      rw [← Pipeline.unscopedBufs_held (Ix := Unit) (Name := ℕ) (U := UR sig nD τ) (Lvl := ℕ) c (B2 m ρ c), unscopedBufs_split1 c (U2 m ρ c), arrays1_eq, hrest]
      rw [show U2 m ρ c main_v0 = U1 m ρ c main_v0 from B2_of_ne m ρ c main_v0 (by decide),
        show U2 m ρ c main_v1 = col1 m ρ c from B2_main_v1 m ρ c]
      rw [(dat1 (U1 m ρ) c).arrAt_in 0 rfl cfg1.N, (dat1 (U1 m ρ) c).arrAt_in 1 rfl cfg1.N, A_eq1, A_eq1]
      unfold col1
      iintro ⟨⟨Hl, Hr, H1⟩, Hrest⟩
      isplitl [Hl Hr]
      · iapply (pointsTo_share (PosShare.mem_left_op_right fullShare)).2
        isplitl [Hl]; · iexact Hl
        iexact Hr
      isplitl [H1]; · iexact H1
      iexact Hrest
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The host lines after the regions as a segment, from the contents the second region leaves. -/
abbrev hseg2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (B2 m ρ) R

/-- @main's three segments in order. -/
abbrev segs : List (Pipeline.Seg (pcfgs (F := F)) adm (pdats m ρ) () defs₀ 𝒱₀ L lv) :=
  [ .region (reg0 m ρ), .region (reg1 m ρ), .host (hseg2 m ρ) ]

theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, with the result buffer at what the host lines compute from the column of row maxima, and the
    argument array as launched. -/
theorem run_both : θ_run defs (onTc (τ := τ) (main (F := F))) ⟨m, fun _ => 0, ρ⟩ (fun r => ∀ c : Dev nD,
      r.2.mem ((c.tc : Thread nD τ).loc main_v13) = B3 m ρ c (Proc.devRef .tc main_v13)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun c =>
        show iprop(StableHlo.held (c : Thread nD τ) (Pipeline.ucRefs τ sig) (B3 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c =>
      ⟨h c _ (mem_uc main_v13 (by decide)), (h c _ (mem_uc main_arg0 (by decide))).trans (B3_main_arg0 m ρ c)⟩)

/-- THE FRAME: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_both m ρ)

end Cert.KernelIdeal.Hand

end
-- ==== Proof.Spec.lean ====
/-
  The function both programs compute, on the extended reals.

  For an array x of 16384 rows and 1024 columns: each row is divided by its Euclidean norm clamped below by a
  small constant, giving the unit rows u; the Gram matrix u·uᵀ has its diagonal replaced by -∞; each row's
  maximum over the 16384 columns is taken; and a fixed tail of pointwise operations and one sum turns the
  vector of row maxima into one number.  The tail is the same chain of operations in both programs, so it is
  kept here as ONE function of the vector of row maxima and is never opened: the two programs are compared on
  that vector.
-/
import Idealize.ShloMosaic.PureOps.Ideal
import Idealize.ShloMosaic.Lib.ValueIdx
import Idealize.ShloMosaic.Lib.Pipeline.Value

noncomputable section

namespace Cert.KoLeo

open Idealize.ShloMosaic Idealize.ShloMosaic.ValueIdx

/-- The input's shape, a column of per-row values, the vector of per-row values, a scalar. -/
abbrev SX : Shape := ⟨2, ![16384, 1024]⟩
abbrev SC : Shape := ⟨2, ![16384, 1]⟩
abbrev SV : Shape := ⟨1, ![16384]⟩
abbrev S0 : Shape := ⟨0, ![]⟩

/-- The constant the row norm is clamped below by. -/
def clampW : EReal := Ideal.ofBits .f32 0x2B8CBCCC#32

/-- Row `r`'s norm, the square root of the sum of its squares, clamped below. -/
def rowNorm (x : SX.Idx → EReal) (r : Fin 16384) : EReal :=
  max (Ideal.sqrt (∑ k : Fin 1024, x (ix2 r k) * x (ix2 r k))) clampW

/-- Entry `(r, k)` of the unit rows: the entry over its row's clamped norm. -/
def unit (x : SX.Idx → EReal) (r : Fin 16384) (k : Fin 1024) : EReal :=
  Ideal.div (x (ix2 r k)) (rowNorm x r)

/-- The unit rows as an array. -/
def unitArr (x : SX.Idx → EReal) : SX.Idx → EReal := fun i => unit x (i 0) (i 1)

theorem unitArr_ix2 (x : SX.Idx → EReal) (r : Fin 16384) (k : Fin 1024) : unitArr x (ix2 r k) = unit x r k := rfl

/-- Entry `(r, q)` of the Gram matrix of the rows of `y`. -/
def sim (y : SX.Idx → EReal) (r q : Fin 16384) : EReal := ∑ k : Fin 1024, y (ix2 r k) * y (ix2 q k)

/-- The Gram matrix with its diagonal at -∞. -/
def masked (y : SX.Idx → EReal) (r q : Fin 16384) : EReal := if r = q then ⊥ else sim y r q

/-- Row `r`'s maximum of the masked Gram matrix over all columns. -/
def rowMax (y : SX.Idx → EReal) (r : Fin 16384) : EReal := Finset.univ.sup (masked y r)

/-- The row maxima as a column and as a vector. -/
def rowMaxCol (y : SX.Idx → EReal) : SC.Idx → EReal := fun i => rowMax y (i 0)
def rowMaxVec (y : SX.Idx → EReal) : SV.Idx → EReal := fun i => rowMax y (i 0)

theorem rowMaxCol_ix2 (y : SX.Idx → EReal) (r : Fin 16384) (u : Fin 1) : rowMaxCol y (ix2 r u) = rowMax y r := rfl
theorem rowMaxVec_ix1 (y : SX.Idx → EReal) (r : Fin 16384) : rowMaxVec y (ix1 r) = rowMax y r := rfl

/-- The tail both programs end with, as one function of the vector `v` of row maxima:
    `-( (0 + Σ_r log (sqrt (2 - 2·v r + ε))) / 16384 )`, spelt with the host operations themselves. -/
def tailOf (hb : S0.BroadcastsInDim SV (![] : Fin 0 → Fin SV.rank)) (hr : SV.ReducesTo [0] S0) (h0 : 0 < S0.numel)
    (v : FVec Ideal SV .f32) : FVec Ideal S0 .f32 :=
  Host.negf (F := Ideal) (Host.divf (F := Ideal)
    (Host.reduceAdd (F := Ideal)
      (Host.log (F := Ideal) (Host.sqrt (F := Ideal)
        (addf (F := Ideal)
          (subf (F := Ideal) (broadcastInDim SV ![] hb (constant (F := Ideal) S0 .f32 0x40000000#32))
            (mulf (F := Ideal) (broadcastInDim SV ![] hb (constant (F := Ideal) S0 .f32 0x40000000#32)) v))
          (broadcastInDim SV ![] hb (constant (F := Ideal) S0 .f32 0x322BCC77#32)))))
      (constant (F := Ideal) S0 .f32 0x00000000#32) hr h0)
    (constant (F := Ideal) S0 .f32 0x46800000#32))

/-- The whole function: the tail of the row maxima of the unit rows of `x`. -/
def result (hb : S0.BroadcastsInDim SV (![] : Fin 0 → Fin SV.rank)) (hr : SV.ReducesTo [0] S0) (h0 : 0 < S0.numel)
    (x : SX.Idx → EReal) : FVec Ideal S0 .f32 :=
  tailOf hb hr h0 (rowMaxVec (unitArr x))

end Cert.KoLeo

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.Region0Value.lean ====
/-
  Region 0's value at exact arithmetic: after the 32 points of the row-normalising pipeline the array behind the
  output window holds the unit rows of the input array — entry (r, k) is x(r, k) over the clamped norm of row r.
  The body's payload is read at an index; each point's written block is the corresponding block of the unit rows;
  the 32 blocks of 512 rows cover the 16384 rows.
-/
import proofs.«121834_j13924283973723_2_alg».proof.Proof.Region0
import proofs.«121834_j13924283973723_2_alg».proof.Proof.Spec
import proofs.«121834_j13924283973723_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.Keepdims

/-! ## The payload at an index -/

/-- The stored block at (p, k): the loaded block's entry over the clamped norm of its row p. -/
theorem pay0_apply (x0 : FVec Ideal S512x1024 .f32) (p : Fin 512) (k : Fin 1024) :
    k0_pay1 (F := Ideal) x0 (ix2 p k)
      = Ideal.div (x0 (ix2 p k)) (max (Ideal.sqrt (∑ k' : Fin 1024, x0 (ix2 p k') * x0 (ix2 p k'))) Cert.KoLeo.clampW) := by
  unfold k0_pay1
  show Ideal.div (x0 (ix2 p k)) (broadcastTo S512x1024 _ broadcasts_S512x1_S512x1024 (ix2 p k)) = _
  refine congrArg (Ideal.div (x0 (ix2 p k))) ?_
  refine (broadcastTo_a1_ab_apply _ _ p k).trans ?_
  show max (Ideal.sqrt (shapeCast S512x1 _ shapeCasts_S512_S512x1 (ix2 p (0 : Fin 1)))) (Ideal.ofBits .f32 0x2B8CBCCC#32)
    = max (Ideal.sqrt _) (Ideal.ofBits .f32 0x2B8CBCCC#32)
  refine congrArg (fun z => max (Ideal.sqrt z) (Ideal.ofBits .f32 0x2B8CBCCC#32)) ?_
  refine (shapeCast_a_a1_apply _ _ p 0).trans ?_
  refine (rowSum_apply _ _ _ _ p).trans ?_
  rfl

/-- A stored block whose row p is row r of the array `X` holds, at (p, k), the unit rows' entry (r, k). -/
theorem pay0_unit (X : Cert.KoLeo.SX.Idx → EReal) (x0 : FVec Ideal S512x1024 .f32) (p : Fin 512) (r : Fin 16384)
    (hrow : ∀ k' : Fin 1024, x0 (ix2 p k') = X (ix2 r k')) (k : Fin 1024) :
    k0_pay1 (F := Ideal) x0 (ix2 p k) = Cert.KoLeo.unit X r k := by
  rw [pay0_apply]
  unfold Cert.KoLeo.unit Cert.KoLeo.rowNorm
  simp only [hrow]

/-! ## From blocks to the array -/

variable (V : (c : Dev nD) → (b : Ref sig .tc) → Buf (Elt Ideal) ((c : Thread nD τ).loc b))

theorem hz0 : (![0, 0] : Fin 2 → Nat) = fun _ => 0 := funext fun a => by fin_cases a <;> rfl

/-- The index maps over the grid: at point t both windows' block is row block t, column block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of the unit rows of the input array as the region finds it. -/
theorem flushed0_eq (c : Dev nD) (t : Fin cfg0.N) :
    (dat0 (F := Ideal) V c).flushed 1 t
      = ((cfg0.win 1).blk t).view.read (Elt Ideal) (Cert.KoLeo.unitArr (V c main_arg0)) := by
  show (cfg0.win 1).cut (grid0.coords t) ((dat0 V c).after 1 t)
    = ((cfg0.win 1).blk t).view.read (Elt Ideal) (Cert.KoLeo.unitArr (V c main_arg0))
  rw [after0_1]
  unfold out0_1
  rw [View.canon_unit_zero hz0]
  simp only [View.ld_unit_zero (S := S512x1024) hz0]
  obtain ⟨e0, e1, e2, e3⟩ := idx_facts0 t
  have ht : t.val < 32 := lt_of_lt_of_eq t.isLt N_0
  funext j
  obtain ⟨p, k, rfl⟩ : ∃ (p : Fin 512) (k : Fin 1024), j = ix2 p k := ⟨j 0, j 1, eq_ix2 j⟩
  have hp : p.val < 512 := p.isLt
  show k0_pay1 (F := Ideal) (iblk0 V c 0 t) (ix2 p k)
    = Cert.KoLeo.unitArr (V c main_arg0) (((cfg0.win 1).blk t).view.emb (ix2 p k))
  have hemb : ((cfg0.win 1).blk t).view.emb (ix2 p k) = ix2 (⟨512 * t.val + p.val, by omega⟩ : Fin 16384) k := by
    funext a; apply Fin.ext
    match a with
    | ⟨0, _⟩ => show win0_1.index t (0 : Fin 2) * 512 + 1 * p.val = 512 * t.val + p.val; omega
    | ⟨1, _⟩ => show win0_1.index t (1 : Fin 2) * 1024 + 1 * k.val = k.val; omega
  rw [hemb, Cert.KoLeo.unitArr_ix2]
  refine pay0_unit (V c main_arg0) (iblk0 V c 0 t) p _ (fun k' => ?_) k
  show V c main_arg0 (((cfg0.win 0).blk t).view.emb (ix2 p k')) = V c main_arg0 (ix2 _ k')
  refine congrArg (V c main_arg0) ?_
  funext a; apply Fin.ext
  match a with
  | ⟨0, _⟩ => show win0_0.index t (0 : Fin 2) * 512 + 1 * p.val = 512 * t.val + p.val; omega
  | ⟨1, _⟩ => show win0_0.index t (1 : Fin 2) * 1024 + 1 * k'.val = k'.val; omega

/-- An index of the array is in point t's block iff each coordinate is in the block's range on its axis. -/
theorem mem_blk0 (t : Fin cfg0.N) (i : S16384x1024.Idx) :
    i ∈ ((cfg0.win 1).blk t).view.set ↔ ∀ a : Fin 2, win0_1.index t a * S512x1024.size a ≤ (i a).val
      ∧ (i a).val < win0_1.index t a * S512x1024.size a + S512x1024.size a := by
  show i ∈ ((View.whole main_v0).slice (win0_1.rect t)).set ↔ _
  rw [View.set_slice_whole, Rect.mem_set_unit]
  exact Iff.rfl

/-- Row r lies in the block of point r / 512: the 32 blocks cover the array. -/
theorem covered0 (i : S16384x1024.Idx) :
    ∃ t : Fin cfg0.N, (cfg0.win 1).flush t = true ∧ i ∈ ((cfg0.win 1).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨e0, e1, e2, e3⟩ := idx_facts0 t
  refine ⟨t, flush0_1 t, ?_⟩
  rw [mem_blk0]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 1024 ≤ (i 1).val ∧ (i 1).val < win0_1.index t (1 : Fin 2) * 1024 + 1024; omega

/-- After all 32 points the array behind the output window holds the unit rows of the input array. -/
theorem final0 (V : (c : Dev nD) → (b : Ref sig .tc) → Buf (Elt Ideal) ((c : Thread nD τ).loc b)) (c : Dev nD) :
    (dat0 (F := Ideal) V c).arrAt 1 cfg0.N = Cert.KoLeo.unitArr (V c main_arg0) :=
  (dat0 V c).arrAt_eq_of_cover 1 (Cert.KoLeo.unitArr (V c main_arg0)) (fun t _ => flushed0_eq V c t) covered0

end Cert.KernelIdeal.Hand

end
-- ==== Proof.Region1Pieces.lean ====
/-
  The second region, case by case: what the body leaves in the running maximum (the scratch column) and in the
  output block, as the body's own arithmetic on the point's two input blocks.

  Every store of the body writes a whole column, so the last store into a buffer is what the buffer holds.  At a
  point with j = 0 the column is first reset to the -∞ column and then folded, so the fold reads the reset column
  back; elsewhere the fold reads what the point before left.  The fold is the maximum of what it read with the row
  maxima of the tile of products, the tile's diagonal masked first where i = j.  At a point with j = 7 the output
  block receives the column as the fold left it.
-/
import proofs.«121834_j13924283973723_2_alg».proof.Proof.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer access, as the constant function. -/
theorem zero_offsets : (![0, 0] : Fin 2 → Nat) = fun _ => 0 := funext fun a => by fin_cases a <;> rfl

/-! ## The running maximum after each case -/

/-- j = 0, i = j: the reset column folded with the masked tile's row maxima. -/
theorem sout1_A_eq (c : Dev nD) (t : Fin cfg1.N) (h0 : t.val % 8 = 0) (h1 : t.val / 8 = t.val % 8) (x0 x1 : Vec F S2048x1024 .bf16) :
    sout1_A (F := F) c t h0 h1 x0 x1 = k1_pay3 x0 x1 k1_pay1 := by
  unfold sout1_A
  rw [View.read_writes_eq_canon _ _ _ (scover1_A c t h0 h1 x0 x1)]
  unfold run1_A kernelRun1_A
  dsimp only
  try sl_unfold_words
  rw [View.canon_cons_unit_zero zero_offsets, View.readCov_unit_zero (S := S2048x1) _ zero_offsets]
  simp only [View.readAt_eq_ld, (hs1_0 t).read_unread, (hs1_1 t).read_unread,
    View.ld_unit_zero (S := S2048x1024) zero_offsets]

/-- j = 0, i ≠ j: the reset column folded with the tile's row maxima. -/
theorem sout1_B_eq (c : Dev nD) (t : Fin cfg1.N) (h0 : t.val % 8 = 0) (h1 : ¬t.val / 8 = t.val % 8) (x0 x1 : Vec F S2048x1024 .bf16) :
    sout1_B (F := F) c t h0 h1 x0 x1 = k1_pay4 x0 x1 k1_pay1 := by
  unfold sout1_B
  rw [View.read_writes_eq_canon _ _ _ (scover1_B c t h0 h1 x0 x1)]
  unfold run1_B kernelRun1_B
  dsimp only
  try sl_unfold_words
  rw [View.canon_cons_unit_zero zero_offsets, View.readCov_unit_zero (S := S2048x1) _ zero_offsets]
  simp only [View.readAt_eq_ld, (hs1_0 t).read_unread, (hs1_1 t).read_unread,
    View.ld_unit_zero (S := S2048x1024) zero_offsets]

/-- 0 < j < 7, i = j: what the point before left, folded with the masked tile's row maxima. -/
theorem sout1_C_eq (c : Dev nD) (t : Fin cfg1.N) (h0 : ¬t.val % 8 = 0) (h1 : t.val / 8 = t.val % 8) (h3 : ¬t.val % 8 = 7) (x0 x1 : Vec F S2048x1024 .bf16) (xs : Vec F S2048x1 .f32) :
    sout1_C (F := F) c t h0 h1 h3 x0 x1 xs = k1_pay3 x0 x1 xs := by
  unfold sout1_C
  rw [View.read_writes_eq_canon _ _ _ (scover1_C c t h0 h1 h3 x0 x1 xs)]
  unfold run1_C kernelRun1_C
  dsimp only
  try sl_unfold_words
  rw [View.canon_unit_zero zero_offsets]
  simp only [View.readAt_eq_ld, (hs1_0 t).read_unread, (hs1_1 t).read_unread, (Memref.isWhole_whole cc1_scratch0).read_unread,
    View.ld_unit_zero (S := S2048x1024) zero_offsets, View.ld_unit_zero (S := S2048x1) zero_offsets]

/-- 0 < j < 7, i ≠ j: what the point before left, folded with the tile's row maxima. -/
theorem sout1_D_eq (c : Dev nD) (t : Fin cfg1.N) (h0 : ¬t.val % 8 = 0) (h1 : ¬t.val / 8 = t.val % 8) (h3 : ¬t.val % 8 = 7) (x0 x1 : Vec F S2048x1024 .bf16) (xs : Vec F S2048x1 .f32) :
    sout1_D (F := F) c t h0 h1 h3 x0 x1 xs = k1_pay4 x0 x1 xs := by
  unfold sout1_D
  rw [View.read_writes_eq_canon _ _ _ (scover1_D c t h0 h1 h3 x0 x1 xs)]
  unfold run1_D kernelRun1_D
  dsimp only
  try sl_unfold_words
  rw [View.canon_unit_zero zero_offsets]
  simp only [View.readAt_eq_ld, (hs1_0 t).read_unread, (hs1_1 t).read_unread, (Memref.isWhole_whole cc1_scratch0).read_unread,
    View.ld_unit_zero (S := S2048x1024) zero_offsets, View.ld_unit_zero (S := S2048x1) zero_offsets]

/-- j = 7, i = j: what the point before left, folded with the masked tile's row maxima. -/
theorem sout1_E_eq (c : Dev nD) (t : Fin cfg1.N) (h0 : ¬t.val % 8 = 0) (h1 : t.val / 8 = t.val % 8) (h3 : t.val % 8 = 7) (x0 x1 : Vec F S2048x1024 .bf16) (xs : Vec F S2048x1 .f32) :
    sout1_E (F := F) c t h0 h1 h3 x0 x1 xs = k1_pay3 x0 x1 xs := by
  unfold sout1_E
  rw [View.read_writes_eq_canon _ _ _ (scover1_E c t h0 h1 h3 x0 x1 xs)]
  unfold run1_E kernelRun1_E
  dsimp only
  try sl_unfold_words
  rw [View.canon_unit_zero zero_offsets]
  simp only [View.readAt_eq_ld, (hs1_0 t).read_unread, (hs1_1 t).read_unread, (Memref.isWhole_whole cc1_scratch0).read_unread,
    View.ld_unit_zero (S := S2048x1024) zero_offsets, View.ld_unit_zero (S := S2048x1) zero_offsets]

/-- j = 7, i ≠ j: what the point before left, folded with the tile's row maxima. -/
theorem sout1_G_eq (c : Dev nD) (t : Fin cfg1.N) (h0 : ¬t.val % 8 = 0) (h1 : ¬t.val / 8 = t.val % 8) (h3 : t.val % 8 = 7) (x0 x1 : Vec F S2048x1024 .bf16) (xs : Vec F S2048x1 .f32) :
    sout1_G (F := F) c t h0 h1 h3 x0 x1 xs = k1_pay4 x0 x1 xs := by
  unfold sout1_G
  rw [View.read_writes_eq_canon _ _ _ (scover1_G c t h0 h1 h3 x0 x1 xs)]
  unfold run1_G kernelRun1_G
  dsimp only
  try sl_unfold_words
  rw [View.canon_unit_zero zero_offsets]
  simp only [View.readAt_eq_ld, (hs1_0 t).read_unread, (hs1_1 t).read_unread, (Memref.isWhole_whole cc1_scratch0).read_unread,
    View.ld_unit_zero (S := S2048x1024) zero_offsets, View.ld_unit_zero (S := S2048x1) zero_offsets]

/-! ## The output block at j = 7 -/

/-- j = 7, i = j: the output block receives the column as the fold left it. -/
theorem out1_E_eq (c : Dev nD) (t : Fin cfg1.N) (h0 : ¬t.val % 8 = 0) (h1 : t.val / 8 = t.val % 8) (h3 : t.val % 8 = 7) (x0 x1 : Vec F S2048x1024 .bf16) (xs : Vec F S2048x1 .f32) :
    out1_E (F := F) c t h0 h1 h3 x0 x1 xs = k1_pay3 x0 x1 xs := by
  unfold out1_E
  rw [View.read_writes_eq_canon _ _ _ (cover1_E c t h0 h1 h3 x0 x1 xs)]
  unfold run1_E kernelRun1_E
  dsimp only
  try sl_unfold_words
  rw [View.canon_unit_zero zero_offsets, View.readCov_unit_zero (S := S2048x1) _ zero_offsets]
  simp only [View.readAt_eq_ld, (hs1_0 t).read_unread, (hs1_1 t).read_unread, (Memref.isWhole_whole cc1_scratch0).read_unread,
    View.ld_unit_zero (S := S2048x1024) zero_offsets, View.ld_unit_zero (S := S2048x1) zero_offsets]

/-- j = 7, i ≠ j: the output block receives the column as the fold left it. -/
theorem out1_G_eq (c : Dev nD) (t : Fin cfg1.N) (h0 : ¬t.val % 8 = 0) (h1 : ¬t.val / 8 = t.val % 8) (h3 : t.val % 8 = 7) (x0 x1 : Vec F S2048x1024 .bf16) (xs : Vec F S2048x1 .f32) :
    out1_G (F := F) c t h0 h1 h3 x0 x1 xs = k1_pay4 x0 x1 xs := by
  unfold out1_G
  rw [View.read_writes_eq_canon _ _ _ (cover1_G c t h0 h1 h3 x0 x1 xs)]
  unfold run1_G kernelRun1_G
  dsimp only
  try sl_unfold_words
  rw [View.canon_unit_zero zero_offsets, View.readCov_unit_zero (S := S2048x1) _ zero_offsets]
  simp only [View.readAt_eq_ld, (hs1_0 t).read_unread, (hs1_1 t).read_unread, (Memref.isWhole_whole cc1_scratch0).read_unread,
    View.ld_unit_zero (S := S2048x1024) zero_offsets, View.ld_unit_zero (S := S2048x1) zero_offsets]

/-! ## One point's step -/

/-- The running maximum after a point: the fold of the point's tile onto the reset column where j = 0, onto
    what the point before left elsewhere; the tile's diagonal masked where i = j. -/
theorem stepAt_snd (c : Dev nD) (t : Fin cfg1.N) (x0 x1 : Vec F S2048x1024 .bf16) (xs : Vec F S2048x1 .f32) :
    (stepAt (F := F) c t x0 x1 xs).2 =
      if t.val % 8 = 0 then (if t.val / 8 = t.val % 8 then k1_pay3 x0 x1 k1_pay1 else k1_pay4 x0 x1 k1_pay1)
      else (if t.val / 8 = t.val % 8 then k1_pay3 x0 x1 xs else k1_pay4 x0 x1 xs) := by
  by_cases h0 : t.val % 8 = 0
  · by_cases h1 : t.val / 8 = t.val % 8
    · rw [stepAt_A c t x0 x1 xs h0 h1, if_pos h0, if_pos h1]
      dsimp only
      exact sout1_A_eq c t h0 h1 x0 x1
    · rw [stepAt_B c t x0 x1 xs h0 h1, if_pos h0, if_neg h1]
      dsimp only
      exact sout1_B_eq c t h0 h1 x0 x1
  · by_cases h1 : t.val / 8 = t.val % 8
    · by_cases h3 : t.val % 8 = 7
      · rw [stepAt_E c t x0 x1 xs h0 h1 h3, if_neg h0, if_pos h1]
        dsimp only
        exact sout1_E_eq c t h0 h1 h3 x0 x1 xs
      · rw [stepAt_C c t x0 x1 xs h0 h1 h3, if_neg h0, if_pos h1]
        dsimp only
        exact sout1_C_eq c t h0 h1 h3 x0 x1 xs
    · by_cases h3 : t.val % 8 = 7
      · rw [stepAt_G c t x0 x1 xs h0 h1 h3, if_neg h0, if_neg h1]
        dsimp only
        exact sout1_G_eq c t h0 h1 h3 x0 x1 xs
      · rw [stepAt_D c t x0 x1 xs h0 h1 h3, if_neg h0, if_neg h1]
        dsimp only
        exact sout1_D_eq c t h0 h1 h3 x0 x1 xs

/-- At a point with j = 7 the output block is the running maximum after the point. -/
theorem stepAt_fst (c : Dev nD) (t : Fin cfg1.N) (x0 x1 : Vec F S2048x1024 .bf16) (xs : Vec F S2048x1 .f32) (h3 : t.val % 8 = 7) :
    (stepAt (F := F) c t x0 x1 xs).1 = (stepAt (F := F) c t x0 x1 xs).2 := by
  have h0 : ¬t.val % 8 = 0 := by omega
  by_cases h1 : t.val / 8 = t.val % 8
  · rw [stepAt_E c t x0 x1 xs h0 h1 h3]
    dsimp only
    exact (out1_E_eq c t h0 h1 h3 x0 x1 xs).trans (sout1_E_eq c t h0 h1 h3 x0 x1 xs).symm
  · rw [stepAt_G c t x0 x1 xs h0 h1 h3]
    dsimp only
    exact (out1_G_eq c t h0 h1 h3 x0 x1 xs).trans (sout1_G_eq c t h0 h1 h3 x0 x1 xs).symm

end Cert.KernelIdeal.Hand

end
-- ==== Proof.LibGramDot.lean ====
/-
  A matrix product with the RIGHT factor transposed, read at an entry. For the dimension numbers of `M×K` by `N×K`
  contracting the two last axes (`DotDims.transposedRhs M K N`: what `A · Bᵀ` prints as when the matrix unit consumes the
  transposed operand natively), the sum over the one-axis contraction index of any function of the two operand indices is the
  sum over `k : Fin K` of that function at `(p, k)` and `(c, k)` (`sum_transposedRhs`). Hence, on the extended reals, a
  `tpu.matmul` into the zero accumulator read at `(p, c)` is `∑ k, A (p, k) * B (c, k)` (`matmul_transposedRhs_zero_apply`),
  for every `M`, `K`, `N`; with `B = A` it is the Gram matrix of the rows of `A`.
-/
import Idealize.ShloMosaic.PureOps.Ideal.Laws
import Idealize.ShloMosaic.Lib.ValueIdx

noncomputable section

open scoped BigOperators

namespace Cert.Lib.GramDot

open Idealize.ShloMosaic Idealize.ShloMosaic.ValueIdx

variable {M K N : Nat}

/-- The left operand's index at output `(p, c)` and contraction coordinate `k` is `(p, k)`. -/
theorem lhsIdx_transposedRhs (p : Fin M) (c : Fin N) (k : Fin K) :
    (DotDims.transposedRhs M K N).lhsIdx (ix2 p c) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl (ix2 p c) _).trans hk

/-- The right operand's index at output `(p, c)` and contraction coordinate `k` is `(c, k)`. -/
theorem rhsIdx_transposedRhs (p : Fin M) (c : Fin N) (k : Fin K) :
    (DotDims.transposedRhs M K N).rhsIdx (ix2 p c) ((contrEquiv1 (DotDims.transposedRhs M K N) K rfl rfl).symm k) = ix2 c k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl (ix2 p c) _).trans hk

/-- A sum over the contraction index, of any function of the two operand indices, is the sum over the shared axis. -/
theorem sum_transposedRhs {β : Type*} [AddCommMonoid β]
    (f : (⟨2, ![M, K]⟩ : Shape).Idx → (⟨2, ![N, K]⟩ : Shape).Idx → β) (p : Fin M) (c : Fin N) :
    ∑ q : (DotDims.transposedRhs M K N).contr.Idx,
        f ((DotDims.transposedRhs M K N).lhsIdx (ix2 p c) q) ((DotDims.transposedRhs M K N).rhsIdx (ix2 p c) q)
      = ∑ k : Fin K, f (ix2 p k) (ix2 c k) := by
  rw [← Equiv.sum_comp (contrEquiv1 (DotDims.transposedRhs M K N) K rfl rfl).symm]
  refine Finset.sum_congr rfl fun k _ => ?_
  rw [lhsIdx_transposedRhs, rhsIdx_transposedRhs]

/-- On the extended reals a `tpu.matmul` of `A : M×K` and `B : N×K` contracting the last axes, into the zero accumulator,
    read at `(p, c)`, is `∑ k, A (p, k) * B (c, k)`. -/
theorem matmul_transposedRhs_zero_apply {φ₁ φ₂ : FTy} (prec : Option ContractPrecision)
    (A : FVec Ideal ⟨2, ![M, K]⟩ φ₁) (B : FVec Ideal ⟨2, ![N, K]⟩ φ₂) (p : Fin M) (c : Fin N) :
    FloatOps.matmul (DotDims.transposedRhs M K N) prec A B (constant ⟨2, ![M, N]⟩ .f32 0x00000000#32) (ix2 p c)
      = ∑ k : Fin K, A (ix2 p k) * B (ix2 c k) :=
  (Ideal.matmul_constant_zero_apply (DotDims.transposedRhs M K N) prec A B (ix2 p c)).trans
    (sum_transposedRhs (fun i j => A i * B j) p c)

end Cert.Lib.GramDot

end
-- ==== Proof.Region1Payload.lean ====
/-
  The second region's kernel body, as arithmetic on the extended reals, read at an index.

  The body holds two blocks of 2048 unit rows, A and B, and a column s of 2048 running maxima. Its tile is the
  2048 × 2048 matrix of inner products T(p, q) = Σ_k A(p, k) · B(q, k): the matrix unit contracts the two last
  axes into a zero accumulator, so no accumulator term is left. The column it stores is, at row p, either -∞
  (the first visit), or max (s p) (max_q T(p, q)) (an off-diagonal tile), or the same with the diagonal entries
  T(p, p) replaced by -∞ before the row maximum is taken (a diagonal tile). A row maximum from the accumulator
  -∞ is a supremum over the 2048 lanes; the diagonal is found by comparing two lane counters, which are equal
  as 32-bit words exactly when the two coordinates are equal, both being below 2048.
-/
import proofs.«121834_j13924283973723_2_alg».proof.Proof.Gen.KernelIdeal.Skeleton
import proofs.«121834_j13924283973723_2_alg».proof.Proof.Spec
import proofs.«121834_j13924283973723_2_alg».proof.Proof.LibKeepdims
import proofs.«121834_j13924283973723_2_alg».proof.Proof.LibGramDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

/-! ## Small facts -/

/-- The word 0xFF800000 is -∞. -/
theorem ofBits_negInf : Ideal.ofBits .f32 0xFF800000#32 = (⊥ : EReal) := by simp [Ideal.ofBits, Ideal.ieee]

/-- A fold of `max` from -∞ over a finite set is the supremum over it. -/
theorem fold_max_bot_eq_sup {ι : Type*} (t : Finset ι) (f : ι → EReal) : t.fold max (⊥ : EReal) f = t.sup f := by
  classical
  induction t using Finset.induction_on with
  | empty => simp
  | insert a t ha ih => rw [Finset.fold_insert ha, Finset.sup_insert, ih]

/-- Over the 2048 lanes, the fold of `max` from the value of the word 0xFF800000 is the supremum. -/
theorem fold_max_negInf_word (f : Fin 2048 → EReal) :
    (Finset.univ : Finset (Fin 2048)).fold max (Ideal.ofBits .f32 0xFF800000#32) f = (Finset.univ : Finset (Fin 2048)).sup f := by
  rw [ofBits_negInf]; exact fold_max_bot_eq_sup _ _

/-- Two coordinates below 2048 give the same 32-bit word exactly when they are equal: the comparison of the two
    words selects its first operand on the diagonal and its second off it. -/
theorem select_word_eq (p q : Fin 2048) (a b : EReal) :
    Scalar.select (IntOp.cmpi .eq (BitVec.ofNat 32 p.val) (BitVec.ofNat 32 q.val)) a b = if p = q then a else b := by
  by_cases h : p = q
  · subst h
    rw [if_pos rfl]
    have e : IntOp.cmpi .eq (BitVec.ofNat 32 p.val) (BitVec.ofNat 32 p.val) = 1#1 := by simp [IntOp.cmpi]
    rw [e]; exact select_one a b
  · rw [if_neg h]
    have hne : BitVec.ofNat 32 p.val ≠ BitVec.ofNat 32 q.val := by
      intro e
      have e' := congrArg BitVec.toNat e
      simp only [BitVec.toNat_ofNat] at e'
      exact h (Fin.ext (by omega))
    have hb : (BitVec.ofNat 32 p.val == BitVec.ofNat 32 q.val) = false := beq_eq_false_iff_ne.mpr hne
    have e : IntOp.cmpi .eq (BitVec.ofNat 32 p.val) (BitVec.ofNat 32 q.val) = 0#1 := by
      show BitVec.ofBool (BitVec.ofNat 32 p.val == BitVec.ofNat 32 q.val) = 0#1
      rw [hb]; rfl
    rw [e]; exact select_zero a b

/-- The generated dimension numbers are those of a product with the right factor transposed. -/
theorem dot_eq_transposedRhs :
    dot_S2048x1024_S2048x1024_S2048x2048_1_1_0_0_n_n = DotDims.transposedRhs 2048 1024 2048 := rfl

/-! ## The first visit's column: -∞ -/

theorem pay1_apply (p : Fin 2048) (u : Fin 1) : k1_pay1 (F := Ideal) (ix2 p u) = (⊥ : EReal) := by
  unfold k1_pay1
  refine (congrFun (shapeCast_self _ _) _).trans ?_
  exact ofBits_negInf

/-! ## The tile: inner products of rows -/

/-- The product of two blocks, each first cast to its own shape, contracting the two last axes into the zero
    accumulator: at (p, q) the inner product of row p of the first with row q of the second. -/
theorem tile_apply (h : S2048x1024.ShapeCasts S2048x1024) (x0 x1 : FVec Ideal S2048x1024 .bf16) (p q : Fin 2048) :
    matmul dot_S2048x1024_S2048x1024_S2048x2048_1_1_0_0_n_n none (shapeCast S2048x1024 x0 h) (shapeCast S2048x1024 x1 h)
        (constant (F := Ideal) S2048x2048 .f32 0x00000000#32) (ix2 p q)
      = ∑ k : Fin 1024, x0 (ix2 p k) * x1 (ix2 q k) := by
  rw [shapeCast_self, shapeCast_self, dot_eq_transposedRhs]
  exact Cert.Lib.GramDot.matmul_transposedRhs_zero_apply none x0 x1 p q

theorem pay2_apply (x0 x1 : FVec Ideal S2048x1024 .bf16) (p q : Fin 2048) :
    k1_pay2 (F := Ideal) x0 x1 (ix2 p q) = ∑ k : Fin 1024, x0 (ix2 p k) * x1 (ix2 q k) := by
  unfold k1_pay2
  exact tile_apply _ x0 x1 p q

/-! ## The row maximum of a tile, and the stored column -/

/-- A row maximum of a 2048 × 2048 tile from the accumulator -∞: at row p, the supremum of that row's entries. -/
theorem rowMax_apply (t : FVec Ideal S2048x2048 .f32) (h : S2048x2048.Reduces [1] S2048) (hφ : FKind.Formats .f32)
    (hacc : (0xFF800000#32 : BitVec 32) = 0xFF800000#32) (p : Fin 2048) :
    multiReduction .maximumf [1] S2048 t 0xFF800000#32 h hφ hacc (ix1 p)
      = (Finset.univ : Finset (Fin 2048)).sup fun q => t (ix2 p q) := by
  refine (Ideal.multiReduction_maximumf_single t 0xFF800000#32 h hφ hacc (ix1 p)).trans ?_
  refine (fold_max_negInf_word (t ∘ h.lift (ix1 p))).trans ?_
  exact congrArg (Finset.univ : Finset (Fin 2048)).sup (funext fun k => congrArg t (Cert.Lib.Keepdims.lift_lastAxis h p k))

/-- The row maxima of a tile, cast to a column, joined with the running column by `max`, and cast to the column's
    own shape: at (p, u), the larger of the running value and the supremum of row p. -/
theorem colMax_apply (t : FVec Ideal S2048x2048 .f32) (s : FVec Ideal S2048x1 .f32) (h : S2048x2048.Reduces [1] S2048)
    (hφ : FKind.Formats .f32) (hacc : (0xFF800000#32 : BitVec 32) = 0xFF800000#32) (hc : S2048.ShapeCasts S2048x1)
    (hs : S2048x1.ShapeCasts S2048x1) (p : Fin 2048) (u : Fin 1) :
    shapeCast S2048x1 (maximumf s (shapeCast S2048x1 (multiReduction .maximumf [1] S2048 t 0xFF800000#32 h hφ hacc) hc)) hs (ix2 p u)
      = max (s (ix2 p u)) ((Finset.univ : Finset (Fin 2048)).sup fun q => t (ix2 p q)) := by
  rw [shapeCast_self, maximumf_apply, Cert.Lib.Keepdims.shapeCast_a_a1_apply, rowMax_apply]

/-! ## The diagonal mask -/

/-- A tile whose entries are replaced by -∞ where the counter along the rows equals the counter along the lanes: at
    (p, q), -∞ when p = q and the tile's entry otherwise. -/
theorem maskedTile_apply (h0 : S2048x2048.Iotas .tc 32 [0]) (h1 : S2048x2048.Iotas .tc 32 [1]) (t : FVec Ideal S2048x2048 .f32)
    (p q : Fin 2048) :
    select (cmpi .eq (iota .tc S2048x2048 32 [0] h0) (iota .tc S2048x2048 32 [1] h1))
        (broadcast S2048x2048 (Scalar.ofBits (F := Ideal) .f32 0xFF800000#32)) t (ix2 p q)
      = if p = q then (⊥ : EReal) else t (ix2 p q) := by
  rw [select_apply, broadcast_apply]
  show Scalar.select (IntOp.cmpi .eq (iota .tc S2048x2048 32 [0] h0 (ix2 p q)) (iota .tc S2048x2048 32 [1] h1 (ix2 p q)))
      (Ideal.ofBits .f32 0xFF800000#32) (t (ix2 p q)) = _
  rw [iota_single_apply, iota_single_apply, ofBits_negInf]
  exact select_word_eq p q ⊥ (t (ix2 p q))

/-! ## The two stored columns -/

/-- An off-diagonal tile: the running column joined with the row suprema of the inner products. -/
theorem pay4_apply (x0 x1 : FVec Ideal S2048x1024 .bf16) (s : FVec Ideal S2048x1 .f32) (p : Fin 2048) (u : Fin 1) :
    k1_pay4 (F := Ideal) x0 x1 s (ix2 p u)
      = max (s (ix2 p u)) ((Finset.univ : Finset (Fin 2048)).sup fun q => ∑ k : Fin 1024, x0 (ix2 p k) * x1 (ix2 q k)) := by
  unfold k1_pay4
  refine (colMax_apply (k1_pay2 (F := Ideal) x0 x1) s _ _ _ _ _ p u).trans ?_
  exact congrArg (fun f => max (s (ix2 p u)) ((Finset.univ : Finset (Fin 2048)).sup f)) (funext fun q => pay2_apply x0 x1 p q)

/-- A diagonal tile: the same with the entries on the diagonal at -∞ before the row supremum is taken. -/
theorem pay3_apply (x0 x1 : FVec Ideal S2048x1024 .bf16) (s : FVec Ideal S2048x1 .f32) (p : Fin 2048) (u : Fin 1) :
    k1_pay3 (F := Ideal) x0 x1 s (ix2 p u)
      = max (s (ix2 p u)) ((Finset.univ : Finset (Fin 2048)).sup fun q =>
          if p = q then (⊥ : EReal) else ∑ k : Fin 1024, x0 (ix2 p k) * x1 (ix2 q k)) := by
  unfold k1_pay3
  refine (colMax_apply _ s _ _ _ _ _ p u).trans ?_
  refine congrArg (fun f => max (s (ix2 p u)) ((Finset.univ : Finset (Fin 2048)).sup f)) (funext fun q => ?_)
  refine (maskedTile_apply _ _ (k1_pay2 (F := Ideal) x0 x1) p q).trans ?_
  exact congrArg (fun v => if p = q then (⊥ : EReal) else v) (pay2_apply x0 x1 p q)

end Cert.KernelIdeal.Hand

end
-- ==== Proof.Region1Cover.lean ====
/-
  From the second region's blocks to its output array, at exact arithmetic.

  The output window is the column of 16384 row maxima in eight blocks of 2048 rows; the grid is 8 × 8 and point
  t = 8·i + j works on row block i, which it writes back only at j = 7. So the array after the region is decided
  by the eight points with t % 8 = 7: if at each of them the block the body leaves is rows 2048·(t / 8) … of one
  column G, then the array ends holding G. Element (p, u) of the block of point t sits at array row
  2048·(t / 8) + p, and row r of the array is covered by the writing point 8·(r / 2048) + 7.
-/
import proofs.«121834_j13924283973723_2_alg».proof.Proof.Region1
import proofs.«121834_j13924283973723_2_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The output window's index map over the grid: at point t its block is row block t / 8, column block 0. -/
theorem idx_facts1_2 : ∀ t : Fin cfg1.N, win1_2.index t (0 : Fin 2) = t.val / 8 ∧ win1_2.index t (1 : Fin 2) = 0 :=
  (by decide +kernel : ∀ t : Fin grid1.N, _)

/-- Element (p, u) of point t's output block sits at array row 2048·(t / 8) + p. -/
theorem emb_blk1_2 (t : Fin cfg1.N) (p : Fin 2048) (u : Fin 1) :
    ((cfg1.win 2).blk t).view.emb (ix2 p u)
      = ix2 (⟨2048 * (t.val / 8) + p.val, by have := t.isLt; have : cfg1.N = 64 := N_1; omega⟩ : Fin 16384) u := by
  obtain ⟨e0, e1⟩ := idx_facts1_2 t
  funext a; apply Fin.ext
  match a with
  | ⟨0, _⟩ => show win1_2.index t (0 : Fin 2) * 2048 + 1 * p.val = 2048 * (t.val / 8) + p.val; omega
  | ⟨1, _⟩ => show win1_2.index t (1 : Fin 2) * 1 + 1 * u.val = u.val; omega

/-- If the block the body leaves at point t is rows 2048·(t / 8) … of the column G, then what point t writes back is
    its block of G. -/
theorem flushed1_eq (c : Dev nD) (G : Cert.KoLeo.SC.Idx → EReal) (t : Fin cfg1.N)
    (hpt : ∀ (p : Fin 2048) (u : Fin 1),
      (dat1 (F := Ideal) V c).after 2 t (ix2 p u)
        = G (ix2 ⟨2048 * (t.val / 8) + p.val, by have := t.isLt; have : cfg1.N = 64 := N_1; omega⟩ u)) :
    (dat1 (F := Ideal) V c).flushed 2 t = ((cfg1.win 2).blk t).view.read (Elt Ideal) G := by
  show (cfg1.win 2).cut (grid1.coords t) ((dat1 V c).after 2 t) = ((cfg1.win 2).blk t).view.read (Elt Ideal) G
  funext j
  obtain ⟨p, u, rfl⟩ : ∃ (p : Fin 2048) (u : Fin 1), j = ix2 p u := ⟨j 0, j 1, eq_ix2 j⟩
  show (dat1 V c).after 2 t (ix2 p u) = G (((cfg1.win 2).blk t).view.emb (ix2 p u))
  rw [emb_blk1_2]
  exact hpt p u

/-- An index of the array is in point t's block iff each coordinate is in the block's range on its axis. -/
theorem mem_blk1 (t : Fin cfg1.N) (i : S16384x1.Idx) :
    i ∈ ((cfg1.win 2).blk t).view.set ↔ ∀ a : Fin 2, win1_2.index t a * S2048x1.size a ≤ (i a).val
      ∧ (i a).val < win1_2.index t a * S2048x1.size a + S2048x1.size a := by
  show i ∈ ((View.whole main_v1).slice (win1_2.rect t)).set ↔ _
  rw [View.set_slice_whole, Rect.mem_set_unit]
  exact Iff.rfl

/-- Row r lies in the block written back at point 8·(r / 2048) + 7: the eight written blocks cover the array. -/
theorem covered1 (i : S16384x1.Idx) :
    ∃ t : Fin cfg1.N, (cfg1.win 2).flush t = true ∧ i ∈ ((cfg1.win 2).blk t).view.set := by
  have hi0 : (i 0).val < 16384 := (i 0).isLt
  have hi1 : (i 1).val < 1 := (i 1).isLt
  have hN : cfg1.N = 64 := N_1
  obtain ⟨t, ht⟩ : ∃ t : Fin cfg1.N, t.val = 8 * ((i 0).val / 2048) + 7 := ⟨⟨8 * ((i 0).val / 2048) + 7, by rw [hN]; omega⟩, rfl⟩
  obtain ⟨e0, e1⟩ := idx_facts1_2 t
  refine ⟨t, (flush1_2 t).mpr (by omega), ?_⟩
  rw [mem_blk1]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 1 ≤ (i 1).val ∧ (i 1).val < win1_2.index t (1 : Fin 2) * 1 + 1; omega

/-- After all 64 points the array behind the output window holds G, as soon as at every writing point the block the body
    leaves is that point's rows of G. -/
theorem final1_of (V : (c : Dev nD) → (b : Ref sig .tc) → Buf (Elt Ideal) ((c : Thread nD τ).loc b)) (c : Dev nD)
    (G : Cert.KoLeo.SC.Idx → EReal)
    (hpoint : ∀ (t : Fin cfg1.N), t.val % 8 = 7 → ∀ (p : Fin 2048) (u : Fin 1),
        (dat1 (F := Ideal) V c).after 2 t (ix2 p u) = G (ix2 ⟨2048 * (t.val / 8) + p.val, by have := t.isLt; have : cfg1.N = 64 := N_1; omega⟩ u)) :
    (dat1 (F := Ideal) V c).arrAt 2 cfg1.N = G :=
  (dat1 V c).arrAt_eq_of_cover 2 G (fun t hf => flushed1_eq V c G t (hpoint t ((flush1_2 t).mp hf))) covered1

end Cert.KernelIdeal.Hand

end
-- ==== Proof.TileMax.lean ====
/-
  A row's maximum taken tile by tile.

  The 16384 columns are the disjoint union of eight runs of 2048 consecutive columns.  The supremum over all
  columns is the supremum, over the eight runs, of the supremum over each run: every column lies in a run
  (column q is number q mod 2048 of run q div 2048), and every member of a run is a column.  Nothing about the
  entries is used.
-/
import proofs.«121834_j13924283973723_2_alg».proof.Proof.Spec

noncomputable section

namespace Cert.KoLeo

open Idealize.ShloMosaic Idealize.ShloMosaic.ValueIdx

/-- Row `r`'s maximum of the masked Gram matrix, taken over each run of 2048 columns and then over the eight
    runs, is its maximum over all 16384 columns. -/
theorem rowMax_tiles (y : SX.Idx → EReal) (r : Fin 16384) :
    (Finset.univ : Finset (Fin 8)).sup (fun j => (Finset.univ : Finset (Fin 2048)).sup
        (fun q' => masked y r ⟨2048 * j.val + q'.val, by omega⟩)) = rowMax y r := by
  unfold rowMax
  apply le_antisymm
  · exact Finset.sup_le fun j _ => Finset.sup_le fun q' _ =>
      Finset.le_sup (f := masked y r) (Finset.mem_univ _)
  · refine Finset.sup_le fun q _ => ?_
    have hj : q.val / 2048 < 8 := by omega
    have hq : q.val % 2048 < 2048 := by omega
    have e : q = ⟨2048 * (⟨q.val / 2048, hj⟩ : Fin 8).val + (⟨q.val % 2048, hq⟩ : Fin 2048).val, by omega⟩ :=
      Fin.ext (by show q.val = 2048 * (q.val / 2048) + q.val % 2048; omega)
    calc masked y r q
        = masked y r ⟨2048 * (⟨q.val / 2048, hj⟩ : Fin 8).val + (⟨q.val % 2048, hq⟩ : Fin 2048).val, by omega⟩ :=
          congrArg (masked y r) e
      _ ≤ (Finset.univ : Finset (Fin 2048)).sup
            (fun q' => masked y r ⟨2048 * (⟨q.val / 2048, hj⟩ : Fin 8).val + q'.val, by omega⟩) :=
          Finset.le_sup (f := fun q' : Fin 2048 =>
            masked y r ⟨2048 * (⟨q.val / 2048, hj⟩ : Fin 8).val + q'.val, by omega⟩) (Finset.mem_univ (⟨q.val % 2048, hq⟩ : Fin 2048))
      _ ≤ _ :=
          Finset.le_sup (f := fun j : Fin 8 => (Finset.univ : Finset (Fin 2048)).sup
            (fun q' => masked y r ⟨2048 * j.val + q'.val, by omega⟩)) (Finset.mem_univ (⟨q.val / 2048, hj⟩ : Fin 8))

end Cert.KoLeo

end
-- ==== Proof.Region1Value.lean ====
/-
  Region 1's value at exact arithmetic: after the 64 points of the Gram-tile pipeline the column behind the output
  window holds, at row r, the maximum over all 16384 columns of the masked Gram matrix of the array the two input
  windows read.

  Point t works on row block i = t / 8 and column block j = t % 8.  The running maximum after point t holds, at row
  p of the block, the supremum of the masked Gram row 2048·i + p over the column runs 0 … j: the run j is added by
  the point's tile, whose local diagonal is the global diagonal exactly when i = j.  At j = 7 all eight runs are in,
  the running maximum is the row's maximum and is copied to the output block, which is written back to block i of
  the column; the eight write-backs cover the column.
-/
import proofs.«121834_j13924283973723_2_alg».proof.Proof.Region1
import proofs.«121834_j13924283973723_2_alg».proof.Proof.Region1Pieces
import proofs.«121834_j13924283973723_2_alg».proof.Proof.Region1Payload
import proofs.«121834_j13924283973723_2_alg».proof.Proof.Region1Cover
import proofs.«121834_j13924283973723_2_alg».proof.Proof.TileMax
import proofs.«121834_j13924283973723_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.KoLeo (SX masked sim rowMax rowMaxCol)

/-! ## Runs of 2048 columns -/

/-- Row (or column) number p of the b-th run of 2048. -/
def blockRow (b : ℕ) (p : Fin 2048) : Fin 16384 := ⟨(2048 * b + p.val) % 16384, Nat.mod_lt _ (by decide)⟩

theorem blockRow_val (b : ℕ) (hb : b < 8) (p : Fin 2048) : (blockRow b p).val = 2048 * b + p.val := by
  have hp := p.isLt
  show (2048 * b + p.val) % 16384 = 2048 * b + p.val
  omega

/-- The supremum of row r of the masked Gram matrix over the j-th run of 2048 columns. -/
def tileSup (y : SX.Idx → EReal) (r : Fin 16384) (j : ℕ) : EReal :=
  (Finset.univ : Finset (Fin 2048)).sup fun q => masked y r (blockRow j q)

theorem tileSup_fin (y : SX.Idx → EReal) (r : Fin 16384) (j : Fin 8) :
    tileSup y r j.val = (Finset.univ : Finset (Fin 2048)).sup fun q' => masked y r ⟨2048 * j.val + q'.val, by omega⟩ := by
  unfold tileSup
  exact congrArg (Finset.univ : Finset (Fin 2048)).sup
    (funext fun q => congrArg (masked y r) (Fin.ext (blockRow_val j.val j.isLt q)))

/-- The eight runs exhaust the columns: the supremum of the eight run suprema is the row's maximum. -/
theorem tileSup_all (y : SX.Idx → EReal) (r : Fin 16384) : (Finset.range 8).sup (tileSup y r) = rowMax y r := by
  have e : (Finset.univ : Finset (Fin 8)).sup (fun j => tileSup y r j.val) = rowMax y r := by
    rw [← Cert.KoLeo.rowMax_tiles y r]
    exact congrArg (Finset.univ : Finset (Fin 8)).sup (funext fun j => tileSup_fin y r j)
  rw [← e]
  apply le_antisymm
  · exact Finset.sup_le fun j hj =>
      Finset.le_sup (f := fun j : Fin 8 => tileSup y r j.val) (Finset.mem_univ (⟨j, Finset.mem_range.mp hj⟩ : Fin 8))
  · exact Finset.sup_le fun j _ => Finset.le_sup (f := tileSup y r) (Finset.mem_range.mpr j.isLt)

theorem sup_range_zero_add_one (f : ℕ → EReal) : (Finset.range (0 + 1)).sup f = f 0 := by
  rw [Nat.zero_add, Finset.range_one, Finset.sup_singleton]

theorem sup_range_succ_succ (f : ℕ → EReal) (k : ℕ) :
    (Finset.range (k + 1 + 1)).sup f = max ((Finset.range (k + 1)).sup f) (f (k + 1)) := by
  rw [Finset.range_add_one (n := k + 1), Finset.sup_insert]
  exact max_comm _ _

/-! ## One tile -/

/-- The row supremum the body forms from a tile — with the local diagonal at -∞ when the row block is the column
    block, as it stands otherwise — is the masked Gram row's supremum over the column run, when the first block
    holds rows of run i and the second rows of run j of `y`. -/
theorem tile_sup_masked (y : SX.Idx → EReal) (x0 x1 : FVec Ideal S2048x1024 .bf16) (i j : ℕ) (hi : i < 8) (hj : j < 8)
    (p : Fin 2048) (h0 : ∀ k : Fin 1024, x0 (ix2 p k) = y (ix2 (blockRow i p) k))
    (h1 : ∀ (q : Fin 2048) (k : Fin 1024), x1 (ix2 q k) = y (ix2 (blockRow j q) k)) :
    (if i = j then (Finset.univ : Finset (Fin 2048)).sup (fun q => if p = q then (⊥ : EReal) else ∑ k : Fin 1024, x0 (ix2 p k) * x1 (ix2 q k))
      else (Finset.univ : Finset (Fin 2048)).sup (fun q => ∑ k : Fin 1024, x0 (ix2 p k) * x1 (ix2 q k)))
      = tileSup y (blockRow i p) j := by
  have hs : ∀ q : Fin 2048, (∑ k : Fin 1024, x0 (ix2 p k) * x1 (ix2 q k)) = sim y (blockRow i p) (blockRow j q) := fun q => by
    unfold Cert.KoLeo.sim
    exact Finset.sum_congr rfl fun k _ => by rw [h0 k, h1 q k]
  have hp := p.isLt
  unfold tileSup
  by_cases hij : i = j
  · subst hij
    rw [if_pos rfl]
    refine congrArg (Finset.univ : Finset (Fin 2048)).sup (funext fun q => ?_)
    have hq := q.isLt
    unfold Cert.KoLeo.masked
    rw [hs q]
    by_cases hpq : p = q
    · subst hpq; rw [if_pos rfl, if_pos rfl]
    · rw [if_neg hpq, if_neg]
      intro h
      have hv := congrArg Fin.val h
      rw [blockRow_val i hi, blockRow_val i hi] at hv
      exact hpq (Fin.ext (by omega))
  · rw [if_neg hij]
    refine congrArg (Finset.univ : Finset (Fin 2048)).sup (funext fun q => ?_)
    have hq := q.isLt
    unfold Cert.KoLeo.masked
    rw [hs q, if_neg]
    intro h
    have hv := congrArg Fin.val h
    rw [blockRow_val i hi, blockRow_val j hj] at hv
    omega

/-- The column a point stores into the running maximum, at row p: the larger of what it held and the masked Gram
    row's supremum over the point's column run. -/
theorem pay34_apply (y : SX.Idx → EReal) (x0 x1 : FVec Ideal S2048x1024 .bf16) (s : FVec Ideal S2048x1 .f32) (i j : ℕ)
    (hi : i < 8) (hj : j < 8) (p : Fin 2048) (u : Fin 1)
    (h0 : ∀ k : Fin 1024, x0 (ix2 p k) = y (ix2 (blockRow i p) k))
    (h1 : ∀ (q : Fin 2048) (k : Fin 1024), x1 (ix2 q k) = y (ix2 (blockRow j q) k)) :
    (if i = j then k1_pay3 (F := Ideal) x0 x1 s else k1_pay4 (F := Ideal) x0 x1 s) (ix2 p u)
      = max (s (ix2 p u)) (tileSup y (blockRow i p) j) := by
  rw [← tile_sup_masked y x0 x1 i j hi hj p h0 h1]
  by_cases hij : i = j
  · rw [if_pos hij, if_pos hij]; exact pay3_apply x0 x1 s p u
  · rw [if_neg hij, if_neg hij]; exact pay4_apply x0 x1 s p u

/-- One point's step on the running maximum, at row p, for blocks that hold rows of runs t / 8 and t % 8 of `y`. -/
theorem step_snd_apply (c : Dev nD) (t : Fin cfg1.N) (y : SX.Idx → EReal) (x0 x1 : FVec Ideal S2048x1024 .bf16)
    (xs : FVec Ideal S2048x1 .f32)
    (h0 : ∀ (p : Fin 2048) (k : Fin 1024), x0 (ix2 p k) = y (ix2 (blockRow (t.val / 8) p) k))
    (h1 : ∀ (q : Fin 2048) (k : Fin 1024), x1 (ix2 q k) = y (ix2 (blockRow (t.val % 8) q) k)) (p : Fin 2048) (u : Fin 1) :
    (stepAt (F := Ideal) c t x0 x1 xs).2 (ix2 p u)
      = if t.val % 8 = 0 then tileSup y (blockRow (t.val / 8) p) (t.val % 8)
        else max (xs (ix2 p u)) (tileSup y (blockRow (t.val / 8) p) (t.val % 8)) := by
  have ht : t.val < 64 := lt_of_lt_of_eq t.isLt N_1
  rw [stepAt_snd]
  by_cases hz : t.val % 8 = 0
  · rw [if_pos hz, if_pos hz]
    refine (pay34_apply y x0 x1 (k1_pay1 (F := Ideal)) (t.val / 8) (t.val % 8) (by omega) (by omega) p u (h0 p) h1).trans ?_
    rw [pay1_apply]
    exact max_eq_right bot_le
  · rw [if_neg hz, if_neg hz]
    exact pay34_apply y x0 x1 xs (t.val / 8) (t.val % 8) (by omega) (by omega) p u (h0 p) h1

/-! ## The blocks the windows hold -/

variable (V : (c : Dev nD) → (b : Ref sig .tc) → Buf (Elt Ideal) ((c : Thread nD τ).loc b))

private theorem lt64_1 (t : Fin cfg1.N) : t.val < 64 := lt_of_lt_of_eq t.isLt N_1

/-- The index maps over the grid: at point t the first window is on row block t / 8, the second on row block t % 8
    of the same array, the output window on block t / 8 of the column. -/
private theorem idx_facts1 : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- The first window's block at point t holds rows 2048·(t / 8) + p of the array. -/
theorem iblk1_0_apply (c : Dev nD) (t : Fin cfg1.N) (p : Fin 2048) (k : Fin 1024) :
    (iblk1 V c 0 t : Vec Ideal S2048x1024 .bf16) (ix2 p k) = (V c main_v0 : SX.Idx → EReal) (ix2 (blockRow (t.val / 8) p) k) := by
  obtain ⟨e0, e1, e2, e3, e4, e5⟩ := idx_facts1 t
  have ht := lt64_1 t
  have hp := p.isLt
  show V c main_v0 (((cfg1.win 0).blk t).view.emb (ix2 p k)) = V c main_v0 (ix2 (blockRow (t.val / 8) p) k)
  refine congrArg (V c main_v0) ?_
  funext a; apply Fin.ext
  match a with
  | ⟨0, _⟩ => show win1_0.index t (0 : Fin 2) * 2048 + 1 * p.val = (2048 * (t.val / 8) + p.val) % 16384; omega
  | ⟨1, _⟩ => show win1_0.index t (1 : Fin 2) * 1024 + 1 * k.val = k.val; omega

/-- The second window's block at point t holds rows 2048·(t % 8) + q of the same array. -/
theorem iblk1_1_apply (c : Dev nD) (t : Fin cfg1.N) (q : Fin 2048) (k : Fin 1024) :
    (iblk1 V c 1 t : Vec Ideal S2048x1024 .bf16) (ix2 q k) = (V c main_v0 : SX.Idx → EReal) (ix2 (blockRow (t.val % 8) q) k) := by
  obtain ⟨e0, e1, e2, e3, e4, e5⟩ := idx_facts1 t
  have ht := lt64_1 t
  have hq := q.isLt
  show V c main_v0 (((cfg1.win 1).blk t).view.emb (ix2 q k)) = V c main_v0 (ix2 (blockRow (t.val % 8) q) k)
  refine congrArg (V c main_v0) ?_
  funext a; apply Fin.ext
  match a with
  | ⟨0, _⟩ => show win1_1.index t (0 : Fin 2) * 2048 + 1 * q.val = (2048 * (t.val % 8) + q.val) % 16384; omega
  | ⟨1, _⟩ => show win1_1.index t (1 : Fin 2) * 1024 + 1 * k.val = k.val; omega

/-! ## The running maximum after each point -/

/-- After point n the running maximum holds, at row p, the supremum of the masked Gram row 2048·(n / 8) + p over
    the column runs 0 … n % 8. -/
theorem runmax1_eq (c : Dev nD) : ∀ (n : ℕ) (hn : n < cfg1.N) (p : Fin 2048) (u : Fin 1),
    (outsAt1 V c n hn).2 (ix2 p u)
      = (Finset.range (n % 8 + 1)).sup (tileSup (V c main_v0) (blockRow (n / 8) p)) := by
  intro n
  induction n with
  | zero =>
    intro hn p u
    show (stepAt (F := Ideal) c ⟨0, hn⟩ (iblk1 V c 0 ⟨0, hn⟩) (iblk1 V c 1 ⟨0, hn⟩) (VS1_0.read (Elt Ideal) VS1_0.junk)).2 (ix2 p u) = _
    refine (step_snd_apply c ⟨0, hn⟩ (V c main_v0) (iblk1 V c 0 ⟨0, hn⟩) (iblk1 V c 1 ⟨0, hn⟩) (VS1_0.read (Elt Ideal) VS1_0.junk)
      (iblk1_0_apply V c ⟨0, hn⟩) (iblk1_1_apply V c ⟨0, hn⟩) p u).trans ?_
    show (if 0 % 8 = 0 then tileSup (V c main_v0) (blockRow (0 / 8) p) (0 % 8) else _) = _
    rw [if_pos rfl]
    exact (sup_range_zero_add_one _).symm
  | succ n ih =>
    intro hn p u
    show (stepAt (F := Ideal) c ⟨n + 1, hn⟩ (iblk1 V c 0 ⟨n + 1, hn⟩) (iblk1 V c 1 ⟨n + 1, hn⟩) (outsAt1 V c n (Nat.lt_of_succ_lt hn)).2).2 (ix2 p u) = _
    refine (step_snd_apply c ⟨n + 1, hn⟩ (V c main_v0) (iblk1 V c 0 ⟨n + 1, hn⟩) (iblk1 V c 1 ⟨n + 1, hn⟩) (outsAt1 V c n (Nat.lt_of_succ_lt hn)).2
      (iblk1_0_apply V c ⟨n + 1, hn⟩) (iblk1_1_apply V c ⟨n + 1, hn⟩) p u).trans ?_
    show (if (n + 1) % 8 = 0 then tileSup (V c main_v0) (blockRow ((n + 1) / 8) p) ((n + 1) % 8)
      else max ((outsAt1 V c n (Nat.lt_of_succ_lt hn)).2 (ix2 p u)) (tileSup (V c main_v0) (blockRow ((n + 1) / 8) p) ((n + 1) % 8))) = _
    by_cases hz : (n + 1) % 8 = 0
    · rw [if_pos hz, hz]
      exact (sup_range_zero_add_one _).symm
    · rw [if_neg hz, ih (Nat.lt_of_succ_lt hn) p u]
      have h8 : (n + 1) / 8 = n / 8 := by omega
      have hm : (n + 1) % 8 = n % 8 + 1 := by omega
      rw [h8, hm]
      exact (sup_range_succ_succ _ _).symm

/-- Where the column block is the last, the output block holds, at row p, the row's maximum. -/
theorem out1_fst_apply (c : Dev nD) (t : Fin cfg1.N) (h3 : t.val % 8 = 7) (p : Fin 2048) (u : Fin 1) :
    (outsAt1 V c t.val t.isLt).1 (ix2 p u) = rowMax (V c main_v0) (blockRow (t.val / 8) p) := by
  have e := outsAt1_eq V c t
  have f := stepAt_fst (F := Ideal) c t (iblk1 V c 0 t) (iblk1 V c 1 t) (prev1 V c t) h3
  rw [← e] at f
  rw [f, runmax1_eq V c t.val t.isLt p u, h3]
  exact tileSup_all _ _

/-- At a point whose column block is the last, the output block holds at (p, u) the column of row maxima at row
    2048·(t / 8) + p. -/
theorem point1 (V : (c : Dev nD) → (b : Ref sig .tc) → Buf (Elt Ideal) ((c : Thread nD τ).loc b)) (c : Dev nD)
    (t : Fin cfg1.N) (h7 : t.val % 8 = 7) (p : Fin 2048) (u : Fin 1) :
    (dat1 (F := Ideal) V c).after 2 t (ix2 p u)
      = Cert.KoLeo.rowMaxCol (V c main_v0)
          (ix2 ⟨2048 * (t.val / 8) + p.val, by have := t.isLt; have : cfg1.N = 64 := N_1; have := p.isLt; omega⟩ u) := by
  rw [after1_2, Cert.KoLeo.rowMaxCol_ix2, out1_fst_apply V c t h7 p u]
  exact congrArg (rowMax (V c main_v0)) (Fin.ext (blockRow_val (t.val / 8) (by have := lt64_1 t; omega) p))

/-! ## The column after the region -/

/-- After all 64 points the column behind the output window holds the row maxima of the masked Gram matrix of the
    array the input windows read: the eight write-backs, each the block of row maxima of its row block, cover it. -/
theorem final1 (V : (c : Dev nD) → (b : Ref sig .tc) → Buf (Elt Ideal) ((c : Thread nD τ).loc b)) (c : Dev nD) :
    (dat1 (F := Ideal) V c).arrAt 2 cfg1.N = Cert.KoLeo.rowMaxCol (V c main_v0) :=
  final1_of V c (Cert.KoLeo.rowMaxCol (V c main_v0)) (point1 V c)

end Cert.KernelIdeal.Hand

end
-- ==== Proof.Tail.lean ====
/-
  The host operations after the two regions, as one function of the column of row maxima.

  After the second region the program reshapes the column of 16384 row maxima to a vector, and applies to it a
  fixed chain of pointwise operations, one sum, a division and a negation. Reading what the last buffer holds
  after the seventeen operations gives that chain applied to the reshaped column; the reshape of a [16384, 1]
  column to a [16384] vector keeps each row's value (the row-major position of (r, 0) is r), so when the column
  holds the row maxima of y, the vector is the vector of row maxima of y and the result is the specification's
  tail of it. The chain itself is never opened: the two sides are the same function of their vector argument.
-/
import proofs.«121834_j13924283973723_2_alg».proof.Proof.Gen.KernelIdeal.Launch
import proofs.«121834_j13924283973723_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.TcCoe Idealize.ShloMosaic.ValueIdx Idealize.SL.Sem

/-- A [16384, 1] column reshaped to a [16384] vector reads, at r, the column at (r, 0): both have row-major position r. -/
theorem shapeCast_col_vec_apply {α : Type} (x : S16384x1.Idx → α) (h : S16384x1.ShapeCasts S16384) (r : Fin 16384) :
    shapeCast S16384 x h (ix1 r) = x (ix2 r (0 : Fin 1)) :=
  shapeCast_apply x h _ _ (by
    rw [Shape.rowMajor_val_two, Shape.rowMajor_val_one]
    show r.val * 1 + 0 = r.val
    omega)

/-- So the reshaped column of row maxima is the vector of row maxima. -/
theorem reshaped_rowMaxCol (x : S16384x1.Idx → EReal) (y : Cert.KoLeo.SX.Idx → EReal) (h : S16384x1.ShapeCasts S16384)
    (hx : x = Cert.KoLeo.rowMaxCol y) : (shapeCast S16384 x h : S16384.Idx → EReal) = Cert.KoLeo.rowMaxVec y := by
  funext i
  obtain ⟨r, rfl⟩ : ∃ r : Fin 16384, i = ix1 r := ⟨i 0, eq_ix1 i⟩
  rw [shapeCast_col_vec_apply, hx]
  rfl

theorem tail_spec (W : Valuation τ sig (Elt Ideal)) (y : Cert.KoLeo.SX.Idx → EReal)
    (h : (W (Proc.devRef .tc main_v1) : S16384x1.Idx → EReal) = Cert.KoLeo.rowMaxCol y) :
    (StableHlo.after (hostOps2 (F := Ideal)) W (Proc.devRef .tc main_v13) : S_.Idx → EReal)
      = Cert.KoLeo.tailOf Facts₀.bcast_S_S16384 Facts₀.reducesTo_S16384_S_d0 Facts₀.h_S_ (Cert.KoLeo.rowMaxVec y) := by
  after_results
  refine Eq.trans ?_ (congrArg (Cert.KoLeo.tailOf Facts₀.bcast_S_S16384 Facts₀.reducesTo_S16384_S_d0 Facts₀.h_S_)
    (reshaped_rowMaxCol (W (Proc.devRef .tc main_v1)) y shapeCasts_S16384x1_S16384 h))
  rfl

end Cert.KernelIdeal.Hand

end
-- ==== Proof.Value.lean ====
/-
  The kernel program's result at the exact-arithmetic instance, as the specification's function of the argument.

  The first region leaves the unit rows of the argument in its output array; the second, reading them through its two
  windows, leaves the column of the masked Gram matrix's row maxima; the host lines after them are the tail. So
  the result buffer ends at the tail of the row maxima of the unit rows.
-/
import proofs.«121834_j13924283973723_2_alg».proof.Proof.Run
import proofs.«121834_j13924283973723_2_alg».proof.Proof.Region0Value
import proofs.«121834_j13924283973723_2_alg».proof.Proof.Region1Value
import proofs.«121834_j13924283973723_2_alg».proof.Proof.Tail

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After the first region the unit rows' buffer holds the unit rows of the argument. -/
theorem unitRows_eq (c : Dev nD) :
    (U1 (F := Ideal) m ρ c main_v0 : S16384x1024.Idx → EReal) = Cert.KoLeo.unitArr (m ((c : Thread nD τ).loc main_arg0)) :=
  (B1_arr (F := Ideal) m ρ c 1).trans (final0 (U0 (F := Ideal) m ρ) c)

/-- After the second region the row maxima's buffer holds the row maxima of the masked Gram matrix of the unit rows. -/
theorem rowMaxima_eq (c : Dev nD) :
    (B2 (F := Ideal) m ρ c (Proc.devRef .tc main_v1) : S16384x1.Idx → EReal)
      = Cert.KoLeo.rowMaxCol (Cert.KoLeo.unitArr (m ((c : Thread nD τ).loc main_arg0))) :=
  (B2_main_v1 (F := Ideal) m ρ c).trans ((final1 (U1 (F := Ideal) m ρ) c).trans (congrArg Cert.KoLeo.rowMaxCol (unitRows_eq m ρ c)))

/-- The result buffer after the host lines. -/
theorem result_eq (c : Dev nD) :
    (B3 (F := Ideal) m ρ c (Proc.devRef .tc main_v13) : S_.Idx → EReal)
      = Cert.KoLeo.result Facts₀.bcast_S_S16384 Facts₀.reducesTo_S16384_S_d0 Facts₀.h_S_ (m ((c : Thread nD τ).loc main_arg0)) :=
  tail_spec (B2 (F := Ideal) m ρ c) _ (rowMaxima_eq m ρ c)

/-- The kernel program's run with its result named by the specification. -/
theorem run_spec : θ_run (defs (F := Ideal)) (onTc (τ := τ) (main (F := Ideal))) ⟨m, fun _ => 0, ρ⟩ (fun r => ∀ c : Dev nD,
      r.2.mem ((c.tc : Thread nD τ).loc main_v13)
          = Cert.KoLeo.result Facts₀.bcast_S_S16384 Facts₀.reducesTo_S16384_S_d0 Facts₀.h_S_ (m ((c.tc : Thread nD τ).loc main_arg0))
      ∧ r.2.mem ((c.tc : Thread nD τ).loc main_arg0) = m ((c.tc : Thread nD τ).loc main_arg0)) :=
  (θ_run defs _ _).mono (fun _ h c => ⟨(h c).1.trans (result_eq m ρ c), (h c).2⟩) (run_both (F := Ideal) m ρ)

end Cert.KernelIdeal.Hand

end
-- ==== Proof.LibMaxReduce.lean ====
/-
  The maximum-reduction of an array along one axis, read at the extended reals.

  A reduction by `max` that starts from the bottom element is a supremum: the order of the fold is
  immaterial and the starting value is absorbed.  The first lemma says so for any finite set in any linear
  order with a bottom element; the second reads the f32 word `0xFF800000` as that bottom element; the third
  applies both to a one-operand host reduction by `maximumf` over ONE axis, giving the supremum over that
  axis's coordinates of the operand at the result index with the coordinate inserted.
-/
import Idealize.ShloMosaic.PureOps.Ideal.Laws

noncomputable section

namespace Cert.LibMaxReduce

open Idealize.ShloMosaic

/-- In a linear order with a bottom element, folding `max` from `⊥` over a finite set is the supremum over
    the set: `⊥` is the identity of `max`, and `max` is the join. -/
theorem fold_max_bot_eq_sup {ι α : Type*} [LinearOrder α] [OrderBot α] (s : Finset ι) (f : ι → α) :
    s.fold max ⊥ f = s.sup f := by
  induction s using Finset.cons_induction with
  | empty => rfl
  | cons a s ha ih => rw [Finset.fold_cons, Finset.sup_cons, ih]

/-- The f32 word `0xFF800000` (sign set, exponent all ones, significand zero) denotes `-∞`, the bottom
    element of the extended reals. -/
theorem ofBits_neg_inf_f32 : Ideal.ofBits .f32 0xFF800000#32 = ⊥ := by
  simp [Ideal.ofBits, Ideal.ieee]

/-- At the extended reals the fold of `maximumf` from `⊥` over a finite set is the supremum over the set. -/
theorem fold_maximumf_bot_eq_sup {ι : Type*} {φ : FTy} (s : Finset ι) (f : ι → Ideal φ) :
    s.fold (FloatOps.maximumf (F := Ideal) (φ := φ)) ⊥ f = s.sup f := by
  induction s using Finset.cons_induction with
  | empty => rfl
  | cons a s ha ih => rw [Finset.fold_cons, Finset.sup_cons, ih]; rfl

/-- A one-operand host reduction by `maximumf` over ONE axis `a`, whose initial value is `⊥`, is at each
    result index `j` the supremum, over the coordinates `k` of axis `a`, of the operand at `j` with `k`
    inserted on axis `a`. -/
theorem hostReduce_maximumf_single {s t u : Shape} {a : Fin s.rank} {φ : FTy} (x : FVec Ideal s φ)
    (init : FVec Ideal u φ) (h' : s.ReducesTo [a] t) (h : s.Reduces [a] t) (hu : 0 < u.numel)
    (hinit : init (Shape.Idx.first hu) = ⊥) (j : t.Idx) :
    Host.reduce FloatOps.maximumf x init h' hu j
      = (Finset.univ : Finset (Fin (s.size a))).sup fun k => x (h.lift j k) := by
  rw [Host.reduce_eq_fold_single FloatOps.maximumf x init h' h hu j, hinit, fold_maximumf_bot_eq_sup]
  rfl

end Cert.LibMaxReduce

end
-- ==== Proof.RefValue.lean ====
/-
  The value of the reference program.

  The reference computes, with whole arrays: the squares of the entries, each row's sum of squares, its
  square root, the maximum of that with the clamp constant, the entries divided by it (the unit rows), the
  product of the unit rows with their transpose (the Gram matrix), the diagonal replaced by -∞ (where the
  row number equals the column number), each row's maximum over the columns, and the shared tail.  Read one
  element at a time, each stage is the corresponding definition of the shared specification: the row norm,
  the unit rows, the Gram entry, the masked Gram entry, the row maximum.  The tail is the same chain of
  operations on both sides and is never opened.
-/
import proofs.«121834_j13924283973723_2_alg».proof.Proof.Gen.ReferenceIdeal.Read
import proofs.«121834_j13924283973723_2_alg».proof.Proof.Spec
import proofs.«121834_j13924283973723_2_alg».proof.Proof.LibMaxReduce

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.KoLeo Cert.LibMaxReduce

/-- The input array's type, as the generated modules spell it. -/
abbrev In : Type := (⟨S16384x1024, .f32⟩ : BufTy).Contents (Elt Ideal)

/-! ## The row norm -/

/-- Row `r`'s sum of squares: the zero word plus the sum over the columns of the squared entries. -/
theorem sumsq_ix1 (x : In) (r : Fin 16384) :
    val_main_call0_v1 (F := Ideal) x (ix1 r) = ∑ k : Fin 1024, x (ix2 r k) * x (ix2 r k) := by
  rw [val_main_call0_v1_apply, val_main_call0_cst_apply]
  show Ideal.ofBits .f32 0x00000000#32 + _ = _
  rw [Ideal.ofBits_zero_f32, zero_add]
  refine Finset.sum_congr rfl fun k _ => ?_
  have e : idx_main_call0_v1 (ix1 r) k = ix2 r k :=
    funext fun a => Fin.ext (by match a with | ⟨0, _⟩ => rfl | ⟨1, _⟩ => rfl)
  rw [val_main_call0_v0_apply, e]
  rfl

/-- The clamped norm column at row `r` is the specification's row norm. -/
theorem norm_ix2 (x : In) (r : Fin 16384) (u : Fin 1) :
    val_main_v2 (F := Ideal) x (ix2 r u) = rowNorm x r := by
  have e : idx_main_call0_v2 (ix2 r u) = ix1 r :=
    funext fun a => Fin.ext (by match a with | ⟨0, _⟩ => rfl)
  rw [val_main_v2_apply, val_main_v0_apply, val_main_call0_v2_apply, e, sumsq_ix1, val_main_v1_apply,
    val_main_cst_apply]
  rfl

/-! ## The unit rows -/

/-- Entry `(r, k)` of the quotient array is the specification's unit row entry. -/
theorem unit_ix2 (x : In) (r : Fin 16384) (k : Fin 1024) :
    val_main_v4 (F := Ideal) x (ix2 r k) = unit x r k := by
  have e : idx_main_v3 (ix2 r k) = ix2 r (0 : Fin 1) :=
    funext fun a => Fin.ext (by match a with | ⟨0, _⟩ => rfl | ⟨1, _⟩ => rfl)
  rw [val_main_v4_apply, val_main_v3_apply, e, norm_ix2]
  rfl

/-! ## The Gram matrix -/

/-- Entry `(r, q)` of the product of the unit rows with their transpose is the Gram entry of rows `r`, `q`. -/
theorem gram_ix2 (x : In) (r q : Fin 16384) :
    val_main_v6 (F := Ideal) x (ix2 r q) = sim (unitArr x) r q := by
  rw [val_main_v6_apply, sim]
  refine Finset.sum_congr rfl fun k _ => ?_
  have el : lidx_main_v6 (ix2 r q) k = ix2 r k :=
    funext fun a => Fin.ext (by match a with | ⟨0, _⟩ => rfl | ⟨1, _⟩ => rfl)
  have er : idx_main_v5 (ridx_main_v6 (ix2 r q) k) = ix2 q k :=
    funext fun a => Fin.ext (by match a with | ⟨0, _⟩ => rfl | ⟨1, _⟩ => rfl)
  rw [val_main_v5_apply, el, er, unit_ix2, unit_ix2]
  rfl

/-! ## The diagonal mask -/

/-- Row and column numbers are below 2^32, so their 32-bit words are equal exactly when they are. -/
theorem word_eq_iff (r q : Fin 16384) : BitVec.ofNat 32 r.val = BitVec.ofNat 32 q.val ↔ r = q := by
  constructor
  · intro h
    have h' := congrArg BitVec.toNat h
    rw [BitVec.toNat_ofNat, BitVec.toNat_ofNat, Nat.mod_eq_of_lt (by omega), Nat.mod_eq_of_lt (by omega)] at h'
    exact Fin.ext h'
  · rintro rfl; rfl

/-- The comparison of the two coordinate arrays is the bit of "row = column". -/
theorem diag_ix2 (r q : Fin 16384) :
    val_main_v11 (F := Ideal) (ix2 r q) = if r = q then 1#1 else 0#1 := by
  rw [val_main_v11_apply, val_main_v10_apply, val_main_v7_apply, val_main_v8_apply, val_main_v9_apply,
    val_main_c_apply]
  show IntOp.cmpi .eq (BitVec.ofNat 32 r.val + 0#32) (BitVec.ofNat 32 q.val) = _
  rw [BitVec.add_zero]
  by_cases h : r = q
  · rw [if_pos h, h]; exact IntOp.cmpi_eq.mpr rfl
  · rw [if_neg h]
    exact eq_zero_of_ne_one fun h1 => h ((word_eq_iff r q).mp (IntOp.cmpi_eq.mp h1))

/-- Entry `(r, q)` of the masked product is the specification's masked Gram entry. -/
theorem masked_ix2 (x : In) (r q : Fin 16384) :
    val_main_v12 (F := Ideal) x (ix2 r q) = masked (unitArr x) r q := by
  rw [val_main_v12_apply, diag_ix2, gram_ix2, val_main_call1_v1_apply, val_main_call1_v0_apply,
    val_main_cst_0_apply, masked]
  by_cases h : r = q
  · rw [if_pos h, if_pos h, select_one]; exact ofBits_neg_inf_f32
  · rw [if_neg h, if_neg h, select_zero]

/-! ## The row maximum -/

/-- The shape fact the inserted index is named from. -/
theorem reduces_cols : S16384x16384.Reduces [1] S16384 := by decide

/-- Row `r`'s maximum over the columns of the masked product is the specification's row maximum. -/
theorem rowMax_ix1 (x : In) (r : Fin 16384) :
    val_main_v13 (F := Ideal) x (ix1 r) = rowMax (unitArr x) r := by
  unfold val_main_v13
  have hy : ∀ q : Fin 16384, val_main_v12 (F := Ideal) x (ix2 r q) = masked (unitArr x) r q := masked_ix2 x r
  generalize val_main_v12 (F := Ideal) x = y at hy ⊢
  rw [hostReduce_maximumf_single y (val_main_cst_1 (F := Ideal)) reducesTo_S16384x16384_S16384_d1 reduces_cols h_S_
    ofBits_neg_inf_f32 (ix1 r), rowMax]
  show (Finset.univ : Finset (Fin 16384)).sup (fun k => y (reduces_cols.lift (ix1 r) k)) = _
  refine congrArg (Finset.univ : Finset (Fin 16384)).sup (funext fun q => ?_)
  have e : reduces_cols.lift (ix1 r) q = ix2 r q :=
    funext fun a => Fin.ext (by match a with | ⟨0, _⟩ => rfl | ⟨1, _⟩ => rfl)
  rw [e]
  exact hy q

/-- The vector of row maxima is the specification's. -/
theorem rowMaxVec_eq (x : In) : val_main_v13 (F := Ideal) x = rowMaxVec (unitArr x) := by
  funext i
  obtain ⟨r, rfl⟩ : ∃ r : Fin 16384, i = ix1 r := ⟨i 0, eq_ix1 i⟩
  exact rowMax_ix1 x r

/-! ## The whole value -/

/-- The reference's result is the specification's: the shared tail of the row maxima of the unit rows. -/
theorem value_eq (x : In) :
    val_main_v24 (F := Ideal) x
      = result Facts₀.bcast_S_S16384 Facts₀.reducesTo_S16384_S_d0 Facts₀.h_S_ x := by
  unfold result
  rw [← rowMaxVec_eq x]
  unfold val_main_v24 val_main_v23 val_main_v22 val_main_v21 val_main_v20 val_main_v19 val_main_v17 val_main_v15
  generalize val_main_v13 (F := Ideal) x = v
  rfl

/-- From any memory with zero counters, every weakly fair execution of the reference terminates with its
    result buffer at the specification's value of the argument, the argument unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread _ _).loc main_v24)
          = result Facts₀.bcast_S_S16384 Facts₀.reducesTo_S16384_S_d0 Facts₀.h_S_
              (m ((c.tc : Thread _ _).loc main_arg0))
      ∧ r.2.mem ((c.tc : Thread _ _).loc main_arg0) = m ((c.tc : Thread _ _).loc main_arg0) :=
  (θ_run _ _ _).mono
    (fun _ h c => ⟨(h c).1.trans ((val_main_v24_eq (F := Ideal) _).trans (value_eq _)), (h c).2⟩)
    (Cert.ReferenceIdeal.Value.run (F := Ideal) m ρ)

end Cert.ReferenceIdeal.RefValue

end
-- ==== Proof.lean ====
/-
  A row-normalised nearest-neighbour loss: the kernel program against its whole-array reference, on the extended reals.

  Both programs divide each of the 16384 rows of the argument by its Euclidean norm clamped below, form the Gram
  matrix of the unit rows with its diagonal at -∞, take each row's maximum, and end with the same tail
  (2 - 2·max + ε, square root, logarithm, mean, negation).  The kernel program does this in two grid regions: one
  normalises blocks of 512 rows; the other walks an 8 × 8 grid of 2048 × 2048 Gram tiles, keeping a running row
  maximum in a scratch column, masking the diagonal only in the tiles that meet it, and writing a row block's
  maxima out after its eighth tile.  The reference does it with whole arrays.

  The two sides differ only in how sums and maxima are arranged: a tile's entry is the same sum over the 1024
  features as the whole Gram matrix's; a row's maximum over 16384 columns is the maximum of its eight tile maxima;
  the mask hits a tile's local diagonal exactly when the tile sits on the global one.  None of this needs the
  inputs finite (max is associative, commutative and idempotent on the extended reals, -∞ its identity), so the
  precondition is never opened.

  The frames: the reference is a straight line of host operations; each kernel program is run as three segments —
  two regions and the host tail — with the second region's two input windows holding the unit rows' buffer at one
  half of the full share each.  The word-level program's frame is the idealized program's, in its own namespace.
  The ideal pass rewrote nothing, so the preservation claim is `True`.
-/
import proofs.«121834_j13924283973723_2_alg».proof.Defs
import proofs.«121834_j13924283973723_2_alg».proof.Proof.Gen.Kernel
import proofs.«121834_j13924283973723_2_alg».proof.Proof.Gen.KernelIdeal
import proofs.«121834_j13924283973723_2_alg».proof.Proof.Gen.ReferenceIdeal
import proofs.«121834_j13924283973723_2_alg».proof.Proof.Gen.Pre_finite_inputs
import proofs.«121834_j13924283973723_2_alg».proof.Proof.Gen.ReferenceIdeal.Run
import proofs.«121834_j13924283973723_2_alg».proof.Proof.Gen.ReferenceIdeal.Read
import proofs.«121834_j13924283973723_2_alg».proof.Proof.Bits.Run
import proofs.«121834_j13924283973723_2_alg».proof.Proof.Value
import proofs.«121834_j13924283973723_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the argument both programs end at the specification's value of it. -/
theorem algebraic : Cert.algebraic_KernelIdeal_ReferenceIdeal := by
  intro m ρ m' ρ' _ hagree
  refine ⟨fun c => Cert.KoLeo.result Cert.KernelIdeal.Facts₀.bcast_S_S16384 Cert.KernelIdeal.Facts₀.reducesTo_S16384_S_d0
      Cert.KernelIdeal.Facts₀.h_S_ (m ((c.tc : Thread Cert.KernelIdeal.nD Cert.KernelIdeal.τ).loc Cert.KernelIdeal.main_arg0)),
    Cert.KernelIdeal.Hand.run_spec m ρ, ?_⟩
  refine (θ_run Cert.ReferenceIdeal.defs _ _).mono (fun _ h c => ⟨(h c).1.trans ?_, (h c).2⟩)
    (Cert.ReferenceIdeal.RefValue.run_spec m' ρ')
  rw [hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
